-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S128x256 : Shape := ⟨2, ![128, 256]⟩
abbrev S1x128 : Shape := ⟨2, ![1, 128]⟩
abbrev S128x128 : Shape := ⟨2, ![128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S4096x4096 .f32) (main_arg1 : FVec F S4096x256 .f32) (main_arg2 : FVec F S128x256 .f32) (main_arg3 : FVec F S1x128 .f32) (main_arg4 : FVec F S128x128 .f32) (main_arg5 : FVec F S1x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_v13 main_v16
-- ==== Kernel.lean ====
abbrev S4096x4096 : Shape := ⟨2, ![4096, 4096]⟩
abbrev S4096x256 : Shape := ⟨2, ![4096, 256]⟩
abbrev S128x256 : Shape := ⟨2, ![128, 256]⟩
abbrev S1x128 : Shape := ⟨2, ![1, 128]⟩
abbrev S128x128 : Shape := ⟨2, ![128, 128]⟩
abbrev S256x128 : Shape := ⟨2, ![256, 128]⟩
abbrev S4096x128 : Shape := ⟨2, ![4096, 128]⟩
abbrev S256x256 : Shape := ⟨2, ![256, 256]⟩
abbrev S256x4096 : Shape := ⟨2, ![256, 4096]⟩

abbrev nBuf : Space → Nat
  | .hbm => 12
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S128x256, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S256x128, .f32⟩
  | .hbm, ⟨7, _⟩ => ⟨S128x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x4096, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x4096, .f32⟩
  | .local _ .vmem, ⟨6, _⟩ => ⟨S256x4096, .f32⟩
  | .local _ .vmem, ⟨7, _⟩ => ⟨S4096x128, .f32⟩
  | .local _ .vmem, ⟨8, _⟩ => ⟨S1x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S256x4096, .f32⟩
  | .local _ .vmem, ⟨13, _⟩ => ⟨S256x4096, .f32⟩
  | .local _ .vmem, ⟨14, _⟩ => ⟨S4096x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S4096x128, .f32⟩
  | .local _ .vmem, ⟨21, _⟩ => ⟨S256x4096, .f32⟩
  | .local _ .vmem, ⟨22, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S128x256_S256x128_1_0 : S128x256.Transposes [1, 0] S256x128
  transposes_S128x128_S128x128_1_0 : S128x128.Transposes [1, 0] S128x128
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x4096_S256x4096_0_0 : ∀ a, (![0, 0] : Fin 2 → Nat) a + S256x4096.size a ≤ S256x4096.size a
  h_S256x4096 : 0 < S256x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S256x256_S256x128_S256x128_1_0_0_1_n_n_wf : DotDims.WF S256x256 S256x128 S256x128 [1] [0] [0] [1] [] []
  dot_S256x4096_S4096x128_S256x128_1_0_0_1_n_n_wf : DotDims.WF S256x4096 S4096x128 S256x128 [1] [0] [0] [1] [] []
  dot_S256x128_S128x128_S256x128_1_0_0_1_n_n_wf : DotDims.WF S256x128 S128x128 S256x128 [1] [0] [0] [1] [] []
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S4096x128.size a
  hwx1_4 : ∀ i : grid1.Coords, EltTy.bits .f32 = 32 ∨ (Rect.block (s := S4096x128) S256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S4096x128.size a
  hwx2_3 : ∀ i : grid2.Coords, EltTy.bits .f32 = 32 ∨ (Rect.block (s := S4096x128) S256x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S4096x128.size a
  hwx3_0 : ∀ i : grid3.Coords, EltTy.bits .f32 = 32 ∨ (Rect.block (s := S4096x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S4096x4096.size a
  hwx3_2 : ∀ i : grid3.Coords, EltTy.bits .f32 = 32 ∨ (Rect.block (s := S4096x4096) S256x4096.size (cc3_transform_2 i) (hinb3_2 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S128x256 : Shape := ⟨2, ![128, 256]⟩
abbrev S1x128 : Shape := ⟨2, ![1, 128]⟩
abbrev S128x128 : Shape := ⟨2, ![128, 128]⟩
abbrev S256x128 : Shape := ⟨2, ![256, 128]⟩
abbrev S4096x128 : Shape := ⟨2, ![4096, 128]⟩
abbrev S512x256 : Shape := ⟨2, ![512, 256]⟩
abbrev S512x128 : Shape := ⟨2, ![512, 128]⟩
abbrev S512x1024 : Shape := ⟨2, ![512, 1024]⟩
abbrev S1024x128 : Shape := ⟨2, ![1024, 128]⟩

abbrev nBuf : Space → Nat
  | .hbm => 12
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S128x256, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S256x128, .f32⟩
  | .hbm, ⟨7, _⟩ => ⟨S128x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x4096, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .f32⟩
  | .local _ .vmem, ⟨4, _⟩ => ⟨S512x128, .f32⟩
  | .local _ .vmem, ⟨5, _⟩ => ⟨S512x1024, .f32⟩
  | .local _ .vmem, ⟨6, _⟩ => ⟨S512x1024, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S128x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S1024x128, .f32⟩
  | .local _ .vmem, ⟨17, _⟩ => ⟨S1024x128, .f32⟩
  | .local _ .vmem, ⟨18, _⟩ => ⟨S1x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S1024x128, .f32⟩
  | .local _ .vmem, ⟨24, _⟩ => ⟨S1024x128, .f32⟩
  | .local _ .vmem, ⟨25, _⟩ => ⟨S512x1024, .f32⟩
  | .local _ .vmem, ⟨26, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  transposes_S128x256_S256x128_1_0 : S128x256.Transposes [1, 0] S256x128
  transposes_S128x128_S128x128_1_0 : S128x128.Transposes [1, 0] S128x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S512x256_S256x128_S512x128_1_0_0_1_n_n_wf : DotDims.WF S512x256 S256x128 S512x128 [1] [0] [0] [1] [] []
  dot_S512x1024_S1024x128_S512x128_1_0_0_1_n_n_wf : DotDims.WF S512x1024 S1024x128 S512x128 [1] [0] [0] [1] [] []
  dot_S512x128_S128x128_S512x128_1_0_0_1_n_n_wf : DotDims.WF S512x128 S128x128 S512x128 [1] [0] [0] [1] [] []
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .f32 = 32 ∨ (Rect.block (s := S4096x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S4096x128.size a
  hwx3_0 : ∀ i : grid3.Coords, EltTy.bits .f32 = 32 ∨ (Rect.block (s := S4096x128) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x4096.size a
  hwx3_2 : ∀ i : grid3.Coords, EltTy.bits .f32 = 32 ∨ (Rect.block (s := S4096x4096) S512x1024.size (cc3_transform_2 i) (hinb3_2 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== Proof.KBReg0.lean ====
/-
  Region 0 of the program (the first pallas_call): the feature projection  Y1 = H0 · W1ᵀ, one block of 256 rows per
  grid point. The body loads its row block of H0 (256×256) and the whole transposed weight (256×128), multiplies them
  into a zero accumulator and stores the 256×128 product over its output block. Stated at a parameter `V`, the
  contents of the core's buffers when the region is entered, and at any float instance `F`:
  what each window's staging buffer holds around the body, the body's triple, the proof data and the body obligation.
-/
import proofs.«170631_g2000106516245658_pallasbulk_929_4_alg».proof.Proof.Gen.Kernel.Launch
import proofs.«170631_g2000106516245658_pallasbulk_929_4_alg».proof.Proof.Gen.Kernel.Skeleton
import proofs.«170631_g2000106516245658_pallasbulk_929_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The H0 window's staging buffer holds the point's row block, whether or not it was fetched at this point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's staging buffer holds the whole transposed weight at every point (its block never moves). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 256×256 rectangle (the load of the H0 block) and the whole 256×128 one (the weight's load, the store). -/
abbrev whole0_256x256 : Rect S256x256 := Rect.unit (s := S256x256) ![0, 0] S256x256.size inb_S256x256_S256x256_0_0
abbrev whole0_256x128 : Rect S256x128 := Rect.unit (s := S256x128) ![0, 0] S256x128.size inb_S256x128_S256x128_0_0

/-- What the body leaves in the output block: its one store, of the product of the two loaded blocks. -/
def prod0 (x0 : Vec F S256x256 .f32) (x1 : Vec F S256x128 .f32) : Vec F S256x128 .f32 :=
  View.canon [⟨whole0_256x128, k0_pay1 (View.ld x0 whole0_256x256) (View.ld x1 whole0_256x128)⟩]

/-- The one store covers the output block. -/
theorem prod0_cover (p0 : Vec F S256x128 .f32) (y : S256x128.Idx) :
    ∃ pc ∈ ([⟨whole0_256x128, p0⟩] : List (View.Piece (Elt F) S256x128 .f32)), y ∈ pc.1.set :=
  View.cover_of_tiled [⟨whole0_256x128, p0⟩] S256x128.size (by rfl) y

set_option maxHeartbeats 1000000 in
/-- The body on whole staging memrefs: the inputs are read and kept, the output ends at `prod0` of the inputs. -/
theorem body0_triple (c : Dev nD) (E : Set ℕ) (i : grid0.Coords) (arg1 : Memref sig .tc .vmem S256x256 .f32) (harg1 : arg1.IsWhole)
    (arg2 : Memref sig .tc .vmem S256x128 .f32) (harg2 : arg2.IsWhole) (arg3 : Memref sig .tc .vmem S256x128 .f32) (harg3 : arg3.IsWhole)
    (x0 : Vec F S256x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__y1_kernel i arg1 harg1 arg2 harg2 arg3 harg3) K := by
  simp only [cc0__y1_kernel_eq_skeleton]; unfold cc0__y1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The proof data of the region on core `c`: the arrays as the region finds them; after the body each input's buffer
    still at its block and the output's at the product of the input blocks; the invariant is the rest of the scoped
    buffers and the generator register, untouched; nothing owed; full shares. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = prod0 (blk0 V c 0 t) (blk0 V c 1 t) := by dsimp only [data0]

theorem data0_before_0 (c : Dev nD) (t : Fin cfg0.N) (d) : (data0 V c).before 0 t d = blk0 V c 0 t :=
  held0_0_of V (data0 V c) (data0_A V c 0) (data0_after_0 V c) t d
theorem data0_before_1 (c : Dev nD) (t : Fin cfg0.N) (d) : (data0 V c).before 1 t d = blk0 V c 1 t :=
  held0_1_of V (data0 V c) (data0_A V c 1) (data0_after_1 V c) t d

/-- What the body is called with at point `t`, -/
def body0_pre (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def body0_post (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0_sound (c : Dev nD) (t : Fin cfg0.N) :
    body0_pre V c t ⊢ wp frame (wpE (defs₀ (F := F)) Variants.none c none) Set.univ (bodyAt0 t) (fun _ => body0_post V c t) := by
  unfold body0_pre body0_post bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation0 (c : Dev nD) : BodyObligation (data0 (F := F) V c) (defs₀ (F := F)) Variants.none () Set.univ := fun t => by
  rw [bigSep_W0, bigSep_W0]
  exact body0_sound V c t

end Cert.Kernel.Hand

end
-- ==== Proof.KBReg1.lean ====
/-
  Region 1 of the program: the first graph-convolution layer fused with the second projection,
      Y2 = relu(A · Y1 + b1) · W2ᵀ,
  one block of 256 rows of A per grid point against the whole Y1 (the contraction over all 4096 columns in one step), the
  bias row broadcast down the rows, the maximum with zero, and the product with the whole 128×128 transposed weight.
  Stated at the entry contents `V` of the core's buffers and at any float instance `F`.
-/
import proofs.«170631_g2000106516245658_pallasbulk_929_4_alg».proof.Proof.Gen.Kernel.Launch
import proofs.«170631_g2000106516245658_pallasbulk_929_4_alg».proof.Proof.Gen.Kernel.Skeleton
import proofs.«170631_g2000106516245658_pallasbulk_929_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The A window's staging buffer holds the point's block of 256 rows, fetched at this point or not. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Y1 window's staging buffer holds the whole of Y1 at every point (its block never moves). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The bias window's staging buffer holds the bias row at every point. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The weight window's staging buffer holds the whole transposed weight at every point. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole rectangles the body loads and stores through. -/
abbrev whole1_256x4096 : Rect S256x4096 := Rect.unit (s := S256x4096) ![0, 0] S256x4096.size inb_S256x4096_S256x4096_0_0
abbrev whole1_4096x128 : Rect S4096x128 := Rect.unit (s := S4096x128) ![0, 0] S4096x128.size inb_S4096x128_S4096x128_0_0
abbrev whole1_1x128 : Rect S1x128 := Rect.unit (s := S1x128) ![0, 0] S1x128.size inb_S1x128_S1x128_0_0
abbrev whole1_128x128 : Rect S128x128 := Rect.unit (s := S128x128) ![0, 0] S128x128.size inb_S128x128_S128x128_0_0
abbrev whole1_256x128 : Rect S256x128 := Rect.unit (s := S256x128) ![0, 0] S256x128.size inb_S256x128_S256x128_0_0

/-- What the body leaves in the output block: its one store, of relu(A_blk · Y1 + b1) · W2ᵀ over the loaded blocks. -/
def hid1 (x0 : Vec F S256x4096 .f32) (x1 : Vec F S4096x128 .f32) (x2 : Vec F S1x128 .f32) (x3 : Vec F S128x128 .f32) : Vec F S256x128 .f32 :=
  View.canon [⟨whole1_256x128, k1_pay1 (View.ld x0 whole1_256x4096) (View.ld x1 whole1_4096x128) (View.ld x2 whole1_1x128) (View.ld x3 whole1_128x128)⟩]

/-- The one store covers the output block. -/
theorem hid1_cover (p0 : Vec F S256x128 .f32) (y : S256x128.Idx) :
    ∃ pc ∈ ([⟨whole1_256x128, p0⟩] : List (View.Piece (Elt F) S256x128 .f32)), y ∈ pc.1.set :=
  View.cover_of_tiled [⟨whole1_256x128, p0⟩] S256x128.size (by rfl) y

set_option maxHeartbeats 1000000 in
/-- The body on whole staging memrefs: the inputs are read and kept, the output ends at `hid1` of the inputs. -/
theorem body1_triple (c : Dev nD) (E : Set ℕ) (i : grid1.Coords) (arg1 : Memref sig .tc .vmem S256x4096 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S256x128 .f32) (harg5 : arg5.IsWhole)
    (x0 : Vec F S256x4096 .f32) (x1 : Vec F S4096x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (hid1 x0 x1 x2 x3)) -∗ K ⟨⟩))
      ⊢ wp frame (wpE (defs₀ (F := F)) Variants.none c none) E (cc1__layer1_kernel i arg1 harg1 arg2 harg2 arg3 harg3 arg4 harg4 arg5 harg5) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hid1_cover _)

/-- The proof data of the region on core `c`: the arrays as the region finds them; after the body each input's buffer still at its block and the output's at `hid1` of the input blocks; the invariant is the rest of the scoped buffers and the generator register; nothing owed; full shares. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => hid1 (blk1 V c 0 t) (blk1 V c 1 t) (blk1 V c 2 t) (blk1 V c 3 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) : (data1 V c).after 3 t = blk1 V c 3 t := by dsimp only [data1]
theorem data1_after_4 (c : Dev nD) (t : Fin cfg1.N) : (data1 V c).after 4 t = hid1 (blk1 V c 0 t) (blk1 V c 1 t) (blk1 V c 2 t) (blk1 V c 3 t) := by dsimp only [data1]

theorem data1_before_0 (c : Dev nD) (t : Fin cfg1.N) (d) : (data1 V c).before 0 t d = blk1 V c 0 t :=
  held1_0_of V (data1 V c) (data1_A V c 0) (data1_after_0 V c) t d
theorem data1_before_1 (c : Dev nD) (t : Fin cfg1.N) (d) : (data1 V c).before 1 t d = blk1 V c 1 t :=
  held1_1_of V (data1 V c) (data1_A V c 1) (data1_after_1 V c) t d
theorem data1_before_2 (c : Dev nD) (t : Fin cfg1.N) (d) : (data1 V c).before 2 t d = blk1 V c 2 t :=
  held1_2_of V (data1 V c) (data1_A V c 2) (data1_after_2 V c) t d
theorem data1_before_3 (c : Dev nD) (t : Fin cfg1.N) (d) : (data1 V c).before 3 t d = blk1 V c 3 t :=
  held1_3_of V (data1 V c) (data1_A V c 3) (data1_after_3 V c) t d

/-- What the body is called with at point `t`, -/
def body1_pre (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d)))

/-- and what it returns. -/
def body1_post (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t))

theorem body1_sound (c : Dev nD) (t : Fin cfg1.N) :
    body1_pre V c t ⊢ wp frame (wpE (defs₀ (F := F)) Variants.none c none) Set.univ (bodyAt1 t) (fun _ => body1_post V c t) := by
  unfold body1_pre body1_post bodyAt1
  simp only [data1_before_0, data1_before_1, data1_before_2, data1_before_3]
  rw [show (data1 V c).Φ t.succ = (data1 V c).Φ t.castSucc from rfl,
    show (data1 V c).owesAt () t.succ = (data1 V c).owesAt () t.castSucc from rfl,
    data1_after_0, data1_after_1, data1_after_2, data1_after_3, data1_after_4]
  iintro ⟨HΦ, Ho, ⟨%d0, H0⟩, ⟨%d1, H1⟩, ⟨%d2, H2⟩, ⟨%d3, H3⟩, ⟨%d4, H4⟩⟩
  iapply (body1_triple c Set.univ (grid1.coords t) _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem obligation1 (c : Dev nD) : BodyObligation (data1 (F := F) V c) (defs₀ (F := F)) Variants.none () Set.univ := fun t => by
  rw [bigSep_W1, bigSep_W1]
  exact body1_sound V c t

end Cert.Kernel.Hand

end
-- ==== Proof.KBReg2.lean ====
/-
  Region 2 of the program: the second graph-convolution layer,  H2 = A · Y2 + b2,
  one block of 256 rows of A per grid point against the whole Y2 (the contraction over all 4096 columns in one step), the
  bias row broadcast down the rows. Stated at the entry contents `V` of the core's buffers and at any float instance `F`.
-/
import proofs.«170631_g2000106516245658_pallasbulk_929_4_alg».proof.Proof.Gen.Kernel.Launch
import proofs.«170631_g2000106516245658_pallasbulk_929_4_alg».proof.Proof.Gen.Kernel.Skeleton
import proofs.«170631_g2000106516245658_pallasbulk_929_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The A window's staging buffer holds the point's block of 256 rows, fetched at this point or not. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The Y2 window's staging buffer holds the whole of Y2 at every point (its block never moves). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The bias window's staging buffer holds the bias row at every point. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores through. -/
abbrev whole2_256x4096 : Rect S256x4096 := Rect.unit (s := S256x4096) ![0, 0] S256x4096.size inb_S256x4096_S256x4096_0_0
abbrev whole2_4096x128 : Rect S4096x128 := Rect.unit (s := S4096x128) ![0, 0] S4096x128.size inb_S4096x128_S4096x128_0_0
abbrev whole2_1x128 : Rect S1x128 := Rect.unit (s := S1x128) ![0, 0] S1x128.size inb_S1x128_S1x128_0_0
abbrev whole2_256x128 : Rect S256x128 := Rect.unit (s := S256x128) ![0, 0] S256x128.size inb_S256x128_S256x128_0_0

/-- What the body leaves in the output block: its one store, of A_blk · Y2 + b2 over the loaded blocks. -/
def lat2 (x0 : Vec F S256x4096 .f32) (x1 : Vec F S4096x128 .f32) (x2 : Vec F S1x128 .f32) : Vec F S256x128 .f32 :=
  View.canon [⟨whole2_256x128, k2_pay1 (View.ld x0 whole2_256x4096) (View.ld x1 whole2_4096x128) (View.ld x2 whole2_1x128)⟩]

/-- The one store covers the output block. -/
theorem lat2_cover (p0 : Vec F S256x128 .f32) (y : S256x128.Idx) :
    ∃ pc ∈ ([⟨whole2_256x128, p0⟩] : List (View.Piece (Elt F) S256x128 .f32)), y ∈ pc.1.set :=
  View.cover_of_tiled [⟨whole2_256x128, p0⟩] S256x128.size (by rfl) y

set_option maxHeartbeats 1000000 in
/-- The body on whole staging memrefs: the inputs are read and kept, the output ends at `lat2` of the inputs. -/
theorem body2_triple (c : Dev nD) (E : Set ℕ) (i : grid2.Coords) (arg1 : Memref sig .tc .vmem S256x4096 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S256x128 .f32) (harg4 : arg4.IsWhole)
    (x0 : Vec F S256x4096 .f32) (x1 : Vec F S4096x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lat2 x0 x1 x2)) -∗ K ⟨⟩))
      ⊢ wp frame (wpE (defs₀ (F := F)) Variants.none c none) E (cc2__layer2_kernel i arg1 harg1 arg2 harg2 arg3 harg3 arg4 harg4) K := by
  simp only [cc2__layer2_kernel_eq_skeleton]; unfold cc2__layer2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lat2_cover _)

/-- The proof data of the region on core `c`: the arrays as the region finds them; after the body each input's buffer still at its block and the output's at `lat2` of the input blocks; the invariant is the rest of the scoped buffers and the generator register; nothing owed; full shares. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => lat2 (blk2 V c 0 t) (blk2 V c 1 t) (blk2 V c 2 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) : (data2 V c).after 2 t = blk2 V c 2 t := by dsimp only [data2]
theorem data2_after_3 (c : Dev nD) (t : Fin cfg2.N) : (data2 V c).after 3 t = lat2 (blk2 V c 0 t) (blk2 V c 1 t) (blk2 V c 2 t) := by dsimp only [data2]

theorem data2_before_0 (c : Dev nD) (t : Fin cfg2.N) (d) : (data2 V c).before 0 t d = blk2 V c 0 t :=
  held2_0_of V (data2 V c) (data2_A V c 0) (data2_after_0 V c) t d
theorem data2_before_1 (c : Dev nD) (t : Fin cfg2.N) (d) : (data2 V c).before 1 t d = blk2 V c 1 t :=
  held2_1_of V (data2 V c) (data2_A V c 1) (data2_after_1 V c) t d
theorem data2_before_2 (c : Dev nD) (t : Fin cfg2.N) (d) : (data2 V c).before 2 t d = blk2 V c 2 t :=
  held2_2_of V (data2 V c) (data2_A V c 2) (data2_after_2 V c) t d

/-- What the body is called with at point `t`, -/
def body2_pre (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it returns. -/
def body2_post (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

theorem body2_sound (c : Dev nD) (t : Fin cfg2.N) :
    body2_pre V c t ⊢ wp frame (wpE (defs₀ (F := F)) Variants.none c none) Set.univ (bodyAt2 t) (fun _ => body2_post V c t) := by
  unfold body2_pre body2_post bodyAt2
  simp only [data2_before_0, data2_before_1, data2_before_2]
  rw [show (data2 V c).Φ t.succ = (data2 V c).Φ t.castSucc from rfl,
    show (data2 V c).owesAt () t.succ = (data2 V c).owesAt () t.castSucc from rfl,
    data2_after_0, data2_after_1, data2_after_2, data2_after_3]
  iintro ⟨HΦ, Ho, ⟨%d0, H0⟩, ⟨%d1, H1⟩, ⟨%d2, H2⟩, ⟨%d3, H3⟩⟩
  iapply (body2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation2 (c : Dev nD) : BodyObligation (data2 (F := F) V c) (defs₀ (F := F)) Variants.none () Set.univ := fun t => by
  rw [bigSep_W2, bigSep_W2]
  exact body2_sound V c t

end Cert.Kernel.Hand

end
-- ==== Proof.KBReg3.lean ====
/-
  Region 3 of the program: the inner-product decoder,  recon = ½ · tanh(½ · H2 · H2ᵀ) + ½,
  one block of 256 rows of H2 per grid point against the whole of H2, contracted over the 128 features. Both input
  windows read the SAME array (H2), so the core's hold on it is dealt between them: one half share each.
  Stated at the entry contents `V` of the core's buffers and at any float instance `F`.
-/
import proofs.«170631_g2000106516245658_pallasbulk_929_4_alg».proof.Proof.Gen.Kernel.Launch
import proofs.«170631_g2000106516245658_pallasbulk_929_4_alg».proof.Proof.Gen.Kernel.Skeleton
import proofs.«170631_g2000106516245658_pallasbulk_929_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds the point's block of 256 rows of H2, fetched at this point or not. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The whole-array window's staging buffer holds all of H2 at every point (its block never moves). -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The whole rectangles the body loads and stores through. -/
abbrev whole3_256x128 : Rect S256x128 := Rect.unit (s := S256x128) ![0, 0] S256x128.size inb_S256x128_S256x128_0_0
abbrev whole3_4096x128 : Rect S4096x128 := Rect.unit (s := S4096x128) ![0, 0] S4096x128.size inb_S4096x128_S4096x128_0_0
abbrev whole3_256x4096 : Rect S256x4096 := Rect.unit (s := S256x4096) ![0, 0] S256x4096.size inb_S256x4096_S256x4096_0_0

/-- What the body leaves in the output block: its one store, of ½ · tanh(½ · H2_blk · H2ᵀ) + ½ over the loaded blocks. -/
def dec3 (x0 : Vec F S256x128 .f32) (x1 : Vec F S4096x128 .f32) : Vec F S256x4096 .f32 :=
  View.canon [⟨whole3_256x4096, k3_pay1 (View.ld x0 whole3_256x128) (View.ld x1 whole3_4096x128)⟩]

/-- The one store covers the output block. -/
theorem dec3_cover (p0 : Vec F S256x4096 .f32) (y : S256x4096.Idx) :
    ∃ pc ∈ ([⟨whole3_256x4096, p0⟩] : List (View.Piece (Elt F) S256x4096 .f32)), y ∈ pc.1.set :=
  View.cover_of_tiled [⟨whole3_256x4096, p0⟩] S256x4096.size (by rfl) y

set_option maxHeartbeats 1000000 in
/-- The body on whole staging memrefs: the inputs are read and kept, the output ends at `dec3` of the inputs. -/
theorem body3_triple (c : Dev nD) (E : Set ℕ) (i : grid3.Coords) (arg1 : Memref sig .tc .vmem S256x128 .f32) (harg1 : arg1.IsWhole) (arg2 : Memref sig .tc .vmem S4096x128 .f32) (harg2 : arg2.IsWhole) (arg3 : Memref sig .tc .vmem S256x4096 .f32) (harg3 : arg3.IsWhole)
    (x0 : Vec F S256x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (dec3 x0 x1)) -∗ K ⟨⟩))
      ⊢ wp frame (wpE (defs₀ (F := F)) Variants.none c none) E (cc3__decoder_kernel i arg1 harg1 arg2 harg2 arg3 harg3) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dec3_cover _)

/-- The proof data of the region on core `c`: the arrays as the region finds them; after the body each input's buffer still at its block and the output's at `dec3` of the input blocks; the invariant is the rest of the scoped buffers and the generator register; nothing owed; the two windows on H2 hold it at the two halves of the full share, the output at the full share. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => dec3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blk3 V c 0 t := by dsimp only [data3]
theorem data3_after_1 (c : Dev nD) (t : Fin cfg3.N) : (data3 V c).after 1 t = blk3 V c 1 t := by dsimp only [data3]
theorem data3_after_2 (c : Dev nD) (t : Fin cfg3.N) : (data3 V c).after 2 t = dec3 (blk3 V c 0 t) (blk3 V c 1 t) := by dsimp only [data3]

theorem data3_before_0 (c : Dev nD) (t : Fin cfg3.N) (d) : (data3 V c).before 0 t d = blk3 V c 0 t :=
  held3_0_of V (data3 V c) (data3_A V c 0) (data3_after_0 V c) t d
theorem data3_before_1 (c : Dev nD) (t : Fin cfg3.N) (d) : (data3 V c).before 1 t d = blk3 V c 1 t :=
  held3_1_of V (data3 V c) (data3_A V c 1) (data3_after_1 V c) t d

/-- What the body is called with at point `t`, -/
def body3_pre (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it returns. -/
def body3_post (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

theorem body3_sound (c : Dev nD) (t : Fin cfg3.N) :
    body3_pre V c t ⊢ wp frame (wpE (defs₀ (F := F)) Variants.none c none) Set.univ (bodyAt3 t) (fun _ => body3_post V c t) := by
  unfold body3_pre body3_post bodyAt3
  simp only [data3_before_0, data3_before_1]
  rw [show (data3 V c).Φ t.succ = (data3 V c).Φ t.castSucc from rfl,
    show (data3 V c).owesAt () t.succ = (data3 V c).owesAt () t.castSucc from rfl,
    data3_after_0, data3_after_1, data3_after_2]
  iintro ⟨HΦ, Ho, ⟨%d0, H0⟩, ⟨%d1, H1⟩, ⟨%d2, H2⟩⟩
  iapply (body3_triple c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation3 (c : Dev nD) : BodyObligation (data3 (F := F) V c) (defs₀ (F := F)) Variants.none () Set.univ := fun t => by
  rw [bigSep_W3, bigSep_W3]
  exact body3_sound V c t

end Cert.Kernel.Hand

end
-- ==== Proof.KBRun.lean ====
/-
  The run of the whole program: what the core's buffers hold at each boundary between @main's items (the two host
  transposes, then the four regions), each region's proof data at the contents it is entered with, and the first three
  regions as segments of the run: a region takes its windows' arrays out of the core's unscoped buffers, runs its
  pipeline, and puts the arrays back with each output at what the write-backs of all grid points leave in it.
  The contents are a fold: launch memory; after the transposes; then region K's arrays replaced by its pipeline's
  final arrays. Region 3 (whose two input windows read one array) is a segment of its own module.
-/
import proofs.«170631_g2000106516245658_pallasbulk_929_4_alg».proof.Proof.KBReg0
import proofs.«170631_g2000106516245658_pallasbulk_929_4_alg».proof.Proof.KBReg1
import proofs.«170631_g2000106516245658_pallasbulk_929_4_alg».proof.Proof.KBReg2
import proofs.«170631_g2000106516245658_pallasbulk_929_4_alg».proof.Proof.KBReg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two host transposes (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- The buffers as region 0 leaves them: Y1 at the products its sixteen grid points wrote back; every other buffer as the region found it. -/
def W2 (c : Dev nD) : Valuation τ sig (Elt F) :=
  Pipeline.withArrays spec0 c (W1 m ρ c) fun w => (data0 (E1 m ρ) c).arrAt w cfg0.N
theorem W2_arr (c : Dev nD) (w : Fin cfg0.W) :
    W2 m ρ c (Proc.devRef .tc (Pipeline.arrRef spec0 w)) = (data0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev E2 : (c : Dev nD) → (b : Ref sig .tc) → Buf (Elt F) ((c : Thread nD τ).loc b) := fun c b => W2 m ρ c b
theorem left0 (c : Dev nD) (w : Fin cfg0.W) : (data0 (E1 m ρ) c).arrAt w cfg0.N = E2 m ρ c (Pipeline.arrRef spec0 w) :=
  (W2_arr m ρ c w).symm
theorem kept0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- The buffers as region 1 leaves them: Y2 at what its sixteen grid points wrote back; every other buffer as the region found it. -/
def W3 (c : Dev nD) : Valuation τ sig (Elt F) :=
  Pipeline.withArrays spec1 c (W2 m ρ c) fun w => (data1 (E2 m ρ) c).arrAt w cfg1.N
theorem W3_arr (c : Dev nD) (w : Fin cfg1.W) :
    W3 m ρ c (Proc.devRef .tc (Pipeline.arrRef spec1 w)) = (data1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev E3 : (c : Dev nD) → (b : Ref sig .tc) → Buf (Elt F) ((c : Thread nD τ).loc b) := fun c b => W3 m ρ c b
theorem left1 (c : Dev nD) (w : Fin cfg1.W) : (data1 (E2 m ρ) c).arrAt w cfg1.N = E3 m ρ c (Pipeline.arrRef spec1 w) :=
  (W3_arr m ρ c w).symm
theorem kept1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- The buffers as region 2 leaves them: H2 at what its sixteen grid points wrote back; every other buffer as the region found it. -/
def W4 (c : Dev nD) : Valuation τ sig (Elt F) :=
  Pipeline.withArrays spec2 c (W3 m ρ c) fun w => (data2 (E3 m ρ) c).arrAt w cfg2.N
theorem W4_arr (c : Dev nD) (w : Fin cfg2.W) :
    W4 m ρ c (Proc.devRef .tc (Pipeline.arrRef spec2 w)) = (data2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev E4 : (c : Dev nD) → (b : Ref sig .tc) → Buf (Elt F) ((c : Thread nD τ).loc b) := fun c b => W4 m ρ c b
theorem left2 (c : Dev nD) (w : Fin cfg2.W) : (data2 (E3 m ρ) c).arrAt w cfg2.N = E4 m ρ c (Pipeline.arrRef spec2 w) :=
  (W4_arr m ρ c w).symm
theorem kept2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- The buffers as region 3 leaves them: the reconstruction at what its sixteen grid points wrote back; every other
    buffer (H2, which both of its input windows read, among them) as the region found it. -/
def W5 (c : Dev nD) : Valuation τ sig (Elt F) :=
  Function.update (W4 m ρ c) (Proc.devRef .tc main_v5) ((data3 (E4 m ρ) c).arrAt 2 cfg3.N)
abbrev E5 : (c : Dev nD) → (b : Ref sig .tc) → Buf (Elt F) ((c : Thread nD τ).loc b) := fun c b => W5 m ρ c b
theorem W5_out (c : Dev nD) : W5 m ρ c (Proc.devRef .tc main_v5) = (data3 (E4 m ρ) c).arrAt 2 cfg3.N := by
  unfold W5; exact Function.update_self ..
theorem W5_of_ne (c : Dev nD) (b : Ref sig .tc) (hb : b ≠ main_v5) :
    W5 m ρ c (Proc.devRef .tc b) = W4 m ρ c (Proc.devRef .tc b) := by
  unfold W5; exact Function.update_of_ne (StableHlo.devRef_ne_of_ne hb) ..

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E2 m ρ) c
  | ⟨2, _⟩ => fun c => data2 (E3 m ρ) c
  | ⟨3, _⟩ => fun c => data3 (E4 m ρ) c
abbrev 𝒱₀ : Variants := Variants.none
/-- No core waits for another: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0, 1, 2 as segments -/

set_option backward.isDefEq.respectTransparency.types false in
/-- Region 0 between the contents `W1` and `W2`: its three arrays taken out of the unscoped buffers and put back, the generator register lent to the pipeline's invariant and returned, nothing owed, no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W2` and `W3`, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W3` and `W4`, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KBKeep.lean ====
/-
  Each region leaves every buffer but its own output as it found it: an input window's array is never written back,
  and a buffer that is no window's array bypasses the region. With these the contents at the end of the run are read
  back through the fold: an argument to the launch memory, an intermediate to the region that produced it.
-/
import proofs.«170631_g2000106516245658_pallasbulk_929_4_alg».proof.Proof.KBRun
import proofs.«170631_g2000106516245658_pallasbulk_929_4_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes the contents of no buffer but its output's. -/
theorem W2_keep (c : Dev nD) (b : Ref sig .tc) (hb : b ≠ main_v2) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((data0 (E1 m ρ) c).arrAt_in 0 rfl _).trans (data0_A (E1 m ρ) c 0)
    | ⟨1, _⟩ => exact ((data0 (E1 m ρ) c).arrAt_in 1 rfl _).trans (data0_A (E1 m ρ) c 1)
    | ⟨2, _⟩ => exact (hb rfl).elim
  · exact W2_of_ne m ρ c b fun w e => h ⟨w, e⟩

/-- Region 1 changes the contents of no buffer but its output's. -/
theorem W3_keep (c : Dev nD) (b : Ref sig .tc) (hb : b ≠ main_v3) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((data1 (E2 m ρ) c).arrAt_in 0 rfl _).trans (data1_A (E2 m ρ) c 0)
    | ⟨1, _⟩ => exact ((data1 (E2 m ρ) c).arrAt_in 1 rfl _).trans (data1_A (E2 m ρ) c 1)
    | ⟨2, _⟩ => exact ((data1 (E2 m ρ) c).arrAt_in 2 rfl _).trans (data1_A (E2 m ρ) c 2)
    | ⟨3, _⟩ => exact ((data1 (E2 m ρ) c).arrAt_in 3 rfl _).trans (data1_A (E2 m ρ) c 3)
    | ⟨4, _⟩ => exact (hb rfl).elim
  · exact W3_of_ne m ρ c b fun w e => h ⟨w, e⟩

/-- Region 2 changes the contents of no buffer but its output's. -/
theorem W4_keep (c : Dev nD) (b : Ref sig .tc) (hb : b ≠ main_v4) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => exact ((data2 (E3 m ρ) c).arrAt_in 0 rfl _).trans (data2_A (E3 m ρ) c 0)
    | ⟨1, _⟩ => exact ((data2 (E3 m ρ) c).arrAt_in 1 rfl _).trans (data2_A (E3 m ρ) c 1)
    | ⟨2, _⟩ => exact ((data2 (E3 m ρ) c).arrAt_in 2 rfl _).trans (data2_A (E3 m ρ) c 2)
    | ⟨3, _⟩ => exact (hb rfl).elim
  · exact W4_of_ne m ρ c b fun w e => h ⟨w, e⟩

/-- The two host transposes write only their own results. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

end Cert.Kernel.Hand

end
-- ==== Proof.KBMain.lean ====
/-
  The whole run. @main is its five items in order — the two host transposes, then the four regions — and the
  pipeline library's launch theorem for such a list gives: from any launch memory with zero counters every weakly
  fair execution terminates without a fault, and at the end every unscoped buffer of the core holds what the fold of
  the items' effects says (`W5`). The last region enters as a parameter (any segment record between the contents
  `W4` and `W5`), so that this module does not depend on how that region deals its shared array.
-/
import proofs.«170631_g2000106516245658_pallasbulk_929_4_alg».proof.Proof.KBKeep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the dues: every unscoped buffer at the final contents, the generator register at some state. -/
abbrev Tₙ (c : Dev nD) : sProp 𝕄 := iprop(StableHlo.held (c : Thread nD τ) (Pipeline.ucRefs τ sig) (W5 m ρ c) ∗ ∃ r, prngReg c r)

variable (R3 : Pipeline.RegionSeg (pcfgs (F := F)) adm (pdats m ρ) () defs₀ 𝒱₀ L lv 3)

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region R3 ]

/-- @main is the run of these segments. -/
theorem main_run (c : Dev nD) : main (F := F) c = Pipeline.Seg.run (segs m ρ R3) := (main_chain c).trans (by chain_rfl)

set_option backward.isDefEq.respectTransparency.types false in
/-- The run: every weakly fair execution of @main terminates, nothing faulting, and every final state holds each
    unscoped buffer at its final contents `W5`. -/
theorem run_of
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ R3)
    (fun c Q => by rw [main_run m ρ R3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, hpre3, hpost3⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KBOut.lean ====
/-
  The run with its results named: at the end the reconstruction's buffer holds what region 3's pipeline leaves in its
  output array and the latent's buffer what region 2's leaves, and every argument array holds its launch contents
  (read back through the fold: no region writes an input window's array and no host operation writes an argument).
  Also what each region finds in its input arrays when it is entered: an argument's launch contents, a host
  transpose's result, or the output array of the region before.
-/
import proofs.«170631_g2000106516245658_pallasbulk_929_4_alg».proof.Proof.KBMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Named

variable (R3 : Pipeline.RegionSeg (pcfgs (F := F)) adm (pdats m ρ) () defs₀ 𝒱₀ L lv 3)

theorem run_named
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      r.2.mem ((c.tc : Thread nD τ).loc main_v5) = (data3 (E4 m ρ) c).arrAt 2 cfg3.N
      ∧ r.2.mem ((c.tc : Thread nD τ).loc main_v4) = (data2 (E3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_v5 (by decide))).trans (W5_out m ρ c),
      (h c _ (mem_uc main_v4 (by decide))).trans ((W5_of_ne m ρ c main_v4 (by decide)).trans (W4_arr m ρ c 3)),
      (h c _ (mem_uc main_arg0 (by decide))).trans <| (W5_of_ne m ρ c main_arg0 (by decide)).trans <| (W4_keep m ρ c main_arg0 (by decide)).trans <|
        (W3_keep m ρ c main_arg0 (by decide)).trans <| (W2_keep m ρ c main_arg0 (by decide)).trans <| (W1_keep m ρ c main_arg0 (by decide)).trans rfl,
      (h c _ (mem_uc main_arg1 (by decide))).trans <| (W5_of_ne m ρ c main_arg1 (by decide)).trans <| (W4_keep m ρ c main_arg1 (by decide)).trans <|
        (W3_keep m ρ c main_arg1 (by decide)).trans <| (W2_keep m ρ c main_arg1 (by decide)).trans <| (W1_keep m ρ c main_arg1 (by decide)).trans rfl,
      (h c _ (mem_uc main_arg2 (by decide))).trans <| (W5_of_ne m ρ c main_arg2 (by decide)).trans <| (W4_keep m ρ c main_arg2 (by decide)).trans <|
        (W3_keep m ρ c main_arg2 (by decide)).trans <| (W2_keep m ρ c main_arg2 (by decide)).trans <| (W1_keep m ρ c main_arg2 (by decide)).trans rfl,
      (h c _ (mem_uc main_arg3 (by decide))).trans <| (W5_of_ne m ρ c main_arg3 (by decide)).trans <| (W4_keep m ρ c main_arg3 (by decide)).trans <|
        (W3_keep m ρ c main_arg3 (by decide)).trans <| (W2_keep m ρ c main_arg3 (by decide)).trans <| (W1_keep m ρ c main_arg3 (by decide)).trans rfl,
      (h c _ (mem_uc main_arg4 (by decide))).trans <| (W5_of_ne m ρ c main_arg4 (by decide)).trans <| (W4_keep m ρ c main_arg4 (by decide)).trans <|
        (W3_keep m ρ c main_arg4 (by decide)).trans <| (W2_keep m ρ c main_arg4 (by decide)).trans <| (W1_keep m ρ c main_arg4 (by decide)).trans rfl,
      (h c _ (mem_uc main_arg5 (by decide))).trans <| (W5_of_ne m ρ c main_arg5 (by decide)).trans <| (W4_keep m ρ c main_arg5 (by decide)).trans <|
        (W3_keep m ρ c main_arg5 (by decide)).trans <| (W2_keep m ρ c main_arg5 (by decide)).trans <| (W1_keep m ρ c main_arg5 (by decide)).trans rfl⟩)
    (run_of m ρ R3 hpre3 hpost3)

end Named

/-! ## What each region finds in its input arrays -/

theorem E1_arg1 (c : Dev nD) : E1 m ρ c main_arg1 = m ((c.tc : Thread nD τ).loc main_arg1) := (W1_keep m ρ c main_arg1 (by decide)).trans rfl
theorem E2_arg0 (c : Dev nD) : E2 m ρ c main_arg0 = m ((c.tc : Thread nD τ).loc main_arg0) :=
  (W2_keep m ρ c main_arg0 (by decide)).trans <| (W1_keep m ρ c main_arg0 (by decide)).trans rfl
theorem E2_arg3 (c : Dev nD) : E2 m ρ c main_arg3 = m ((c.tc : Thread nD τ).loc main_arg3) :=
  (W2_keep m ρ c main_arg3 (by decide)).trans <| (W1_keep m ρ c main_arg3 (by decide)).trans rfl
theorem E2_v1 (c : Dev nD) : E2 m ρ c main_v1 = E1 m ρ c main_v1 := W2_keep m ρ c main_v1 (by decide)
theorem E2_v2 (c : Dev nD) : E2 m ρ c main_v2 = (data0 (E1 m ρ) c).arrAt 2 cfg0.N := W2_arr m ρ c 2
theorem E3_arg0 (c : Dev nD) : E3 m ρ c main_arg0 = m ((c.tc : Thread nD τ).loc main_arg0) :=
  (W3_keep m ρ c main_arg0 (by decide)).trans (E2_arg0 m ρ c)
theorem E3_arg5 (c : Dev nD) : E3 m ρ c main_arg5 = m ((c.tc : Thread nD τ).loc main_arg5) :=
  (W3_keep m ρ c main_arg5 (by decide)).trans <| (W2_keep m ρ c main_arg5 (by decide)).trans <| (W1_keep m ρ c main_arg5 (by decide)).trans rfl
theorem E3_v3 (c : Dev nD) : E3 m ρ c main_v3 = (data1 (E2 m ρ) c).arrAt 4 cfg1.N := W3_arr m ρ c 4
theorem E4_v4 (c : Dev nD) : E4 m ρ c main_v4 = (data2 (E3 m ρ) c).arrAt 3 cfg2.N := W4_arr m ρ c 3

/-- The first host operation leaves the transpose of the first weight, the second the transpose of the second. -/
theorem E1_v0 (c : Dev nD) : E1 m ρ c main_v0
    = transpose S256x128 [1, 0] (m ((c.tc : Thread nD τ).loc main_arg2)) transposes_S128x256_S256x128_1_0 := by
  show StableHlo.after hostOps0 (W0 m ρ c) (Proc.devRef .tc main_v0) = _
  after_results
theorem E1_v1 (c : Dev nD) : E1 m ρ c main_v1
    = transpose S128x128 [1, 0] (m ((c.tc : Thread nD τ).loc main_arg4)) transposes_S128x128_S128x128_1_0 := by
  show StableHlo.after hostOps0 (W0 m ρ c) (Proc.devRef .tc main_v1) = _
  after_results

end Cert.Kernel.Hand

end
-- ==== Proof.KBSeg3.lean ====
/-
  Region 3 (the inner-product decoder) as the last segment of the run. Its two input windows read the SAME array, H2,
  so the windows' arrays are not distinct buffers: behind the three windows stand two buffers, H2 and the output.
  At the entry the core's whole hold on H2 is dealt to the two windows, the left half of the full share to the
  row-block window and the right half to the whole-array window; neither window writes, so at the exit each still holds
  H2 at the entry contents and the two halves join back to the whole hold. The output is held whole throughout and comes
  back at what the write-backs of all grid points left in it. Every other unscoped buffer bypasses the region.
-/
import proofs.«170631_g2000106516245658_pallasbulk_929_4_alg».proof.Proof.KBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind region 3's windows are two: H2 (read by both input windows) and the output. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v4) ↦{fullShare} V main_v4) ∗ (((c : Thread nD τ).loc main_v5) ↦{fullShare} V main_v5)) := by
  unfold Pipeline.arrBufs
  rw [show Finset.univ.image (Pipeline.arrRef spec3) = {main_v4, main_v5} from by decide, bigSep_insert (by decide), bigSep_singleton]
  rfl

/-- The region's windowed arrays, window by window: H2 at the left half of the full share, H2 again at the right
    half, the output whole at the full share. -/
theorem arrays3_eq (V : (c : Dev nD) → (b : Ref sig .tc) → Buf (Elt F) ((c : Thread nD τ).loc b)) (c : Dev nD)
    (G : (w : Fin cfg3.W) → Buf (Elt F) ((cfg3.win w).arr.view.loc (c : Thread nD τ))) :
    ((data3 V c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W3, (arr_whole3 0).set_eq_univ, (arr_whole3 2).set_eq_univ]
  rfl

/-- The core's unscoped buffers at `V`: the distinct buffers behind region 3's windows, and the rest. -/
theorem unscopedBufs3_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec3 c V ∗ Pipeline.unscopedRest spec3 c V) :=
  Pipeline.unscopedBufs_split₀ (Pipeline.pin (pcfgs (F := F)) adm) 3 winFacts₀3.arr_unscoped c V

/-- ENTRY, the arrays' part: of the two distinct buffers behind the windows, H2's whole hold is dealt to the two
    windows that read it, the left half of the full share to the row-block window and the right half to the
    whole-array window; the output goes whole to its window. Every array is at the contents the region finds. -/
theorem arrays3_of_arrBufs (V : (c : Dev nD) → (b : Ref sig .tc) → Buf (Elt F) ((c : Thread nD τ).loc b)) (c : Dev nD) :
    (Pipeline.arrBufs (Ix := Unit) (Name := ℕ) (U := UR sig nD τ) (Lvl := ℕ) spec3 c (V c) : sProp 𝕄)
      ⊢ (data3 V c).arrays ((data3 V c).arrAt · 0) := by
  rw [arrBufs3_eq, arrays3_eq]
  iintro ⟨H4, H5⟩
  ihave H4 := (pointsTo_share (PosShare.mem_left_op_right fullShare)).1 $$ H4
  icases H4 with ⟨Hl, Hr⟩
  isplitl [Hl]; · iexact Hl
  isplitl [Hr]; · iexact Hr
  iexact H5

/-- ENTRY: the core's unscoped buffers at `V` are the region's arrays at entry and the buffers no window reads or writes. -/
theorem arrays3_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((data3 V c).arrays ((data3 V c).arrAt · 0) ∗ Pipeline.unscopedRest spec3 c (V c)) := by
  rw [unscopedBufs3_split c (V c)]
  exact BI.sep_mono (arrays3_of_arrBufs V c) (Entails.refl _)

/-- EXIT: the two input windows never write H2, so each still holds it at the entry contents and the two halves join
    back to the whole hold; with the output at what the write-backs left and the untouched rest, that is the core's
    unscoped buffers at any contents `V'` that has the output there and agrees with `V` on every other buffer. -/
theorem unscopedBufs_of_arrays3 (V : (c : Dev nD) → (b : Ref sig .tc) → Buf (Elt F) ((c : Thread nD τ).loc b)) (c : Dev nD)
    (V' : (b : Ref sig .tc) → Buf (Elt F) ((c : Thread nD τ).loc b))
    (hout : V' main_v5 = (data3 V c).arrAt 2 cfg3.N) (hrest : ∀ b, b ≠ main_v5 → V' b = V c b) :
    iprop((data3 V c).arrays ((data3 V c).arrAt · cfg3.N) ∗ Pipeline.unscopedRest (Ix := Unit) (Name := ℕ) (U := UR sig nD τ) (Lvl := ℕ) spec3 c (V c))
      ⊢ (unscopedBufs c V' : sProp 𝕄) := by
  have hR : (Pipeline.unscopedRest (Ix := Unit) (Name := ℕ) (U := UR sig nD τ) (Lvl := ℕ) spec3 c V' : sProp 𝕄) = Pipeline.unscopedRest spec3 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscopedBufs3_split c V', hR, arrBufs3_eq, arrays3_eq,
    (data3 V c).arrAt_in 0 rfl, (data3 V c).arrAt_in 1 rfl, hout, hrest main_v4 (by decide)]
  iintro ⟨⟨Hl, Hr, H5⟩, Hrest⟩
  isplitr [Hrest]
  · isplitl [Hl Hr]
    · iapply (pointsTo_share (PosShare.mem_left_op_right fullShare)).2
      isplitl [Hl]; · iexact Hl
      iexact Hr
    iexact H5
  iexact Hrest

set_option backward.isDefEq.respectTransparency.types false in
/-- Region 3 between the contents `W4` and `W5`, the last segment of the run: its two distinct arrays taken out of the
    unscoped buffers, H2's hold dealt in halves to the two windows that read it and joined back at the exit, the
    output put back at what the write-backs of all grid points left; the generator register lent to the pipeline's
    invariant and returned, nothing owed, no semaphore of the kernel's own. The state it leaves is the run's last. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (obligation3 (E4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop((StableHlo.held (c : Thread nD τ) (Pipeline.ucRefs τ sig) (W5 m ρ c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := arrays3_of_unscopedBufs (E4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (E4 m ρ) c (E5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

end Cert.Kernel.Hand

end
-- ==== Proof.KIReg0.lean ====
/-
  Region 0 of the program (the first pallas_call): the feature projection  Y1 = H0 · W1ᵀ, one block of 256 rows per
  grid point. The body loads its row block of H0 (256×256) and the whole transposed weight (256×128), multiplies them
  into a zero accumulator and stores the 256×128 product over its output block. Stated at a parameter `V`, the
  contents of the core's buffers when the region is entered, and at any float instance `F`:
  what each window's staging buffer holds around the body, the body's triple, the proof data and the body obligation.
-/
import proofs.«170631_g2000106516245658_pallasbulk_929_4_alg».proof.Proof.Gen.KernelIdeal.Launch
import proofs.«170631_g2000106516245658_pallasbulk_929_4_alg».proof.Proof.Gen.KernelIdeal.Skeleton
import proofs.«170631_g2000106516245658_pallasbulk_929_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The H0 window's staging buffer holds the point's row block, whether or not it was fetched at this point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's staging buffer holds the whole transposed weight at every point (its block never moves). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 256×256 rectangle (the load of the H0 block) and the whole 256×128 one (the weight's load, the store). -/
abbrev whole0_256x256 : Rect S256x256 := Rect.unit (s := S256x256) ![0, 0] S256x256.size inb_S256x256_S256x256_0_0
abbrev whole0_256x128 : Rect S256x128 := Rect.unit (s := S256x128) ![0, 0] S256x128.size inb_S256x128_S256x128_0_0

/-- What the body leaves in the output block: its one store, of the product of the two loaded blocks. -/
def prod0 (x0 : Vec F S256x256 .f32) (x1 : Vec F S256x128 .f32) : Vec F S256x128 .f32 :=
  View.canon [⟨whole0_256x128, k0_pay1 (View.ld x0 whole0_256x256) (View.ld x1 whole0_256x128)⟩]

/-- The one store covers the output block. -/
theorem prod0_cover (p0 : Vec F S256x128 .f32) (y : S256x128.Idx) :
    ∃ pc ∈ ([⟨whole0_256x128, p0⟩] : List (View.Piece (Elt F) S256x128 .f32)), y ∈ pc.1.set :=
  View.cover_of_tiled [⟨whole0_256x128, p0⟩] S256x128.size (by rfl) y

set_option maxHeartbeats 1000000 in
/-- The body on whole staging memrefs: the inputs are read and kept, the output ends at `prod0` of the inputs. -/
theorem body0_triple (c : Dev nD) (E : Set ℕ) (i : grid0.Coords) (arg1 : Memref sig .tc .vmem S256x256 .f32) (harg1 : arg1.IsWhole)
    (arg2 : Memref sig .tc .vmem S256x128 .f32) (harg2 : arg2.IsWhole) (arg3 : Memref sig .tc .vmem S256x128 .f32) (harg3 : arg3.IsWhole)
    (x0 : Vec F S256x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__y1_kernel i arg1 harg1 arg2 harg2 arg3 harg3) K := by
  simp only [cc0__y1_kernel_eq_skeleton]; unfold cc0__y1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The proof data of the region on core `c`: the arrays as the region finds them; after the body each input's buffer
    still at its block and the output's at the product of the input blocks; the invariant is the rest of the scoped
    buffers and the generator register, untouched; nothing owed; full shares. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = prod0 (blk0 V c 0 t) (blk0 V c 1 t) := by dsimp only [data0]

theorem data0_before_0 (c : Dev nD) (t : Fin cfg0.N) (d) : (data0 V c).before 0 t d = blk0 V c 0 t :=
  held0_0_of V (data0 V c) (data0_A V c 0) (data0_after_0 V c) t d
theorem data0_before_1 (c : Dev nD) (t : Fin cfg0.N) (d) : (data0 V c).before 1 t d = blk0 V c 1 t :=
  held0_1_of V (data0 V c) (data0_A V c 1) (data0_after_1 V c) t d

/-- What the body is called with at point `t`, -/
def body0_pre (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def body0_post (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0_sound (c : Dev nD) (t : Fin cfg0.N) :
    body0_pre V c t ⊢ wp frame (wpE (defs₀ (F := F)) Variants.none c none) Set.univ (bodyAt0 t) (fun _ => body0_post V c t) := by
  unfold body0_pre body0_post bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation0 (c : Dev nD) : BodyObligation (data0 (F := F) V c) (defs₀ (F := F)) Variants.none () Set.univ := fun t => by
  rw [bigSep_W0, bigSep_W0]
  exact body0_sound V c t

end Cert.KernelIdeal.Hand

end
-- ==== Proof.KIReg1.lean ====
/-
  Region 1 of the program: the first graph-convolution layer fused with the second projection,
      Y2 = relu(A · Y1 + b1) · W2ᵀ,
  one block of 256 rows of A per grid point against the whole Y1 (the contraction over all 4096 columns in one step), the
  bias row broadcast down the rows, the maximum with zero, and the product with the whole 128×128 transposed weight.
  Stated at the entry contents `V` of the core's buffers and at any float instance `F`.
-/
import proofs.«170631_g2000106516245658_pallasbulk_929_4_alg».proof.Proof.Gen.KernelIdeal.Launch
import proofs.«170631_g2000106516245658_pallasbulk_929_4_alg».proof.Proof.Gen.KernelIdeal.Skeleton
import proofs.«170631_g2000106516245658_pallasbulk_929_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The A window's staging buffer holds the point's block of 256 rows, fetched at this point or not. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Y1 window's staging buffer holds the whole of Y1 at every point (its block never moves). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The bias window's staging buffer holds the bias row at every point. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The weight window's staging buffer holds the whole transposed weight at every point. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole rectangles the body loads and stores through. -/
abbrev whole1_256x4096 : Rect S256x4096 := Rect.unit (s := S256x4096) ![0, 0] S256x4096.size inb_S256x4096_S256x4096_0_0
abbrev whole1_4096x128 : Rect S4096x128 := Rect.unit (s := S4096x128) ![0, 0] S4096x128.size inb_S4096x128_S4096x128_0_0
abbrev whole1_1x128 : Rect S1x128 := Rect.unit (s := S1x128) ![0, 0] S1x128.size inb_S1x128_S1x128_0_0
abbrev whole1_128x128 : Rect S128x128 := Rect.unit (s := S128x128) ![0, 0] S128x128.size inb_S128x128_S128x128_0_0
abbrev whole1_256x128 : Rect S256x128 := Rect.unit (s := S256x128) ![0, 0] S256x128.size inb_S256x128_S256x128_0_0

/-- What the body leaves in the output block: its one store, of relu(A_blk · Y1 + b1) · W2ᵀ over the loaded blocks. -/
def hid1 (x0 : Vec F S256x4096 .f32) (x1 : Vec F S4096x128 .f32) (x2 : Vec F S1x128 .f32) (x3 : Vec F S128x128 .f32) : Vec F S256x128 .f32 :=
  View.canon [⟨whole1_256x128, k1_pay1 (View.ld x0 whole1_256x4096) (View.ld x1 whole1_4096x128) (View.ld x2 whole1_1x128) (View.ld x3 whole1_128x128)⟩]

/-- The one store covers the output block. -/
theorem hid1_cover (p0 : Vec F S256x128 .f32) (y : S256x128.Idx) :
    ∃ pc ∈ ([⟨whole1_256x128, p0⟩] : List (View.Piece (Elt F) S256x128 .f32)), y ∈ pc.1.set :=
  View.cover_of_tiled [⟨whole1_256x128, p0⟩] S256x128.size (by rfl) y

set_option maxHeartbeats 1000000 in
/-- The body on whole staging memrefs: the inputs are read and kept, the output ends at `hid1` of the inputs. -/
theorem body1_triple (c : Dev nD) (E : Set ℕ) (i : grid1.Coords) (arg1 : Memref sig .tc .vmem S256x4096 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S256x128 .f32) (harg5 : arg5.IsWhole)
    (x0 : Vec F S256x4096 .f32) (x1 : Vec F S4096x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (hid1 x0 x1 x2 x3)) -∗ K ⟨⟩))
      ⊢ wp frame (wpE (defs₀ (F := F)) Variants.none c none) E (cc1__layer1_kernel i arg1 harg1 arg2 harg2 arg3 harg3 arg4 harg4 arg5 harg5) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hid1_cover _)

/-- The proof data of the region on core `c`: the arrays as the region finds them; after the body each input's buffer still at its block and the output's at `hid1` of the input blocks; the invariant is the rest of the scoped buffers and the generator register; nothing owed; full shares. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => hid1 (blk1 V c 0 t) (blk1 V c 1 t) (blk1 V c 2 t) (blk1 V c 3 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) : (data1 V c).after 3 t = blk1 V c 3 t := by dsimp only [data1]
theorem data1_after_4 (c : Dev nD) (t : Fin cfg1.N) : (data1 V c).after 4 t = hid1 (blk1 V c 0 t) (blk1 V c 1 t) (blk1 V c 2 t) (blk1 V c 3 t) := by dsimp only [data1]

theorem data1_before_0 (c : Dev nD) (t : Fin cfg1.N) (d) : (data1 V c).before 0 t d = blk1 V c 0 t :=
  held1_0_of V (data1 V c) (data1_A V c 0) (data1_after_0 V c) t d
theorem data1_before_1 (c : Dev nD) (t : Fin cfg1.N) (d) : (data1 V c).before 1 t d = blk1 V c 1 t :=
  held1_1_of V (data1 V c) (data1_A V c 1) (data1_after_1 V c) t d
theorem data1_before_2 (c : Dev nD) (t : Fin cfg1.N) (d) : (data1 V c).before 2 t d = blk1 V c 2 t :=
  held1_2_of V (data1 V c) (data1_A V c 2) (data1_after_2 V c) t d
theorem data1_before_3 (c : Dev nD) (t : Fin cfg1.N) (d) : (data1 V c).before 3 t d = blk1 V c 3 t :=
  held1_3_of V (data1 V c) (data1_A V c 3) (data1_after_3 V c) t d

/-- What the body is called with at point `t`, -/
def body1_pre (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d)))

/-- and what it returns. -/
def body1_post (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t))

theorem body1_sound (c : Dev nD) (t : Fin cfg1.N) :
    body1_pre V c t ⊢ wp frame (wpE (defs₀ (F := F)) Variants.none c none) Set.univ (bodyAt1 t) (fun _ => body1_post V c t) := by
  unfold body1_pre body1_post bodyAt1
  simp only [data1_before_0, data1_before_1, data1_before_2, data1_before_3]
  rw [show (data1 V c).Φ t.succ = (data1 V c).Φ t.castSucc from rfl,
    show (data1 V c).owesAt () t.succ = (data1 V c).owesAt () t.castSucc from rfl,
    data1_after_0, data1_after_1, data1_after_2, data1_after_3, data1_after_4]
  iintro ⟨HΦ, Ho, ⟨%d0, H0⟩, ⟨%d1, H1⟩, ⟨%d2, H2⟩, ⟨%d3, H3⟩, ⟨%d4, H4⟩⟩
  iapply (body1_triple c Set.univ (grid1.coords t) _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem obligation1 (c : Dev nD) : BodyObligation (data1 (F := F) V c) (defs₀ (F := F)) Variants.none () Set.univ := fun t => by
  rw [bigSep_W1, bigSep_W1]
  exact body1_sound V c t

end Cert.KernelIdeal.Hand

end
-- ==== Proof.KIReg2.lean ====
/-
  Region 2 of the program: the second graph-convolution layer,  H2 = A · Y2 + b2,
  one block of 256 rows of A per grid point against the whole Y2 (the contraction over all 4096 columns in one step), the
  bias row broadcast down the rows. Stated at the entry contents `V` of the core's buffers and at any float instance `F`.
-/
import proofs.«170631_g2000106516245658_pallasbulk_929_4_alg».proof.Proof.Gen.KernelIdeal.Launch
import proofs.«170631_g2000106516245658_pallasbulk_929_4_alg».proof.Proof.Gen.KernelIdeal.Skeleton
import proofs.«170631_g2000106516245658_pallasbulk_929_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The A window's staging buffer holds the point's block of 256 rows, fetched at this point or not. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The Y2 window's staging buffer holds the whole of Y2 at every point (its block never moves). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The bias window's staging buffer holds the bias row at every point. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores through. -/
abbrev whole2_256x4096 : Rect S256x4096 := Rect.unit (s := S256x4096) ![0, 0] S256x4096.size inb_S256x4096_S256x4096_0_0
abbrev whole2_4096x128 : Rect S4096x128 := Rect.unit (s := S4096x128) ![0, 0] S4096x128.size inb_S4096x128_S4096x128_0_0
abbrev whole2_1x128 : Rect S1x128 := Rect.unit (s := S1x128) ![0, 0] S1x128.size inb_S1x128_S1x128_0_0
abbrev whole2_256x128 : Rect S256x128 := Rect.unit (s := S256x128) ![0, 0] S256x128.size inb_S256x128_S256x128_0_0

/-- What the body leaves in the output block: its one store, of A_blk · Y2 + b2 over the loaded blocks. -/
def lat2 (x0 : Vec F S256x4096 .f32) (x1 : Vec F S4096x128 .f32) (x2 : Vec F S1x128 .f32) : Vec F S256x128 .f32 :=
  View.canon [⟨whole2_256x128, k2_pay1 (View.ld x0 whole2_256x4096) (View.ld x1 whole2_4096x128) (View.ld x2 whole2_1x128)⟩]

/-- The one store covers the output block. -/
theorem lat2_cover (p0 : Vec F S256x128 .f32) (y : S256x128.Idx) :
    ∃ pc ∈ ([⟨whole2_256x128, p0⟩] : List (View.Piece (Elt F) S256x128 .f32)), y ∈ pc.1.set :=
  View.cover_of_tiled [⟨whole2_256x128, p0⟩] S256x128.size (by rfl) y

set_option maxHeartbeats 1000000 in
/-- The body on whole staging memrefs: the inputs are read and kept, the output ends at `lat2` of the inputs. -/
theorem body2_triple (c : Dev nD) (E : Set ℕ) (i : grid2.Coords) (arg1 : Memref sig .tc .vmem S256x4096 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S256x128 .f32) (harg4 : arg4.IsWhole)
    (x0 : Vec F S256x4096 .f32) (x1 : Vec F S4096x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lat2 x0 x1 x2)) -∗ K ⟨⟩))
      ⊢ wp frame (wpE (defs₀ (F := F)) Variants.none c none) E (cc2__layer2_kernel i arg1 harg1 arg2 harg2 arg3 harg3 arg4 harg4) K := by
  simp only [cc2__layer2_kernel_eq_skeleton]; unfold cc2__layer2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lat2_cover _)

/-- The proof data of the region on core `c`: the arrays as the region finds them; after the body each input's buffer still at its block and the output's at `lat2` of the input blocks; the invariant is the rest of the scoped buffers and the generator register; nothing owed; full shares. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => lat2 (blk2 V c 0 t) (blk2 V c 1 t) (blk2 V c 2 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) : (data2 V c).after 2 t = blk2 V c 2 t := by dsimp only [data2]
theorem data2_after_3 (c : Dev nD) (t : Fin cfg2.N) : (data2 V c).after 3 t = lat2 (blk2 V c 0 t) (blk2 V c 1 t) (blk2 V c 2 t) := by dsimp only [data2]

theorem data2_before_0 (c : Dev nD) (t : Fin cfg2.N) (d) : (data2 V c).before 0 t d = blk2 V c 0 t :=
  held2_0_of V (data2 V c) (data2_A V c 0) (data2_after_0 V c) t d
theorem data2_before_1 (c : Dev nD) (t : Fin cfg2.N) (d) : (data2 V c).before 1 t d = blk2 V c 1 t :=
  held2_1_of V (data2 V c) (data2_A V c 1) (data2_after_1 V c) t d
theorem data2_before_2 (c : Dev nD) (t : Fin cfg2.N) (d) : (data2 V c).before 2 t d = blk2 V c 2 t :=
  held2_2_of V (data2 V c) (data2_A V c 2) (data2_after_2 V c) t d

/-- What the body is called with at point `t`, -/
def body2_pre (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it returns. -/
def body2_post (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

theorem body2_sound (c : Dev nD) (t : Fin cfg2.N) :
    body2_pre V c t ⊢ wp frame (wpE (defs₀ (F := F)) Variants.none c none) Set.univ (bodyAt2 t) (fun _ => body2_post V c t) := by
  unfold body2_pre body2_post bodyAt2
  simp only [data2_before_0, data2_before_1, data2_before_2]
  rw [show (data2 V c).Φ t.succ = (data2 V c).Φ t.castSucc from rfl,
    show (data2 V c).owesAt () t.succ = (data2 V c).owesAt () t.castSucc from rfl,
    data2_after_0, data2_after_1, data2_after_2, data2_after_3]
  iintro ⟨HΦ, Ho, ⟨%d0, H0⟩, ⟨%d1, H1⟩, ⟨%d2, H2⟩, ⟨%d3, H3⟩⟩
  iapply (body2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation2 (c : Dev nD) : BodyObligation (data2 (F := F) V c) (defs₀ (F := F)) Variants.none () Set.univ := fun t => by
  rw [bigSep_W2, bigSep_W2]
  exact body2_sound V c t

end Cert.KernelIdeal.Hand

end
-- ==== Proof.KIReg3.lean ====
/-
  Region 3 of the program: the inner-product decoder,  recon = ½ · tanh(½ · H2 · H2ᵀ) + ½,
  one block of 256 rows of H2 per grid point against the whole of H2, contracted over the 128 features. Both input
  windows read the SAME array (H2), so the core's hold on it is dealt between them: one half share each.
  Stated at the entry contents `V` of the core's buffers and at any float instance `F`.
-/
import proofs.«170631_g2000106516245658_pallasbulk_929_4_alg».proof.Proof.Gen.KernelIdeal.Launch
import proofs.«170631_g2000106516245658_pallasbulk_929_4_alg».proof.Proof.Gen.KernelIdeal.Skeleton
import proofs.«170631_g2000106516245658_pallasbulk_929_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds the point's block of 256 rows of H2, fetched at this point or not. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The whole-array window's staging buffer holds all of H2 at every point (its block never moves). -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The whole rectangles the body loads and stores through. -/
abbrev whole3_256x128 : Rect S256x128 := Rect.unit (s := S256x128) ![0, 0] S256x128.size inb_S256x128_S256x128_0_0
abbrev whole3_4096x128 : Rect S4096x128 := Rect.unit (s := S4096x128) ![0, 0] S4096x128.size inb_S4096x128_S4096x128_0_0
abbrev whole3_256x4096 : Rect S256x4096 := Rect.unit (s := S256x4096) ![0, 0] S256x4096.size inb_S256x4096_S256x4096_0_0

/-- What the body leaves in the output block: its one store, of ½ · tanh(½ · H2_blk · H2ᵀ) + ½ over the loaded blocks. -/
def dec3 (x0 : Vec F S256x128 .f32) (x1 : Vec F S4096x128 .f32) : Vec F S256x4096 .f32 :=
  View.canon [⟨whole3_256x4096, k3_pay1 (View.ld x0 whole3_256x128) (View.ld x1 whole3_4096x128)⟩]

/-- The one store covers the output block. -/
theorem dec3_cover (p0 : Vec F S256x4096 .f32) (y : S256x4096.Idx) :
    ∃ pc ∈ ([⟨whole3_256x4096, p0⟩] : List (View.Piece (Elt F) S256x4096 .f32)), y ∈ pc.1.set :=
  View.cover_of_tiled [⟨whole3_256x4096, p0⟩] S256x4096.size (by rfl) y

set_option maxHeartbeats 1000000 in
/-- The body on whole staging memrefs: the inputs are read and kept, the output ends at `dec3` of the inputs. -/
theorem body3_triple (c : Dev nD) (E : Set ℕ) (i : grid3.Coords) (arg1 : Memref sig .tc .vmem S256x128 .f32) (harg1 : arg1.IsWhole) (arg2 : Memref sig .tc .vmem S4096x128 .f32) (harg2 : arg2.IsWhole) (arg3 : Memref sig .tc .vmem S256x4096 .f32) (harg3 : arg3.IsWhole)
    (x0 : Vec F S256x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (dec3 x0 x1)) -∗ K ⟨⟩))
      ⊢ wp frame (wpE (defs₀ (F := F)) Variants.none c none) E (cc3__decoder_kernel i arg1 harg1 arg2 harg2 arg3 harg3) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dec3_cover _)

/-- The proof data of the region on core `c`: the arrays as the region finds them; after the body each input's buffer still at its block and the output's at `dec3` of the input blocks; the invariant is the rest of the scoped buffers and the generator register; nothing owed; the two windows on H2 hold it at the two halves of the full share, the output at the full share. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => dec3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blk3 V c 0 t := by dsimp only [data3]
theorem data3_after_1 (c : Dev nD) (t : Fin cfg3.N) : (data3 V c).after 1 t = blk3 V c 1 t := by dsimp only [data3]
theorem data3_after_2 (c : Dev nD) (t : Fin cfg3.N) : (data3 V c).after 2 t = dec3 (blk3 V c 0 t) (blk3 V c 1 t) := by dsimp only [data3]

theorem data3_before_0 (c : Dev nD) (t : Fin cfg3.N) (d) : (data3 V c).before 0 t d = blk3 V c 0 t :=
  held3_0_of V (data3 V c) (data3_A V c 0) (data3_after_0 V c) t d
theorem data3_before_1 (c : Dev nD) (t : Fin cfg3.N) (d) : (data3 V c).before 1 t d = blk3 V c 1 t :=
  held3_1_of V (data3 V c) (data3_A V c 1) (data3_after_1 V c) t d

/-- What the body is called with at point `t`, -/
def body3_pre (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it returns. -/
def body3_post (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

theorem body3_sound (c : Dev nD) (t : Fin cfg3.N) :
    body3_pre V c t ⊢ wp frame (wpE (defs₀ (F := F)) Variants.none c none) Set.univ (bodyAt3 t) (fun _ => body3_post V c t) := by
  unfold body3_pre body3_post bodyAt3
  simp only [data3_before_0, data3_before_1]
  rw [show (data3 V c).Φ t.succ = (data3 V c).Φ t.castSucc from rfl,
    show (data3 V c).owesAt () t.succ = (data3 V c).owesAt () t.castSucc from rfl,
    data3_after_0, data3_after_1, data3_after_2]
  iintro ⟨HΦ, Ho, ⟨%d0, H0⟩, ⟨%d1, H1⟩, ⟨%d2, H2⟩⟩
  iapply (body3_triple c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation3 (c : Dev nD) : BodyObligation (data3 (F := F) V c) (defs₀ (F := F)) Variants.none () Set.univ := fun t => by
  rw [bigSep_W3, bigSep_W3]
  exact body3_sound V c t

end Cert.KernelIdeal.Hand

end
-- ==== Proof.KIRun.lean ====
/-
  The run of the whole program: what the core's buffers hold at each boundary between @main's items (the two host
  transposes, then the four regions), each region's proof data at the contents it is entered with, and the first three
  regions as segments of the run: a region takes its windows' arrays out of the core's unscoped buffers, runs its
  pipeline, and puts the arrays back with each output at what the write-backs of all grid points leave in it.
  The contents are a fold: launch memory; after the transposes; then region K's arrays replaced by its pipeline's
  final arrays. Region 3 (whose two input windows read one array) is a segment of its own module.
-/
import proofs.«170631_g2000106516245658_pallasbulk_929_4_alg».proof.Proof.KIReg0
import proofs.«170631_g2000106516245658_pallasbulk_929_4_alg».proof.Proof.KIReg1
import proofs.«170631_g2000106516245658_pallasbulk_929_4_alg».proof.Proof.KIReg2
import proofs.«170631_g2000106516245658_pallasbulk_929_4_alg».proof.Proof.KIReg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two host transposes (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- The buffers as region 0 leaves them: Y1 at the products its sixteen grid points wrote back; every other buffer as the region found it. -/
def W2 (c : Dev nD) : Valuation τ sig (Elt F) :=
  Pipeline.withArrays spec0 c (W1 m ρ c) fun w => (data0 (E1 m ρ) c).arrAt w cfg0.N
theorem W2_arr (c : Dev nD) (w : Fin cfg0.W) :
    W2 m ρ c (Proc.devRef .tc (Pipeline.arrRef spec0 w)) = (data0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev E2 : (c : Dev nD) → (b : Ref sig .tc) → Buf (Elt F) ((c : Thread nD τ).loc b) := fun c b => W2 m ρ c b
theorem left0 (c : Dev nD) (w : Fin cfg0.W) : (data0 (E1 m ρ) c).arrAt w cfg0.N = E2 m ρ c (Pipeline.arrRef spec0 w) :=
  (W2_arr m ρ c w).symm
theorem kept0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- The buffers as region 1 leaves them: Y2 at what its sixteen grid points wrote back; every other buffer as the region found it. -/
def W3 (c : Dev nD) : Valuation τ sig (Elt F) :=
  Pipeline.withArrays spec1 c (W2 m ρ c) fun w => (data1 (E2 m ρ) c).arrAt w cfg1.N
theorem W3_arr (c : Dev nD) (w : Fin cfg1.W) :
    W3 m ρ c (Proc.devRef .tc (Pipeline.arrRef spec1 w)) = (data1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev E3 : (c : Dev nD) → (b : Ref sig .tc) → Buf (Elt F) ((c : Thread nD τ).loc b) := fun c b => W3 m ρ c b
theorem left1 (c : Dev nD) (w : Fin cfg1.W) : (data1 (E2 m ρ) c).arrAt w cfg1.N = E3 m ρ c (Pipeline.arrRef spec1 w) :=
  (W3_arr m ρ c w).symm
theorem kept1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- The buffers as region 2 leaves them: H2 at what its sixteen grid points wrote back; every other buffer as the region found it. -/
def W4 (c : Dev nD) : Valuation τ sig (Elt F) :=
  Pipeline.withArrays spec2 c (W3 m ρ c) fun w => (data2 (E3 m ρ) c).arrAt w cfg2.N
theorem W4_arr (c : Dev nD) (w : Fin cfg2.W) :
    W4 m ρ c (Proc.devRef .tc (Pipeline.arrRef spec2 w)) = (data2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev E4 : (c : Dev nD) → (b : Ref sig .tc) → Buf (Elt F) ((c : Thread nD τ).loc b) := fun c b => W4 m ρ c b
theorem left2 (c : Dev nD) (w : Fin cfg2.W) : (data2 (E3 m ρ) c).arrAt w cfg2.N = E4 m ρ c (Pipeline.arrRef spec2 w) :=
  (W4_arr m ρ c w).symm
theorem kept2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- The buffers as region 3 leaves them: the reconstruction at what its sixteen grid points wrote back; every other
    buffer (H2, which both of its input windows read, among them) as the region found it. -/
def W5 (c : Dev nD) : Valuation τ sig (Elt F) :=
  Function.update (W4 m ρ c) (Proc.devRef .tc main_v5) ((data3 (E4 m ρ) c).arrAt 2 cfg3.N)
abbrev E5 : (c : Dev nD) → (b : Ref sig .tc) → Buf (Elt F) ((c : Thread nD τ).loc b) := fun c b => W5 m ρ c b
theorem W5_out (c : Dev nD) : W5 m ρ c (Proc.devRef .tc main_v5) = (data3 (E4 m ρ) c).arrAt 2 cfg3.N := by
  unfold W5; exact Function.update_self ..
theorem W5_of_ne (c : Dev nD) (b : Ref sig .tc) (hb : b ≠ main_v5) :
    W5 m ρ c (Proc.devRef .tc b) = W4 m ρ c (Proc.devRef .tc b) := by
  unfold W5; exact Function.update_of_ne (StableHlo.devRef_ne_of_ne hb) ..

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E2 m ρ) c
  | ⟨2, _⟩ => fun c => data2 (E3 m ρ) c
  | ⟨3, _⟩ => fun c => data3 (E4 m ρ) c
abbrev 𝒱₀ : Variants := Variants.none
/-- No core waits for another: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0, 1, 2 as segments -/

set_option backward.isDefEq.respectTransparency.types false in
/-- Region 0 between the contents `W1` and `W2`: its three arrays taken out of the unscoped buffers and put back, the generator register lent to the pipeline's invariant and returned, nothing owed, no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W2` and `W3`, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W3` and `W4`, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIKeep.lean ====
/-
  Each region leaves every buffer but its own output as it found it: an input window's array is never written back,
  and a buffer that is no window's array bypasses the region. With these the contents at the end of the run are read
  back through the fold: an argument to the launch memory, an intermediate to the region that produced it.
-/
import proofs.«170631_g2000106516245658_pallasbulk_929_4_alg».proof.Proof.KIRun
import proofs.«170631_g2000106516245658_pallasbulk_929_4_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes the contents of no buffer but its output's. -/
theorem W2_keep (c : Dev nD) (b : Ref sig .tc) (hb : b ≠ main_v2) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((data0 (E1 m ρ) c).arrAt_in 0 rfl _).trans (data0_A (E1 m ρ) c 0)
    | ⟨1, _⟩ => exact ((data0 (E1 m ρ) c).arrAt_in 1 rfl _).trans (data0_A (E1 m ρ) c 1)
    | ⟨2, _⟩ => exact (hb rfl).elim
  · exact W2_of_ne m ρ c b fun w e => h ⟨w, e⟩

/-- Region 1 changes the contents of no buffer but its output's. -/
theorem W3_keep (c : Dev nD) (b : Ref sig .tc) (hb : b ≠ main_v3) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((data1 (E2 m ρ) c).arrAt_in 0 rfl _).trans (data1_A (E2 m ρ) c 0)
    | ⟨1, _⟩ => exact ((data1 (E2 m ρ) c).arrAt_in 1 rfl _).trans (data1_A (E2 m ρ) c 1)
    | ⟨2, _⟩ => exact ((data1 (E2 m ρ) c).arrAt_in 2 rfl _).trans (data1_A (E2 m ρ) c 2)
    | ⟨3, _⟩ => exact ((data1 (E2 m ρ) c).arrAt_in 3 rfl _).trans (data1_A (E2 m ρ) c 3)
    | ⟨4, _⟩ => exact (hb rfl).elim
  · exact W3_of_ne m ρ c b fun w e => h ⟨w, e⟩

/-- Region 2 changes the contents of no buffer but its output's. -/
theorem W4_keep (c : Dev nD) (b : Ref sig .tc) (hb : b ≠ main_v4) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => exact ((data2 (E3 m ρ) c).arrAt_in 0 rfl _).trans (data2_A (E3 m ρ) c 0)
    | ⟨1, _⟩ => exact ((data2 (E3 m ρ) c).arrAt_in 1 rfl _).trans (data2_A (E3 m ρ) c 1)
    | ⟨2, _⟩ => exact ((data2 (E3 m ρ) c).arrAt_in 2 rfl _).trans (data2_A (E3 m ρ) c 2)
    | ⟨3, _⟩ => exact (hb rfl).elim
  · exact W4_of_ne m ρ c b fun w e => h ⟨w, e⟩

/-- The two host transposes write only their own results. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

end Cert.KernelIdeal.Hand

end
-- ==== Proof.KIMain.lean ====
/-
  The whole run. @main is its five items in order — the two host transposes, then the four regions — and the
  pipeline library's launch theorem for such a list gives: from any launch memory with zero counters every weakly
  fair execution terminates without a fault, and at the end every unscoped buffer of the core holds what the fold of
  the items' effects says (`W5`). The last region enters as a parameter (any segment record between the contents
  `W4` and `W5`), so that this module does not depend on how that region deals its shared array.
-/
import proofs.«170631_g2000106516245658_pallasbulk_929_4_alg».proof.Proof.KIKeep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the dues: every unscoped buffer at the final contents, the generator register at some state. -/
abbrev Tₙ (c : Dev nD) : sProp 𝕄 := iprop(StableHlo.held (c : Thread nD τ) (Pipeline.ucRefs τ sig) (W5 m ρ c) ∗ ∃ r, prngReg c r)

variable (R3 : Pipeline.RegionSeg (pcfgs (F := F)) adm (pdats m ρ) () defs₀ 𝒱₀ L lv 3)

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region R3 ]

/-- @main is the run of these segments. -/
theorem main_run (c : Dev nD) : main (F := F) c = Pipeline.Seg.run (segs m ρ R3) := (main_chain c).trans (by chain_rfl)

set_option backward.isDefEq.respectTransparency.types false in
/-- The run: every weakly fair execution of @main terminates, nothing faulting, and every final state holds each
    unscoped buffer at its final contents `W5`. -/
theorem run_of
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ R3)
    (fun c Q => by rw [main_run m ρ R3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, hpre3, hpost3⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KIOut.lean ====
/-
  The run with its results named: at the end the reconstruction's buffer holds what region 3's pipeline leaves in its
  output array and the latent's buffer what region 2's leaves, and every argument array holds its launch contents
  (read back through the fold: no region writes an input window's array and no host operation writes an argument).
  Also what each region finds in its input arrays when it is entered: an argument's launch contents, a host
  transpose's result, or the output array of the region before.
-/
import proofs.«170631_g2000106516245658_pallasbulk_929_4_alg».proof.Proof.KIMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Named

variable (R3 : Pipeline.RegionSeg (pcfgs (F := F)) adm (pdats m ρ) () defs₀ 𝒱₀ L lv 3)

theorem run_named
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      r.2.mem ((c.tc : Thread nD τ).loc main_v5) = (data3 (E4 m ρ) c).arrAt 2 cfg3.N
      ∧ r.2.mem ((c.tc : Thread nD τ).loc main_v4) = (data2 (E3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_v5 (by decide))).trans (W5_out m ρ c),
      (h c _ (mem_uc main_v4 (by decide))).trans ((W5_of_ne m ρ c main_v4 (by decide)).trans (W4_arr m ρ c 3)),
      (h c _ (mem_uc main_arg0 (by decide))).trans <| (W5_of_ne m ρ c main_arg0 (by decide)).trans <| (W4_keep m ρ c main_arg0 (by decide)).trans <|
        (W3_keep m ρ c main_arg0 (by decide)).trans <| (W2_keep m ρ c main_arg0 (by decide)).trans <| (W1_keep m ρ c main_arg0 (by decide)).trans rfl,
      (h c _ (mem_uc main_arg1 (by decide))).trans <| (W5_of_ne m ρ c main_arg1 (by decide)).trans <| (W4_keep m ρ c main_arg1 (by decide)).trans <|
        (W3_keep m ρ c main_arg1 (by decide)).trans <| (W2_keep m ρ c main_arg1 (by decide)).trans <| (W1_keep m ρ c main_arg1 (by decide)).trans rfl,
      (h c _ (mem_uc main_arg2 (by decide))).trans <| (W5_of_ne m ρ c main_arg2 (by decide)).trans <| (W4_keep m ρ c main_arg2 (by decide)).trans <|
        (W3_keep m ρ c main_arg2 (by decide)).trans <| (W2_keep m ρ c main_arg2 (by decide)).trans <| (W1_keep m ρ c main_arg2 (by decide)).trans rfl,
      (h c _ (mem_uc main_arg3 (by decide))).trans <| (W5_of_ne m ρ c main_arg3 (by decide)).trans <| (W4_keep m ρ c main_arg3 (by decide)).trans <|
        (W3_keep m ρ c main_arg3 (by decide)).trans <| (W2_keep m ρ c main_arg3 (by decide)).trans <| (W1_keep m ρ c main_arg3 (by decide)).trans rfl,
      (h c _ (mem_uc main_arg4 (by decide))).trans <| (W5_of_ne m ρ c main_arg4 (by decide)).trans <| (W4_keep m ρ c main_arg4 (by decide)).trans <|
        (W3_keep m ρ c main_arg4 (by decide)).trans <| (W2_keep m ρ c main_arg4 (by decide)).trans <| (W1_keep m ρ c main_arg4 (by decide)).trans rfl,
      (h c _ (mem_uc main_arg5 (by decide))).trans <| (W5_of_ne m ρ c main_arg5 (by decide)).trans <| (W4_keep m ρ c main_arg5 (by decide)).trans <|
        (W3_keep m ρ c main_arg5 (by decide)).trans <| (W2_keep m ρ c main_arg5 (by decide)).trans <| (W1_keep m ρ c main_arg5 (by decide)).trans rfl⟩)
    (run_of m ρ R3 hpre3 hpost3)

end Named

/-! ## What each region finds in its input arrays -/

theorem E1_arg1 (c : Dev nD) : E1 m ρ c main_arg1 = m ((c.tc : Thread nD τ).loc main_arg1) := (W1_keep m ρ c main_arg1 (by decide)).trans rfl
theorem E2_arg0 (c : Dev nD) : E2 m ρ c main_arg0 = m ((c.tc : Thread nD τ).loc main_arg0) :=
  (W2_keep m ρ c main_arg0 (by decide)).trans <| (W1_keep m ρ c main_arg0 (by decide)).trans rfl
theorem E2_arg3 (c : Dev nD) : E2 m ρ c main_arg3 = m ((c.tc : Thread nD τ).loc main_arg3) :=
  (W2_keep m ρ c main_arg3 (by decide)).trans <| (W1_keep m ρ c main_arg3 (by decide)).trans rfl
theorem E2_v1 (c : Dev nD) : E2 m ρ c main_v1 = E1 m ρ c main_v1 := W2_keep m ρ c main_v1 (by decide)
theorem E2_v2 (c : Dev nD) : E2 m ρ c main_v2 = (data0 (E1 m ρ) c).arrAt 2 cfg0.N := W2_arr m ρ c 2
theorem E3_arg0 (c : Dev nD) : E3 m ρ c main_arg0 = m ((c.tc : Thread nD τ).loc main_arg0) :=
  (W3_keep m ρ c main_arg0 (by decide)).trans (E2_arg0 m ρ c)
theorem E3_arg5 (c : Dev nD) : E3 m ρ c main_arg5 = m ((c.tc : Thread nD τ).loc main_arg5) :=
  (W3_keep m ρ c main_arg5 (by decide)).trans <| (W2_keep m ρ c main_arg5 (by decide)).trans <| (W1_keep m ρ c main_arg5 (by decide)).trans rfl
theorem E3_v3 (c : Dev nD) : E3 m ρ c main_v3 = (data1 (E2 m ρ) c).arrAt 4 cfg1.N := W3_arr m ρ c 4
theorem E4_v4 (c : Dev nD) : E4 m ρ c main_v4 = (data2 (E3 m ρ) c).arrAt 3 cfg2.N := W4_arr m ρ c 3

/-- The first host operation leaves the transpose of the first weight, the second the transpose of the second. -/
theorem E1_v0 (c : Dev nD) : E1 m ρ c main_v0
    = transpose S256x128 [1, 0] (m ((c.tc : Thread nD τ).loc main_arg2)) transposes_S128x256_S256x128_1_0 := by
  show StableHlo.after hostOps0 (W0 m ρ c) (Proc.devRef .tc main_v0) = _
  after_results
theorem E1_v1 (c : Dev nD) : E1 m ρ c main_v1
    = transpose S128x128 [1, 0] (m ((c.tc : Thread nD τ).loc main_arg4)) transposes_S128x128_S128x128_1_0 := by
  show StableHlo.after hostOps0 (W0 m ρ c) (Proc.devRef .tc main_v1) = _
  after_results

end Cert.KernelIdeal.Hand

end
-- ==== Proof.KISeg3.lean ====
/-
  Region 3 (the inner-product decoder) as the last segment of the run. Its two input windows read the SAME array, H2,
  so the windows' arrays are not distinct buffers: behind the three windows stand two buffers, H2 and the output.
  At the entry the core's whole hold on H2 is dealt to the two windows, the left half of the full share to the
  row-block window and the right half to the whole-array window; neither window writes, so at the exit each still holds
  H2 at the entry contents and the two halves join back to the whole hold. The output is held whole throughout and comes
  back at what the write-backs of all grid points left in it. Every other unscoped buffer bypasses the region.
-/
import proofs.«170631_g2000106516245658_pallasbulk_929_4_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind region 3's windows are two: H2 (read by both input windows) and the output. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v4) ↦{fullShare} V main_v4) ∗ (((c : Thread nD τ).loc main_v5) ↦{fullShare} V main_v5)) := by
  unfold Pipeline.arrBufs
  rw [show Finset.univ.image (Pipeline.arrRef spec3) = {main_v4, main_v5} from by decide, bigSep_insert (by decide), bigSep_singleton]
  rfl

/-- The region's windowed arrays, window by window: H2 at the left half of the full share, H2 again at the right
    half, the output whole at the full share. -/
theorem arrays3_eq (V : (c : Dev nD) → (b : Ref sig .tc) → Buf (Elt F) ((c : Thread nD τ).loc b)) (c : Dev nD)
    (G : (w : Fin cfg3.W) → Buf (Elt F) ((cfg3.win w).arr.view.loc (c : Thread nD τ))) :
    ((data3 V c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W3, (arr_whole3 0).set_eq_univ, (arr_whole3 2).set_eq_univ]
  rfl

/-- The core's unscoped buffers at `V`: the distinct buffers behind region 3's windows, and the rest. -/
theorem unscopedBufs3_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec3 c V ∗ Pipeline.unscopedRest spec3 c V) :=
  Pipeline.unscopedBufs_split₀ (Pipeline.pin (pcfgs (F := F)) adm) 3 winFacts₀3.arr_unscoped c V

/-- ENTRY, the arrays' part: of the two distinct buffers behind the windows, H2's whole hold is dealt to the two
    windows that read it, the left half of the full share to the row-block window and the right half to the
    whole-array window; the output goes whole to its window. Every array is at the contents the region finds. -/
theorem arrays3_of_arrBufs (V : (c : Dev nD) → (b : Ref sig .tc) → Buf (Elt F) ((c : Thread nD τ).loc b)) (c : Dev nD) :
    (Pipeline.arrBufs (Ix := Unit) (Name := ℕ) (U := UR sig nD τ) (Lvl := ℕ) spec3 c (V c) : sProp 𝕄)
      ⊢ (data3 V c).arrays ((data3 V c).arrAt · 0) := by
  rw [arrBufs3_eq, arrays3_eq]
  iintro ⟨H4, H5⟩
  ihave H4 := (pointsTo_share (PosShare.mem_left_op_right fullShare)).1 $$ H4
  icases H4 with ⟨Hl, Hr⟩
  isplitl [Hl]; · iexact Hl
  isplitl [Hr]; · iexact Hr
  iexact H5

/-- ENTRY: the core's unscoped buffers at `V` are the region's arrays at entry and the buffers no window reads or writes. -/
theorem arrays3_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((data3 V c).arrays ((data3 V c).arrAt · 0) ∗ Pipeline.unscopedRest spec3 c (V c)) := by
  rw [unscopedBufs3_split c (V c)]
  exact BI.sep_mono (arrays3_of_arrBufs V c) (Entails.refl _)

/-- EXIT: the two input windows never write H2, so each still holds it at the entry contents and the two halves join
    back to the whole hold; with the output at what the write-backs left and the untouched rest, that is the core's
    unscoped buffers at any contents `V'` that has the output there and agrees with `V` on every other buffer. -/
theorem unscopedBufs_of_arrays3 (V : (c : Dev nD) → (b : Ref sig .tc) → Buf (Elt F) ((c : Thread nD τ).loc b)) (c : Dev nD)
    (V' : (b : Ref sig .tc) → Buf (Elt F) ((c : Thread nD τ).loc b))
    (hout : V' main_v5 = (data3 V c).arrAt 2 cfg3.N) (hrest : ∀ b, b ≠ main_v5 → V' b = V c b) :
    iprop((data3 V c).arrays ((data3 V c).arrAt · cfg3.N) ∗ Pipeline.unscopedRest (Ix := Unit) (Name := ℕ) (U := UR sig nD τ) (Lvl := ℕ) spec3 c (V c))
      ⊢ (unscopedBufs c V' : sProp 𝕄) := by
  have hR : (Pipeline.unscopedRest (Ix := Unit) (Name := ℕ) (U := UR sig nD τ) (Lvl := ℕ) spec3 c V' : sProp 𝕄) = Pipeline.unscopedRest spec3 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscopedBufs3_split c V', hR, arrBufs3_eq, arrays3_eq,
    (data3 V c).arrAt_in 0 rfl, (data3 V c).arrAt_in 1 rfl, hout, hrest main_v4 (by decide)]
  iintro ⟨⟨Hl, Hr, H5⟩, Hrest⟩
  isplitr [Hrest]
  · isplitl [Hl Hr]
    · iapply (pointsTo_share (PosShare.mem_left_op_right fullShare)).2
      isplitl [Hl]; · iexact Hl
      iexact Hr
    iexact H5
  iexact Hrest

set_option backward.isDefEq.respectTransparency.types false in
/-- Region 3 between the contents `W4` and `W5`, the last segment of the run: its two distinct arrays taken out of the
    unscoped buffers, H2's hold dealt in halves to the two windows that read it and joined back at the exit, the
    output put back at what the write-backs of all grid points left; the generator register lent to the pipeline's
    invariant and returned, nothing owed, no semaphore of the kernel's own. The state it leaves is the run's last. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (obligation3 (E4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop((StableHlo.held (c : Thread nD τ) (Pipeline.ucRefs τ sig) (W5 m ρ c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := arrays3_of_unscopedBufs (E4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (E4 m ρ) c (E5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

end Cert.KernelIdeal.Hand

end
-- ==== Proof.Spec.lean ====
/-
  The mathematics both programs compute, stated once over plain matrices of extended reals (rows and columns as
  `Fin` indices), independent of either program's text and tiling:
    Y1 = H0 · W1ᵀ,   Y2 = relu(A · Y1 + b1) · W2ᵀ,   H2 = A · Y2 + b2,   recon = ½ · tanh(½ · H2 · H2ᵀ) + ½,
  every matrix product a plain finite sum over the contracted index, and the law that lets a contraction over 4096
  columns be accumulated in four blocks of 1024 starting from zero.
-/
import Idealize.ShloMosaic.PureOps.Ideal
import Idealize.ShloMosaic.Lib.ValueIdx

noncomputable section

open scoped BigOperators

namespace Cert.Spec

open Idealize.ShloMosaic Idealize.ShloMosaic.ValueIdx

/-- An array of rank 2 read as a matrix, and a matrix as an array. -/
abbrev mat {a b : Nat} (x : (⟨2, ![a, b]⟩ : Shape).Idx → EReal) : Fin a → Fin b → EReal := fun r c => x (ix2 r c)
abbrev arr {a b : Nat} (f : Fin a → Fin b → EReal) : (⟨2, ![a, b]⟩ : Shape).Idx → EReal := fun i => f (i 0) (i 1)

theorem arr_mat {a b : Nat} (x : (⟨2, ![a, b]⟩ : Shape).Idx → EReal) : arr (mat x) = x := by
  funext i; exact congrArg x (eq_ix2 i).symm

/-- The float words the programs spell: zero and one half. -/
abbrev zero : EReal := Ideal.ofBits .f32 0x00000000#32
abbrev half : EReal := Ideal.ofBits .f32 0x3F000000#32

/-- The product of an `n × K` and a `K × p` matrix. -/
def mm {n K p : Nat} (x : Fin n → Fin K → EReal) (y : Fin K → Fin p → EReal) : Fin n → Fin p → EReal :=
  fun r j => ∑ k : Fin K, x r k * y k j

/-- The product with the transpose of the second factor (the decoder's contraction over both factors' last axis). -/
def mmT {n K p : Nat} (x : Fin n → Fin K → EReal) (y : Fin p → Fin K → EReal) : Fin n → Fin p → EReal :=
  fun r s => ∑ k : Fin K, x r k * y s k

/-- The hidden layer's activation. -/
def relu (x : EReal) : EReal := max x zero

/-- The logistic function as the programs compute it. -/
def logistic (x : EReal) : EReal := half * Ideal.tanh (half * x) + half

/-- Y1 from H0 and the TRANSPOSED first weight. -/
def feat (h0 : Fin 4096 → Fin 256 → EReal) (w1t : Fin 256 → Fin 128 → EReal) : Fin 4096 → Fin 128 → EReal := mm h0 w1t

/-- Y2 from A, Y1, the bias row and the TRANSPOSED second weight. -/
def hid (a : Fin 4096 → Fin 4096 → EReal) (y1 : Fin 4096 → Fin 128 → EReal) (b1 : Fin 128 → EReal)
    (w2t : Fin 128 → Fin 128 → EReal) : Fin 4096 → Fin 128 → EReal :=
  mm (fun r k => relu (mm a y1 r k + b1 k)) w2t

/-- H2 from A, Y2 and the bias row. -/
def lat (a : Fin 4096 → Fin 4096 → EReal) (y2 : Fin 4096 → Fin 128 → EReal) (b2 : Fin 128 → EReal) :
    Fin 4096 → Fin 128 → EReal :=
  fun r j => mm a y2 r j + b2 j

/-- The reconstruction from H2. -/
def dec (h2 : Fin 4096 → Fin 128 → EReal) : Fin 4096 → Fin 4096 → EReal :=
  fun r s => logistic (mmT h2 h2 r s)

/-- A sum over 4096 terms is, from zero, the sums of its four consecutive blocks of 1024 added in order. -/
theorem sum_four_blocks (f : Fin 4096 → EReal) :
    (∑ l : Fin 4096, f l)
      = (((0 + ∑ l : Fin 1024, f ⟨l.val, by omega⟩) + ∑ l : Fin 1024, f ⟨1024 + l.val, by omega⟩)
          + ∑ l : Fin 1024, f ⟨2048 + l.val, by omega⟩) + ∑ l : Fin 1024, f ⟨3072 + l.val, by omega⟩ := by
  have h4 : ∀ g : Fin (1024 + 1024 + 1024 + 1024) → EReal, (∑ l, g l)
      = ((∑ l : Fin 1024, g (Fin.castAdd 1024 (Fin.castAdd 1024 (Fin.castAdd 1024 l)))) + ∑ l : Fin 1024, g (Fin.castAdd 1024 (Fin.castAdd 1024 (Fin.natAdd 1024 l))))
          + (∑ l : Fin 1024, g (Fin.castAdd 1024 (Fin.natAdd (1024 + 1024) l))) + ∑ l : Fin 1024, g (Fin.natAdd (1024 + 1024 + 1024) l) := by
    intro g; rw [Fin.sum_univ_add, Fin.sum_univ_add, Fin.sum_univ_add]
  rw [zero_add]
  exact h4 f

end Cert.Spec

end
-- ==== Proof.KIVal0.lean ====
/-
  Region 0 at the ideal instance (a float is an extended real, every operation exact): the array the region leaves in
  its output, as one function of its two input arrays. The body's payload at an output index (p, q) is the plain sum
  ∑ k, x0 (p, k) · x1 (k, q) over the 256 contracted positions (the product into the zero accumulator, re-indexed from
  the contraction's one-axis index set to Fin 256). Point t reads rows 256·t … 256·t + 255 of H0 and the whole transposed
  weight, so what it writes back is rows 256·t … 256·t + 255 of H0 · W1ᵀ; the sixteen row blocks tile the 4096 rows
  (row r lies in block r / 256), hence the array ends holding H0 · W1ᵀ.
-/
import proofs.«170631_g2000106516245658_pallasbulk_929_4_alg».proof.Proof.KIReg0
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx
open Cert.Spec
open scoped BigOperators

/-- The product's left operand is read at the output's row, -/
theorem dot0_lhs_row (j : S256x128.Idx) (k : (dot_S256x256_S256x128_S256x128_1_0_0_1_n_n).contr.Idx) :
    (((dot_S256x256_S256x128_S256x128_1_0_0_1_n_n).lhsIdx j k 0 : Fin 256) : ℕ) = (j 0 : ℕ) := by
  simp [DotDims.lhsIdx, dot_S256x256_S256x128_S256x128_1_0_0_1_n_n]; rfl

/-- its right operand at the output's column. -/
theorem dot0_rhs_col (j : S256x128.Idx) (k : (dot_S256x256_S256x128_S256x128_1_0_0_1_n_n).contr.Idx) :
    (((dot_S256x256_S256x128_S256x128_1_0_0_1_n_n).rhsIdx j k 1 : Fin 128) : ℕ) = (j 1 : ℕ) := by
  simp [DotDims.rhsIdx, dot_S256x256_S256x128_S256x128_1_0_0_1_n_n]; rfl

/-- The payload at (p, q): the sum over the 256 contracted positions of the operands' products. -/
theorem pay0_apply (x0 : Vec Ideal S256x256 .f32) (x1 : Vec Ideal S256x128 .f32) (p : Fin 256) (q : Fin 128) :
    k0_pay1 x0 x1 (ix2 p q) = ∑ k : Fin 256, x0 (ix2 p k) * x1 (ix2 k q) := by
  unfold k0_pay1
  rw [shapeCast_self]
  refine (Ideal.matmul_constant_zero_apply _ none x0 x1 (ix2 p q)).trans ?_
  rw [← Equiv.sum_comp (contrEquiv1 (dot_S256x256_S256x128_S256x128_1_0_0_1_n_n) 256 rfl rfl).symm]
  refine Finset.sum_congr rfl fun k _ => ?_
  have hl : (dot_S256x256_S256x128_S256x128_1_0_0_1_n_n).lhsIdx (ix2 p q) ((contrEquiv1 (dot_S256x256_S256x128_S256x128_1_0_0_1_n_n) 256 rfl rfl).symm k) = ix2 p k := by
    funext a; apply Fin.ext
    match a with
    | ⟨0, _⟩ => exact dot0_lhs_row _ _
    | ⟨1, _⟩ => exact ((dot_S256x256_S256x128_S256x128_1_0_0_1_n_n).lhsIdx_val_of_single rfl _ _).trans (contrEquiv1_symm_val _ 256 rfl rfl k)
  have hr : (dot_S256x256_S256x128_S256x128_1_0_0_1_n_n).rhsIdx (ix2 p q) ((contrEquiv1 (dot_S256x256_S256x128_S256x128_1_0_0_1_n_n) 256 rfl rfl).symm k) = ix2 k q := by
    funext a; apply Fin.ext
    match a with
    | ⟨0, _⟩ => exact ((dot_S256x256_S256x128_S256x128_1_0_0_1_n_n).rhsIdx_val_of_single rfl _ _).trans (contrEquiv1_symm_val _ 256 rfl rfl k)
    | ⟨1, _⟩ => exact dot0_rhs_col _ _
  rw [hl, hr]

/-! ## From the blocks to the array -/

variable (V : (c : Dev nD) → (b : Ref sig .tc) → Buf (Elt Ideal) ((c : Thread nD τ).loc b))

theorem zeros0 : (![0, 0] : Fin 2 → Nat) = fun _ => 0 := funext fun a => by fin_cases a <;> rfl

/-- The product array H0 · W1ᵀ of the two input arrays, index by index. -/
abbrev Y1of (h0 : S4096x256.Idx → EReal) (w : S256x128.Idx → EReal) : S4096x128.Idx → EReal :=
  arr (feat (mat h0) (mat w))

/-- The index maps over the grid: the H0 window and the output move one row block per point, the weight's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The H0 window's block at point t is rows 256·t … 256·t + 255 of H0. -/
theorem blk0_0_apply (c : Dev nD) (t : Fin cfg0.N) (x : S256x256.Idx) (k : S4096x256.Idx)
    (hk0 : (k 0).val = 256 * t.val + (x 0).val) (hk1 : (k 1).val = (x 1).val) :
    (blk0 V c 0 t : Vec Ideal S256x256 .f32) x = (V c main_arg1 : S4096x256.Idx → EReal) k := by
  obtain ⟨e0, e1, -⟩ := idx0 t
  unfold blk0
  rw [View.read_apply]
  show V c main_arg1 _ = V c main_arg1 _
  refine congrArg _ ?_
  funext a
  apply Fin.ext
  match a with
  | ⟨0, _⟩ => show win0_0.index t (0 : Fin 2) * 256 + 1 * (x 0).val = (k 0).val; rw [e0, hk0]; omega
  | ⟨1, _⟩ => show win0_0.index t (1 : Fin 2) * 256 + 1 * (x 1).val = (k 1).val; rw [e1, hk1]; omega

/-- The weight window's block at every point is the whole transposed weight. -/
theorem blk0_1_apply (c : Dev nD) (t : Fin cfg0.N) (x : S256x128.Idx) :
    (blk0 V c 1 t : Vec Ideal S256x128 .f32) x = (V c main_v0 : S256x128.Idx → EReal) x := by
  obtain ⟨-, -, e0, e1, -⟩ := idx0 t
  unfold blk0
  rw [View.read_apply]
  show V c main_v0 _ = V c main_v0 _
  refine congrArg _ ?_
  funext a
  apply Fin.ext
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- One point's payload, over a row block of H0 and the whole weight, is that row block of the product. -/
theorem point0 (h0 : S4096x256.Idx → EReal) (w : S256x128.Idx → EReal) (t : ℕ) (x0 : Vec Ideal S256x256 .f32) (x1 : Vec Ideal S256x128 .f32)
    (hx0 : ∀ (x : S256x256.Idx) (k : S4096x256.Idx), (k 0).val = 256 * t + (x 0).val → (k 1).val = (x 1).val → x0 x = h0 k)
    (hx1 : ∀ x, x1 x = w x) (j : S256x128.Idx) (i : S4096x128.Idx) (hi0 : (i 0).val = 256 * t + (j 0).val) (hi1 : (i 1).val = (j 1).val) :
    k0_pay1 x0 x1 j = Y1of h0 w i := by
  obtain ⟨p, q, rfl⟩ : ∃ (p : Fin 256) (q : Fin 128), j = ix2 p q := ⟨j 0, j 1, eq_ix2 j⟩
  have hq : q = i 1 := Fin.ext hi1.symm
  rw [pay0_apply]
  show _ = ∑ k : Fin 256, h0 (ix2 (i 0) k) * w (ix2 k (i 1))
  refine Finset.sum_congr rfl fun k _ => ?_
  rw [hx0 (ix2 p k) (ix2 (i 0) k) hi0 rfl, hx1, hq]

/-- What point t writes back is block t of the product array. -/
theorem flushed0_eq (c : Dev nD) (t : Fin cfg0.N) :
    (data0 (F := Ideal) V c).flushed 2 t = ((cfg0.win 2).blk t).view.read (Elt Ideal) (Y1of (V c main_arg1) (V c main_v0)) := by
  show (cfg0.win 2).cut (grid0.coords t) ((data0 V c).after 2 t) = _
  rw [data0_after_2]
  unfold prod0
  rw [View.canon_unit_zero zeros0]
  simp only [View.ld_unit_zero (S := S256x256) zeros0, View.ld_unit_zero (S := S256x128) zeros0]
  obtain ⟨-, -, -, -, e0, e1⟩ := idx0 t
  funext j
  show k0_pay1 (blk0 V c 0 t) (blk0 V c 1 t) j = Y1of (V c main_arg1) (V c main_v0) (((cfg0.win 2).blk t).view.emb j)
  refine point0 _ _ t.val _ _ (fun x k h0 h1 => blk0_0_apply V c t x k h0 h1) (fun x => blk0_1_apply V c t x) j _ ?_ ?_
  · show win0_2.index t (0 : Fin 2) * 256 + 1 * (j 0).val = _; rw [e0]; omega
  · show win0_2.index t (1 : Fin 2) * 128 + 1 * (j 1).val = _; rw [e1]; omega

/-- An index of the output array is in point t's block iff each coordinate is in the block's range on its axis. -/
theorem mem_blk0 (t : Fin cfg0.N) (i : S4096x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v2).slice (win0_2.rect t)).set ↔ _
  rw [View.set_slice_whole, Rect.mem_set_unit]
  exact Iff.rfl

/-- Row r of the output is in the block of point r / 256. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 16 := rfl
  let t : Fin cfg0.N := ⟨(i 0).val / 256, by omega⟩
  obtain ⟨-, -, -, -, e0, e1⟩ := idx0 t
  have ht : t.val = (i 0).val / 256 := rfl
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; rw [e0, ht]; omega
  | ⟨1, _⟩ => show win0_2.index t (1 : Fin 2) * 128 ≤ (i 1).val ∧ (i 1).val < win0_2.index t (1 : Fin 2) * 128 + 128; rw [e1]; omega

/-- The output array when the region is over: the product of the two input arrays. -/
theorem final0 (c : Dev nD) : (data0 (F := Ideal) V c).arrAt 2 cfg0.N
    = arr (feat (mat (V c main_arg1 : S4096x256.Idx → EReal)) (mat (V c main_v0 : S256x128.Idx → EReal))) :=
  (data0 (F := Ideal) V c).arrAt_eq_of_cover 2 (Y1of (V c main_arg1) (V c main_v0)) (fun t _ => flushed0_eq V c t) (cover0)

end Cert.KernelIdeal.Hand

end
-- ==== Proof.KIVal1.lean ====
/-
  Region 1 at the ideal instance (a float is an extended real, every operation exact): the array the region leaves in
  its output, as one function of its four input arrays. The body's payload at an output index (p, q) is
  ∑ k, max ((∑ l, x0 (p, l) · x1 (l, k)) + x2 (0, k)) 0 · x3 (k, q): the inner product into the zero accumulator over the
  4096 contracted positions, the bias row broadcast down the rows, the maximum with zero, and the outer product into the
  zero accumulator over the 128 contracted positions, each contraction re-indexed from its one-axis index set to Fin n.
  Point t reads rows 256·t … 256·t + 255 of A and the whole of Y1, of the bias row and of the transposed weight, so what it
  writes back is rows 256·t … 256·t + 255 of relu(A · Y1 + b1) · W2ᵀ; the sixteen row blocks tile the 4096 rows (row r lies
  in block r / 256), hence the array ends holding relu(A · Y1 + b1) · W2ᵀ.
-/
import proofs.«170631_g2000106516245658_pallasbulk_929_4_alg».proof.Proof.KIReg1
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx
open Cert.Spec
open scoped BigOperators

/-! ## The payload at an index -/

/-- The inner product's left operand is read at the output's row, -/
theorem dot1a_lhs_row (j : S256x128.Idx) (k : (dot_S256x4096_S4096x128_S256x128_1_0_0_1_n_n).contr.Idx) :
    (((dot_S256x4096_S4096x128_S256x128_1_0_0_1_n_n).lhsIdx j k 0 : Fin 256) : ℕ) = (j 0 : ℕ) := by
  simp [DotDims.lhsIdx, dot_S256x4096_S4096x128_S256x128_1_0_0_1_n_n]; rfl

/-- its right operand at the output's column. -/
theorem dot1a_rhs_col (j : S256x128.Idx) (k : (dot_S256x4096_S4096x128_S256x128_1_0_0_1_n_n).contr.Idx) :
    (((dot_S256x4096_S4096x128_S256x128_1_0_0_1_n_n).rhsIdx j k 1 : Fin 128) : ℕ) = (j 1 : ℕ) := by
  simp [DotDims.rhsIdx, dot_S256x4096_S4096x128_S256x128_1_0_0_1_n_n]; rfl

/-- The outer product's left operand is read at the output's row, -/
theorem dot1b_lhs_row (j : S256x128.Idx) (k : (dot_S256x128_S128x128_S256x128_1_0_0_1_n_n).contr.Idx) :
    (((dot_S256x128_S128x128_S256x128_1_0_0_1_n_n).lhsIdx j k 0 : Fin 256) : ℕ) = (j 0 : ℕ) := by
  simp [DotDims.lhsIdx, dot_S256x128_S128x128_S256x128_1_0_0_1_n_n]; rfl

/-- its right operand at the output's column. -/
theorem dot1b_rhs_col (j : S256x128.Idx) (k : (dot_S256x128_S128x128_S256x128_1_0_0_1_n_n).contr.Idx) :
    (((dot_S256x128_S128x128_S256x128_1_0_0_1_n_n).rhsIdx j k 1 : Fin 128) : ℕ) = (j 1 : ℕ) := by
  simp [DotDims.rhsIdx, dot_S256x128_S128x128_S256x128_1_0_0_1_n_n]; rfl

/-- The 256×4096 by 4096×128 product into the zero accumulator, at (p, k): the sum over the 4096 contracted positions. -/
theorem mm1a_apply (x0 : FVec Ideal S256x4096 .f32) (x1 : FVec Ideal S4096x128 .f32) (p : Fin 256) (k : Fin 128) :
    FloatOps.matmul dot_S256x4096_S4096x128_S256x128_1_0_0_1_n_n none x0 x1 (constant S256x128 .f32 0x00000000#32) (ix2 p k)
      = ∑ l : Fin 4096, x0 (ix2 p l) * x1 (ix2 l k) := by
  refine (Ideal.matmul_constant_zero_apply _ none x0 x1 (ix2 p k)).trans ?_
  rw [← Equiv.sum_comp (contrEquiv1 (dot_S256x4096_S4096x128_S256x128_1_0_0_1_n_n) 4096 rfl rfl).symm]
  refine Finset.sum_congr rfl fun l _ => ?_
  have hl : (dot_S256x4096_S4096x128_S256x128_1_0_0_1_n_n).lhsIdx (ix2 p k) ((contrEquiv1 (dot_S256x4096_S4096x128_S256x128_1_0_0_1_n_n) 4096 rfl rfl).symm l) = ix2 p l := by
    funext a; apply Fin.ext
    match a with
    | ⟨0, _⟩ => exact dot1a_lhs_row _ _
    | ⟨1, _⟩ => exact ((dot_S256x4096_S4096x128_S256x128_1_0_0_1_n_n).lhsIdx_val_of_single rfl _ _).trans (contrEquiv1_symm_val _ 4096 rfl rfl l)
  have hr : (dot_S256x4096_S4096x128_S256x128_1_0_0_1_n_n).rhsIdx (ix2 p k) ((contrEquiv1 (dot_S256x4096_S4096x128_S256x128_1_0_0_1_n_n) 4096 rfl rfl).symm l) = ix2 l k := by
    funext a; apply Fin.ext
    match a with
    | ⟨0, _⟩ => exact ((dot_S256x4096_S4096x128_S256x128_1_0_0_1_n_n).rhsIdx_val_of_single rfl _ _).trans (contrEquiv1_symm_val _ 4096 rfl rfl l)
    | ⟨1, _⟩ => exact dot1a_rhs_col _ _
  rw [hl, hr]

/-- The 256×128 by 128×128 product into the zero accumulator, at (p, q): the sum over the 128 contracted positions. -/
theorem mm1b_apply (y : FVec Ideal S256x128 .f32) (x3 : FVec Ideal S128x128 .f32) (p : Fin 256) (q : Fin 128) :
    FloatOps.matmul dot_S256x128_S128x128_S256x128_1_0_0_1_n_n none y x3 (constant S256x128 .f32 0x00000000#32) (ix2 p q)
      = ∑ k : Fin 128, y (ix2 p k) * x3 (ix2 k q) := by
  refine (Ideal.matmul_constant_zero_apply _ none y x3 (ix2 p q)).trans ?_
  rw [← Equiv.sum_comp (contrEquiv1 (dot_S256x128_S128x128_S256x128_1_0_0_1_n_n) 128 rfl rfl).symm]
  refine Finset.sum_congr rfl fun k _ => ?_
  have hl : (dot_S256x128_S128x128_S256x128_1_0_0_1_n_n).lhsIdx (ix2 p q) ((contrEquiv1 (dot_S256x128_S128x128_S256x128_1_0_0_1_n_n) 128 rfl rfl).symm k) = ix2 p k := by
    funext a; apply Fin.ext
    match a with
    | ⟨0, _⟩ => exact dot1b_lhs_row _ _
    | ⟨1, _⟩ => exact ((dot_S256x128_S128x128_S256x128_1_0_0_1_n_n).lhsIdx_val_of_single rfl _ _).trans (contrEquiv1_symm_val _ 128 rfl rfl k)
  have hr : (dot_S256x128_S128x128_S256x128_1_0_0_1_n_n).rhsIdx (ix2 p q) ((contrEquiv1 (dot_S256x128_S128x128_S256x128_1_0_0_1_n_n) 128 rfl rfl).symm k) = ix2 k q := by
    funext a; apply Fin.ext
    match a with
    | ⟨0, _⟩ => exact ((dot_S256x128_S128x128_S256x128_1_0_0_1_n_n).rhsIdx_val_of_single rfl _ _).trans (contrEquiv1_symm_val _ 128 rfl rfl k)
    | ⟨1, _⟩ => exact dot1b_rhs_col _ _
  rw [hl, hr]

/-- The payload at (p, q). -/
theorem pay1_apply (x0 : Vec Ideal S256x4096 .f32) (x1 : Vec Ideal S4096x128 .f32) (x2 : Vec Ideal S1x128 .f32) (x3 : Vec Ideal S128x128 .f32)
    (p : Fin 256) (q : Fin 128) :
    k1_pay1 x0 x1 x2 x3 (ix2 p q)
      = ∑ k : Fin 128, max ((∑ l : Fin 4096, x0 (ix2 p l) * x1 (ix2 l k)) + x2 (ix2 0 k)) zero * x3 (ix2 k q) := by
  unfold k1_pay1
  rw [shapeCast_self, shapeCast_self]
  refine (mm1b_apply _ x3 p q).trans ?_
  refine Finset.sum_congr rfl fun k _ => ?_
  show max (FloatOps.matmul (F := Ideal) dot_S256x4096_S4096x128_S256x128_1_0_0_1_n_n none x0 x1 (constant (F := Ideal) S256x128 .f32 0x00000000#32) (ix2 p k)
      + broadcastTo S256x128 x2 broadcasts_S1x128_S256x128 (ix2 p k)) zero * x3 (ix2 k q) = _
  rw [mm1a_apply, broadcastTo_1b_ab_apply]

/-! ## From the blocks to the array -/

variable (V : (c : Dev nD) → (b : Ref sig .tc) → Buf (Elt Ideal) ((c : Thread nD τ).loc b))

theorem zeros1 : (![0, 0] : Fin 2 → Nat) = fun _ => 0 := funext fun a => by fin_cases a <;> rfl

/-- The hidden layer's array relu(A · Y1 + b1) · W2ᵀ of the four input arrays, index by index. -/
abbrev Y2of (a : S4096x4096.Idx → EReal) (y1 : S4096x128.Idx → EReal) (b : S1x128.Idx → EReal) (w : S128x128.Idx → EReal) :
    S4096x128.Idx → EReal :=
  arr (hid (mat a) (mat y1) (fun k => b (ix2 0 k)) (mat w))

/-- The index maps over the grid: the A window and the output move one row block per point, the other blocks stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The A window's block at point t is rows 256·t … 256·t + 255 of A. -/
theorem blk1_0_apply (c : Dev nD) (t : Fin cfg1.N) (x : S256x4096.Idx) (k : S4096x4096.Idx)
    (hk0 : (k 0).val = 256 * t.val + (x 0).val) (hk1 : (k 1).val = (x 1).val) :
    (blk1 V c 0 t : Vec Ideal S256x4096 .f32) x = (V c main_arg0 : S4096x4096.Idx → EReal) k := by
  obtain ⟨e0, e1, -⟩ := idx1 t
  unfold blk1
  rw [View.read_apply]
  show V c main_arg0 _ = V c main_arg0 _
  refine congrArg _ ?_
  funext a
  apply Fin.ext
  match a with
  | ⟨0, _⟩ => show win1_0.index t (0 : Fin 2) * 256 + 1 * (x 0).val = (k 0).val; rw [e0, hk0]; omega
  | ⟨1, _⟩ => show win1_0.index t (1 : Fin 2) * 4096 + 1 * (x 1).val = (k 1).val; rw [e1, hk1]; omega

/-- The Y1 window's block at every point is the whole of Y1. -/
theorem blk1_1_apply (c : Dev nD) (t : Fin cfg1.N) (x : S4096x128.Idx) :
    (blk1 V c 1 t : Vec Ideal S4096x128 .f32) x = (V c main_v2 : S4096x128.Idx → EReal) x := by
  obtain ⟨-, -, e0, e1, -⟩ := idx1 t
  unfold blk1
  rw [View.read_apply]
  show V c main_v2 _ = V c main_v2 _
  refine congrArg _ ?_
  funext a
  apply Fin.ext
  match a with
  | ⟨0, _⟩ => show win1_1.index t (0 : Fin 2) * 4096 + 1 * (x 0).val = (x 0).val; rw [e0]; omega
  | ⟨1, _⟩ => show win1_1.index t (1 : Fin 2) * 128 + 1 * (x 1).val = (x 1).val; rw [e1]; omega

/-- The bias window's block at every point is the bias row. -/
theorem blk1_2_apply (c : Dev nD) (t : Fin cfg1.N) (x : S1x128.Idx) :
    (blk1 V c 2 t : Vec Ideal S1x128 .f32) x = (V c main_arg3 : S1x128.Idx → EReal) x := by
  obtain ⟨-, -, -, -, e0, e1, -⟩ := idx1 t
  unfold blk1
  rw [View.read_apply]
  show V c main_arg3 _ = V c main_arg3 _
  refine congrArg _ ?_
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The weight window's block at every point is the whole transposed weight. -/
theorem blk1_3_apply (c : Dev nD) (t : Fin cfg1.N) (x : S128x128.Idx) :
    (blk1 V c 3 t : Vec Ideal S128x128 .f32) x = (V c main_v1 : S128x128.Idx → EReal) x := by
  obtain ⟨-, -, -, -, -, -, e0, e1, -⟩ := idx1 t
  unfold blk1
  rw [View.read_apply]
  show V c main_v1 _ = V c main_v1 _
  refine congrArg _ ?_
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- One point's payload, over a row block of A and the whole of the other three arrays, is that row block of the result. -/
theorem point1 (a : S4096x4096.Idx → EReal) (y1 : S4096x128.Idx → EReal) (b : S1x128.Idx → EReal) (w : S128x128.Idx → EReal) (t : ℕ)
    (x0 : Vec Ideal S256x4096 .f32) (x1 : Vec Ideal S4096x128 .f32) (x2 : Vec Ideal S1x128 .f32) (x3 : Vec Ideal S128x128 .f32)
    (hx0 : ∀ (x : S256x4096.Idx) (k : S4096x4096.Idx), (k 0).val = 256 * t + (x 0).val → (k 1).val = (x 1).val → x0 x = a k)
    (hx1 : ∀ x, x1 x = y1 x) (hx2 : ∀ x, x2 x = b x) (hx3 : ∀ x, x3 x = w x)
    (j : S256x128.Idx) (i : S4096x128.Idx) (hi0 : (i 0).val = 256 * t + (j 0).val) (hi1 : (i 1).val = (j 1).val) :
    k1_pay1 x0 x1 x2 x3 j = Y2of a y1 b w i := by
  obtain ⟨p, q, rfl⟩ : ∃ (p : Fin 256) (q : Fin 128), j = ix2 p q := ⟨j 0, j 1, eq_ix2 j⟩
  have hq : q = i 1 := Fin.ext hi1.symm
  rw [pay1_apply]
  show _ = ∑ k : Fin 128, max ((∑ l : Fin 4096, a (ix2 (i 0) l) * y1 (ix2 l k)) + b (ix2 0 k)) zero * w (ix2 k (i 1))
  refine Finset.sum_congr rfl fun k _ => ?_
  rw [hx2, hx3, hq]
  refine congrArg (fun s => max (s + b (ix2 0 k)) zero * w (ix2 k (i 1))) ?_
  refine Finset.sum_congr rfl fun l _ => ?_
  rw [hx0 (ix2 p l) (ix2 (i 0) l) hi0 rfl, hx1]

/-- What point t writes back is block t of the result array. -/
theorem flushed1_eq (c : Dev nD) (t : Fin cfg1.N) :
    (data1 (F := Ideal) V c).flushed 4 t
      = ((cfg1.win 4).blk t).view.read (Elt Ideal) (Y2of (V c main_arg0) (V c main_v2) (V c main_arg3) (V c main_v1)) := by
  show (cfg1.win 4).cut (grid1.coords t) ((data1 V c).after 4 t) = _
  rw [data1_after_4]
  unfold hid1
  rw [View.canon_unit_zero zeros1]
  simp only [View.ld_unit_zero (S := S256x4096) zeros1, View.ld_unit_zero (S := S4096x128) zeros1,
    View.ld_unit_zero (S := S1x128) zeros1, View.ld_unit_zero (S := S128x128) zeros1]
  obtain ⟨-, -, -, -, -, -, -, -, e0, e1⟩ := idx1 t
  funext j
  show k1_pay1 (blk1 V c 0 t) (blk1 V c 1 t) (blk1 V c 2 t) (blk1 V c 3 t) j
    = Y2of (V c main_arg0) (V c main_v2) (V c main_arg3) (V c main_v1) (((cfg1.win 4).blk t).view.emb j)
  refine point1 _ _ _ _ t.val _ _ _ _ (fun x k h0 h1 => blk1_0_apply V c t x k h0 h1) (fun x => blk1_1_apply V c t x)
    (fun x => blk1_2_apply V c t x) (fun x => blk1_3_apply V c t x) j _ ?_ ?_
  · show win1_4.index t (0 : Fin 2) * 256 + 1 * (j 0).val = _; rw [e0]; omega
  · show win1_4.index t (1 : Fin 2) * 128 + 1 * (j 1).val = _; rw [e1]; omega

/-- An index of the output array is in point t's block iff each coordinate is in the block's range on its axis. -/
theorem mem_blk1 (t : Fin cfg1.N) (i : S4096x128.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v3).slice (win1_4.rect t)).set ↔ _
  rw [View.set_slice_whole, Rect.mem_set_unit]
  exact Iff.rfl

/-- Row r of the output is in the block of point r / 256. -/
theorem cover1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 16 := rfl
  let t : Fin cfg1.N := ⟨(i 0).val / 256, by omega⟩
  obtain ⟨-, -, -, -, -, -, -, -, e0, e1⟩ := idx1 t
  have ht : t.val = (i 0).val / 256 := rfl
  refine ⟨t, flush1_4 t, ?_⟩
  rw [mem_blk1]
  intro a
  match a with
  | ⟨0, _⟩ => show win1_4.index t (0 : Fin 2) * 256 ≤ (i 0).val ∧ (i 0).val < win1_4.index t (0 : Fin 2) * 256 + 256; rw [e0, ht]; omega
  | ⟨1, _⟩ => show win1_4.index t (1 : Fin 2) * 128 ≤ (i 1).val ∧ (i 1).val < win1_4.index t (1 : Fin 2) * 128 + 128; rw [e1]; omega

/-- The output array when the region is over: relu(A · Y1 + b1) · W2ᵀ of the four input arrays. -/
theorem final1 (c : Dev nD) : (data1 (F := Ideal) V c).arrAt 4 cfg1.N
    = arr (hid (mat (V c main_arg0 : S4096x4096.Idx → EReal)) (mat (V c main_v2 : S4096x128.Idx → EReal))
        (fun k => (V c main_arg3 : S1x128.Idx → EReal) (ix2 0 k)) (mat (V c main_v1 : S128x128.Idx → EReal))) :=
  (data1 (F := Ideal) V c).arrAt_eq_of_cover 4 (Y2of (V c main_arg0) (V c main_v2) (V c main_arg3) (V c main_v1))
    (fun t _ => flushed1_eq V c t) (cover1)

end Cert.KernelIdeal.Hand

end
-- ==== Proof.KIVal2.lean ====
/-
  Region 2 at the exact (extended-real) instance: the array H2 after the region is A · Y2 + b2, entry by entry —
  each point's output block is rows 256·t … 256·t + 255 of that one matrix, and the sixteen blocks fill H2.
-/
import proofs.«170631_g2000106516245658_pallasbulk_929_4_alg».proof.Proof.KIReg2
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-- The offsets of a whole-block rectangle are all zero. -/
theorem hz2 : (![0, 0] : Fin 2 → Nat) = fun _ => 0 := funext fun a => by fin_cases a <;> rfl

/-- The contraction of the product A_blk · Y2 runs over the 4096 columns of the A block. -/
abbrev D2 : DotDims S256x4096 S4096x128 S256x128 := dot_S256x4096_S4096x128_S256x128_1_0_0_1_n_n

/-- The left factor of the product at output entry (p, q) and contraction position k is entry (p, k). -/
theorem D2_lhs (p : Fin 256) (q : Fin 128) (k : Fin 4096) :
    D2.lhsIdx (ix2 p q) ((contrEquiv1 D2 4096 rfl rfl).symm k) = ix2 p k := by
  funext a; apply Fin.ext
  match a with
  | ⟨0, _⟩ => rfl
  | ⟨1, _⟩ => exact (D2.lhsIdx_val_of_single (cl := 1) rfl (ix2 p q) _).trans (contrEquiv1_symm_val D2 4096 rfl rfl k)

/-- The right factor is entry (k, q). -/
theorem D2_rhs (p : Fin 256) (q : Fin 128) (k : Fin 4096) :
    D2.rhsIdx (ix2 p q) ((contrEquiv1 D2 4096 rfl rfl).symm k) = ix2 k q := by
  funext a; apply Fin.ext
  match a with
  | ⟨0, _⟩ => exact (D2.rhsIdx_val_of_single (cr := 0) rfl (ix2 p q) _).trans (contrEquiv1_symm_val D2 4096 rfl rfl k)
  | ⟨1, _⟩ => rfl

/-- The body's result at entry (p, q): the contraction of row p of the A block with column q of Y2, plus the bias at q. -/
theorem pay2_apply (x0 : FVec Ideal S256x4096 .f32) (x1 : FVec Ideal S4096x128 .f32) (x2 : FVec Ideal S1x128 .f32)
    (p : Fin 256) (q : Fin 128) :
    k2_pay1 x0 x1 x2 (ix2 p q) = (∑ k : Fin 4096, x0 (ix2 p k) * x1 (ix2 k q)) + x2 (ix2 (0 : Fin 1) q) := by
  unfold k2_pay1
  rw [addf_apply]
  refine congrArg₂ (· + ·) ?_ (broadcastTo_1b_ab_apply x2 broadcasts_S1x128_S256x128 p q)
  rw [shapeCast_self]
  refine (Ideal.matmul_constant_zero_apply D2 none x0 x1 (ix2 p q)).trans ?_
  refine (Equiv.sum_comp (contrEquiv1 D2 4096 rfl rfl).symm _).symm.trans ?_
  refine Finset.sum_congr rfl fun k _ => ?_
  rw [D2_lhs, D2_rhs]

variable (V : (c : Dev nD) → (b : Ref sig .tc) → Buf (Elt Ideal) ((c : Thread nD τ).loc b))

/-- The index maps over the grid: the A block and the output block of point t are row block t; the whole-array
    windows sit at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the A block at point t is row 256·t + p of A. -/
theorem blk2_0_apply (c : Dev nD) (t : Fin cfg2.N) (p : Fin 256) (k : Fin 4096) (r : Fin 4096) (hr : r.val = 256 * t.val + p.val) :
    (blk2 V c 0 t : Vec Ideal S256x4096 .f32) (ix2 p k) = (V c main_arg0 : S4096x4096.Idx → EReal) (ix2 r k) := by
  obtain ⟨e0, e1, -⟩ := idx_facts2 t
  unfold blk2
  rw [View.read_apply]
  show V c main_arg0 _ = _
  refine congrArg (V c main_arg0) ?_
  funext a; apply Fin.ext
  match a with
  | ⟨0, _⟩ => show win2_0.index t (0 : Fin 2) * 256 + 1 * p.val = r.val; omega
  | ⟨1, _⟩ => show win2_0.index t (1 : Fin 2) * 4096 + 1 * k.val = k.val; omega

/-- The Y2 window's block is the whole of Y2. -/
theorem blk2_1_apply (c : Dev nD) (t : Fin cfg2.N) (k : Fin 4096) (q q' : Fin 128) (hq : q'.val = q.val) :
    (blk2 V c 1 t : Vec Ideal S4096x128 .f32) (ix2 k q) = (V c main_v3 : S4096x128.Idx → EReal) (ix2 k q') := by
  obtain ⟨-, -, e0, e1, -⟩ := idx_facts2 t
  unfold blk2
  rw [View.read_apply]
  show V c main_v3 _ = _
  refine congrArg (V c main_v3) ?_
  funext a; apply Fin.ext
  match a with
  | ⟨0, _⟩ => show win2_1.index t (0 : Fin 2) * 4096 + 1 * k.val = k.val; omega
  | ⟨1, _⟩ => show win2_1.index t (1 : Fin 2) * 128 + 1 * q.val = q'.val; omega

/-- The bias window's block is the bias row. -/
theorem blk2_2_apply (c : Dev nD) (t : Fin cfg2.N) (q q' : Fin 128) (hq : q'.val = q.val) :
    (blk2 V c 2 t : Vec Ideal S1x128 .f32) (ix2 (0 : Fin 1) q) = (V c main_arg5 : S1x128.Idx → EReal) (ix2 (0 : Fin 1) q') := by
  obtain ⟨-, -, -, -, e0, e1, -⟩ := idx_facts2 t
  unfold blk2
  rw [View.read_apply]
  show V c main_arg5 _ = _
  refine congrArg (V c main_arg5) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 128 + 1 * q.val = q'.val; omega

/-- The payload over blocks that are rows of the arrays is the entry of A · Y2 + b2 those rows give. -/
theorem lat_at (A : S4096x4096.Idx → EReal) (Y : S4096x128.Idx → EReal) (B : S1x128.Idx → EReal)
    (x0 : FVec Ideal S256x4096 .f32) (x1 : FVec Ideal S4096x128 .f32) (x2 : FVec Ideal S1x128 .f32)
    (p : Fin 256) (q : Fin 128) (r : Fin 4096) (q' : Fin 128)
    (h0 : ∀ k, x0 (ix2 p k) = A (ix2 r k)) (h1 : ∀ k, x1 (ix2 k q) = Y (ix2 k q')) (h2 : x2 (ix2 (0 : Fin 1) q) = B (ix2 (0 : Fin 1) q')) :
    k2_pay1 (F := Ideal) x0 x1 x2 (ix2 p q) = lat (mat A) (mat Y) (fun k => B (ix2 (0 : Fin 1) k)) r q' := by
  rw [pay2_apply, h2]
  show _ = (∑ k : Fin 4096, A (ix2 r k) * Y (ix2 k q')) + B (ix2 (0 : Fin 1) q')
  refine congrArg (· + B (ix2 (0 : Fin 1) q')) ?_
  exact Finset.sum_congr rfl fun k _ => by rw [h0 k, h1 k]

/-- H2 as one function of the region's input arrays. -/
abbrev G2 (c : Dev nD) : S4096x128.Idx → EReal :=
  arr (lat (mat (V c main_arg0 : S4096x4096.Idx → EReal)) (mat (V c main_v3 : S4096x128.Idx → EReal))
    (fun k => (V c main_arg5 : S1x128.Idx → EReal) (ix2 (0 : Fin 1) k)))

/-- What point t writes back is block t of H2. -/
theorem flushed2_eq (c : Dev nD) (t : Fin cfg2.N) :
    (data2 V c).flushed 3 t = ((cfg2.win 3).blk t).view.read (Elt Ideal) (G2 V c) := by
  show (cfg2.win 3).cut (grid2.coords t) ((data2 V c).after 3 t) = _
  rw [data2_after_3]
  unfold lat2
  rw [View.canon_unit_zero hz2]
  simp only [View.ld_unit_zero (S := S256x4096) hz2, View.ld_unit_zero (S := S4096x128) hz2, View.ld_unit_zero (S := S1x128) hz2]
  obtain ⟨-, -, -, -, -, -, e0, e1⟩ := idx_facts2 t
  funext j
  obtain ⟨p, q, rfl⟩ : ∃ (p : Fin 256) (q : Fin 128), j = ix2 p q := ⟨j 0, j 1, eq_ix2 j⟩
  have hp : p.val < 256 := p.isLt
  have hr : (((cfg2.win 3).blk t).view.emb (ix2 p q) 0 : Fin 4096).val = 256 * t.val + p.val := by
    show win2_3.index t (0 : Fin 2) * 256 + 1 * p.val = _; omega
  have hq : (((cfg2.win 3).blk t).view.emb (ix2 p q) 1 : Fin 128).val = q.val := by
    show win2_3.index t (1 : Fin 2) * 128 + 1 * q.val = _; omega
  exact lat_at _ _ _ _ _ _ p q _ _ (fun k => blk2_0_apply V c t p k _ hr) (fun k => blk2_1_apply V c t k q _ hq) (blk2_2_apply V c t q _ hq)

/-- An index of H2 is in point t's block iff each coordinate is in the block's range on its axis. -/
theorem mem_blk2 (t : Fin cfg2.N) (i : S4096x128.Idx) :
    i ∈ ((cfg2.win 3).blk t).view.set ↔ ∀ a : Fin 2, win2_3.index t a * S256x128.size a ≤ (i a).val ∧ (i a).val < win2_3.index t a * S256x128.size a + S256x128.size a := by
  show i ∈ ((View.whole main_v4).slice (win2_3.rect t)).set ↔ _
  rw [View.set_slice_whole, Rect.mem_set_unit]
  exact Iff.rfl

/-- Row r of H2 is in the block of point r / 256. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  obtain ⟨t, ht⟩ : ∃ t : Fin cfg2.N, t.val = (i 0).val / 256 :=
    ⟨⟨(i 0).val / 256, by rw [show cfg2.N = 16 from N_2]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 128 ≤ (i 1).val ∧ (i 1).val < win2_3.index t (1 : Fin 2) * 128 + 128; omega

/-- H2 after the region: A · Y2 + b2 of the region's input arrays. -/
theorem final2 (c : Dev nD) : (data2 (F := Ideal) V c).arrAt 3 cfg2.N = arr (lat (mat (V c main_arg0 : S4096x4096.Idx → EReal)) (mat (V c main_v3 : S4096x128.Idx → EReal)) (fun k => (V c main_arg5 : S1x128.Idx → EReal) (ix2 0 k))) :=
  (data2 V c).arrAt_eq_of_cover 3 (G2 V c) (fun t _ => flushed2_eq V c t) cover2

end Cert.KernelIdeal.Hand

end
-- ==== Proof.KIVal3.lean ====
/-
  Region 3 at the exact (extended-real) instance: the reconstruction after the region is ½ · tanh(½ · H2 · H2ᵀ) + ½,
  entry by entry — each point's output block is rows 256·t … 256·t + 255 of that one matrix (row p of the block against
  every row of H2), and the sixteen blocks fill the array.
-/
import proofs.«170631_g2000106516245658_pallasbulk_929_4_alg».proof.Proof.KIReg3
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-- The offsets of a whole-block rectangle are all zero. -/
theorem hz3 : (![0, 0] : Fin 2 → Nat) = fun _ => 0 := funext fun a => by fin_cases a <;> rfl

/-- The contraction of the product H2_blk · H2ᵀ runs over the 128 columns of both factors. -/
abbrev D3 : DotDims S256x128 S4096x128 S256x4096 := dot_S256x128_S4096x128_S256x4096_1_1_0_0_n_n

/-- The left factor of the product at output entry (p, s) and contraction position k is entry (p, k). -/
theorem D3_lhs (p : Fin 256) (s : Fin 4096) (k : Fin 128) :
    D3.lhsIdx (ix2 p s) ((contrEquiv1 D3 128 rfl rfl).symm k) = ix2 p k := by
  funext a; apply Fin.ext
  match a with
  | ⟨0, _⟩ => rfl
  | ⟨1, _⟩ => exact (D3.lhsIdx_val_of_single (cl := 1) rfl (ix2 p s) _).trans (contrEquiv1_symm_val D3 128 rfl rfl k)

/-- The right factor is entry (s, k): the second operand enters transposed. -/
theorem D3_rhs (p : Fin 256) (s : Fin 4096) (k : Fin 128) :
    D3.rhsIdx (ix2 p s) ((contrEquiv1 D3 128 rfl rfl).symm k) = ix2 s k := by
  funext a; apply Fin.ext
  match a with
  | ⟨0, _⟩ => rfl
  | ⟨1, _⟩ => exact (D3.rhsIdx_val_of_single (cr := 1) rfl (ix2 p s) _).trans (contrEquiv1_symm_val D3 128 rfl rfl k)

/-- The body's result at entry (p, s): the logistic function of the contraction of row p of the H2 block with row s of H2. -/
theorem pay3_apply (x0 : FVec Ideal S256x128 .f32) (x1 : FVec Ideal S4096x128 .f32) (p : Fin 256) (s : Fin 4096) :
    k3_pay1 (F := Ideal) x0 x1 (ix2 p s) = Spec.logistic (∑ k : Fin 128, x0 (ix2 p k) * x1 (ix2 s k)) := by
  unfold k3_pay1 Spec.logistic
  show half * Ideal.tanh (half * FloatOps.matmul D3 none (shapeCast S256x128 x0 shapeCasts_S256x128_S256x128)
    (shapeCast S4096x128 x1 shapeCasts_S4096x128_S4096x128) (constant S256x4096 .f32 0x00000000#32) (ix2 p s)) + half = _
  rw [shapeCast_self, shapeCast_self]
  refine congrArg (fun z => half * Ideal.tanh (half * z) + half) ?_
  refine (Ideal.matmul_constant_zero_apply D3 none x0 x1 (ix2 p s)).trans ?_
  refine (Equiv.sum_comp (contrEquiv1 D3 128 rfl rfl).symm _).symm.trans ?_
  refine Finset.sum_congr rfl fun k _ => ?_
  rw [D3_lhs, D3_rhs]

variable (V : (c : Dev nD) → (b : Ref sig .tc) → Buf (Elt Ideal) ((c : Thread nD τ).loc b))

/-- The index maps over the grid: the H2 row block and the output block of point t are row block t; the whole-array
    window sits at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the H2 block at point t is row 256·t + p of H2. -/
theorem blk3_0_apply (c : Dev nD) (t : Fin cfg3.N) (p : Fin 256) (k : Fin 128) (r : Fin 4096) (hr : r.val = 256 * t.val + p.val) :
    (blk3 V c 0 t : Vec Ideal S256x128 .f32) (ix2 p k) = (V c main_v4 : S4096x128.Idx → EReal) (ix2 r k) := by
  obtain ⟨e0, e1, -⟩ := idx_facts3 t
  unfold blk3
  rw [View.read_apply]
  show V c main_v4 _ = _
  refine congrArg (V c main_v4) ?_
  funext a; apply Fin.ext
  match a with
  | ⟨0, _⟩ => show win3_0.index t (0 : Fin 2) * 256 + 1 * p.val = r.val; omega
  | ⟨1, _⟩ => show win3_0.index t (1 : Fin 2) * 128 + 1 * k.val = k.val; omega

/-- The whole-array window's block is the whole of H2. -/
theorem blk3_1_apply (c : Dev nD) (t : Fin cfg3.N) (s : Fin 4096) (k : Fin 128) (s' : Fin 4096) (hs : s'.val = s.val) :
    (blk3 V c 1 t : Vec Ideal S4096x128 .f32) (ix2 s k) = (V c main_v4 : S4096x128.Idx → EReal) (ix2 s' k) := by
  obtain ⟨-, -, e0, e1, -⟩ := idx_facts3 t
  unfold blk3
  rw [View.read_apply]
  show V c main_v4 _ = _
  refine congrArg (V c main_v4) ?_
  funext a; apply Fin.ext
  match a with
  | ⟨0, _⟩ => show win3_1.index t (0 : Fin 2) * 4096 + 1 * s.val = s'.val; omega
  | ⟨1, _⟩ => show win3_1.index t (1 : Fin 2) * 128 + 1 * k.val = k.val; omega

/-- The payload over blocks that are rows of H2 is the entry of the reconstruction those rows give. -/
theorem dec_at (H : S4096x128.Idx → EReal) (x0 : FVec Ideal S256x128 .f32) (x1 : FVec Ideal S4096x128 .f32)
    (p : Fin 256) (s : Fin 4096) (r s' : Fin 4096)
    (h0 : ∀ k, x0 (ix2 p k) = H (ix2 r k)) (h1 : ∀ k, x1 (ix2 s k) = H (ix2 s' k)) :
    k3_pay1 (F := Ideal) x0 x1 (ix2 p s) = dec (mat H) r s' := by
  rw [pay3_apply]
  show Spec.logistic _ = Spec.logistic (∑ k : Fin 128, H (ix2 r k) * H (ix2 s' k))
  exact congrArg Spec.logistic (Finset.sum_congr rfl fun k _ => by rw [h0 k, h1 k])

/-- The reconstruction as one function of H2 as the region finds it. -/
abbrev G3 (c : Dev nD) : S4096x4096.Idx → EReal := arr (dec (mat (V c main_v4 : S4096x128.Idx → EReal)))

/-- What point t writes back is block t of the reconstruction. -/
theorem flushed3_eq (c : Dev nD) (t : Fin cfg3.N) :
    (data3 V c).flushed 2 t = ((cfg3.win 2).blk t).view.read (Elt Ideal) (G3 V c) := by
  show (cfg3.win 2).cut (grid3.coords t) ((data3 V c).after 2 t) = _
  rw [data3_after_2]
  unfold dec3
  rw [View.canon_unit_zero hz3]
  simp only [View.ld_unit_zero (S := S256x128) hz3, View.ld_unit_zero (S := S4096x128) hz3]
  obtain ⟨-, -, -, -, e0, e1⟩ := idx_facts3 t
  funext j
  obtain ⟨p, s, rfl⟩ : ∃ (p : Fin 256) (s : Fin 4096), j = ix2 p s := ⟨j 0, j 1, eq_ix2 j⟩
  have hp : p.val < 256 := p.isLt
  have hr : (((cfg3.win 2).blk t).view.emb (ix2 p s) 0 : Fin 4096).val = 256 * t.val + p.val := by
    show win3_2.index t (0 : Fin 2) * 256 + 1 * p.val = _; omega
  have hs : (((cfg3.win 2).blk t).view.emb (ix2 p s) 1 : Fin 4096).val = s.val := by
    show win3_2.index t (1 : Fin 2) * 4096 + 1 * s.val = _; omega
  exact dec_at _ _ _ p s _ _ (fun k => blk3_0_apply V c t p k _ hr) (fun k => blk3_1_apply V c t s k _ hs)

/-- An index of the reconstruction is in point t's block iff each coordinate is in the block's range on its axis. -/
theorem mem_blk3 (t : Fin cfg3.N) (i : S4096x4096.Idx) :
    i ∈ ((cfg3.win 2).blk t).view.set ↔ ∀ a : Fin 2, win3_2.index t a * S256x4096.size a ≤ (i a).val ∧ (i a).val < win3_2.index t a * S256x4096.size a + S256x4096.size a := by
  show i ∈ ((View.whole main_v5).slice (win3_2.rect t)).set ↔ _
  rw [View.set_slice_whole, Rect.mem_set_unit]
  exact Iff.rfl

/-- Row r of the reconstruction is in the block of point r / 256. -/
theorem cover3 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ : ∃ t : Fin cfg3.N, t.val = (i 0).val / 256 :=
    ⟨⟨(i 0).val / 256, by rw [show cfg3.N = 16 from N_3]; omega⟩, rfl⟩
  obtain ⟨-, -, -, -, e0, e1⟩ := idx_facts3 t
  refine ⟨t, flush3_2 t, ?_⟩
  rw [mem_blk3]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 4096 ≤ (i 1).val ∧ (i 1).val < win3_2.index t (1 : Fin 2) * 4096 + 4096; omega

/-- The reconstruction after the region: ½ · tanh(½ · H2 · H2ᵀ) + ½ of H2 as the region finds it. -/
theorem final3 (c : Dev nD) : (data3 (F := Ideal) V c).arrAt 2 cfg3.N = arr (dec (mat (V c main_v4 : S4096x128.Idx → EReal))) :=
  (data3 V c).arrAt_eq_of_cover 2 (G3 V c) (fun t _ => flushed3_eq V c t) cover3

end Cert.KernelIdeal.Hand

end
-- ==== Proof.Whole.lean ====
/-
  The two results as functions of the six argument arrays, composed from the layers of the specification: the
  latent  H2 = A · (relu(A · (H0 · W1ᵀ) + b1) · W2ᵀ) + b2  and the reconstruction  ½ · tanh(½ · H2 · H2ᵀ) + ½.
  Also the two small facts that let a program's intermediate arrays be read as the specification's matrices: a
  matrix written out as an array and read back is itself, and the host's transpose of an array is the transposed matrix.
-/
import proofs.«170631_g2000106516245658_pallasbulk_929_4_alg».proof.Proof.Spec
import Idealize.ShloMosaic.Lib.ValueLayout

noncomputable section

namespace Cert.Spec

open Idealize.ShloMosaic Idealize.ShloMosaic.ValueIdx

/-- The transposed matrix. -/
def trp {a b : Nat} (x : Fin a → Fin b → EReal) : Fin b → Fin a → EReal := fun j i => x i j

theorem mat_arr {a b : Nat} (f : Fin a → Fin b → EReal) : mat (arr f) = f := rfl

theorem mat_transpose {a b : Nat} (x : (⟨2, ![a, b]⟩ : Shape).Idx → EReal)
    (h : (⟨2, ![a, b]⟩ : Shape).Transposes [1, 0] ⟨2, ![b, a]⟩) :
    mat (transpose ⟨2, ![b, a]⟩ [1, 0] x h) = trp (mat x) := by
  funext j i; exact transpose_ix2_apply x h j i

/-- The latent representation from the six arguments (the weights as given, rows = output features). -/
def latent (A : Fin 4096 → Fin 4096 → EReal) (H0 : Fin 4096 → Fin 256 → EReal) (W1 : Fin 128 → Fin 256 → EReal)
    (b1 : Fin 128 → EReal) (W2 : Fin 128 → Fin 128 → EReal) (b2 : Fin 128 → EReal) : Fin 4096 → Fin 128 → EReal :=
  lat A (hid A (feat H0 (trp W1)) b1 (trp W2)) b2

/-- The reconstruction from the six arguments. -/
def recon (A : Fin 4096 → Fin 4096 → EReal) (H0 : Fin 4096 → Fin 256 → EReal) (W1 : Fin 128 → Fin 256 → EReal)
    (b1 : Fin 128 → EReal) (W2 : Fin 128 → Fin 128 → EReal) (b2 : Fin 128 → EReal) : Fin 4096 → Fin 4096 → EReal :=
  dec (latent A H0 W1 b1 W2 b2)

end Cert.Spec

end
-- ==== Proof.KIFin.lean ====
/-
  The values of the whole run at the ideal instance: the latent's buffer ends at the specification's latent of the
  six argument arrays and the reconstruction's at the specification's reconstruction. Each region's output array is the
  layer's function of its input arrays (the regions' value theorems); each input array is an argument's launch
  contents, a host transpose of one, or the output array of the region before; composing the four layers gives the
  two results as functions of the arguments alone.
-/
import proofs.«170631_g2000106516245658_pallasbulk_929_4_alg».proof.Proof.KIOut
import proofs.«170631_g2000106516245658_pallasbulk_929_4_alg».proof.Proof.KISeg3
import proofs.«170631_g2000106516245658_pallasbulk_929_4_alg».proof.Proof.KIVal0
import proofs.«170631_g2000106516245658_pallasbulk_929_4_alg».proof.Proof.KIVal1
import proofs.«170631_g2000106516245658_pallasbulk_929_4_alg».proof.Proof.KIVal2
import proofs.«170631_g2000106516245658_pallasbulk_929_4_alg».proof.Proof.KIVal3
import proofs.«170631_g2000106516245658_pallasbulk_929_4_alg».proof.Proof.Whole

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-- The six arguments' launch contents on core `c`, as the specification's matrices and rows. -/
abbrev inA (c : Dev nD) : Fin 4096 → Fin 4096 → EReal := mat (m ((c.tc : Thread nD τ).loc main_arg0) : S4096x4096.Idx → EReal)
abbrev inH0 (c : Dev nD) : Fin 4096 → Fin 256 → EReal := mat (m ((c.tc : Thread nD τ).loc main_arg1) : S4096x256.Idx → EReal)
abbrev inW1 (c : Dev nD) : Fin 128 → Fin 256 → EReal := mat (m ((c.tc : Thread nD τ).loc main_arg2) : S128x256.Idx → EReal)
abbrev inB1 (c : Dev nD) : Fin 128 → EReal := fun k => (m ((c.tc : Thread nD τ).loc main_arg3) : S1x128.Idx → EReal) (ix2 0 k)
abbrev inW2 (c : Dev nD) : Fin 128 → Fin 128 → EReal := mat (m ((c.tc : Thread nD τ).loc main_arg4) : S128x128.Idx → EReal)
abbrev inB2 (c : Dev nD) : Fin 128 → EReal := fun k => (m ((c.tc : Thread nD τ).loc main_arg5) : S1x128.Idx → EReal) (ix2 0 k)

/-- Region 0's output array, as region 1 finds it: Y1 of the arguments. -/
theorem y1_eq (c : Dev nD) : (E2 m ρ c main_v2 : S4096x128.Idx → EReal) = arr (feat (inH0 m c) (trp (inW1 m c))) := by
  have e1 : (E1 m ρ c main_arg1 : S4096x256.Idx → EReal) = (m ((c.tc : Thread nD τ).loc main_arg1) : S4096x256.Idx → EReal) := E1_arg1 m ρ c
  have e0 : mat (E1 m ρ c main_v0 : S256x128.Idx → EReal) = trp (inW1 m c) := by
    rw [E1_v0 m ρ c]; exact mat_transpose _ _
  refine (E2_v2 m ρ c).trans ((final0 (E1 m ρ) c).trans ?_)
  rw [e1, e0]

/-- Region 1's output array, as region 2 finds it: Y2 of the arguments. -/
theorem y2_eq (c : Dev nD) : (E3 m ρ c main_v3 : S4096x128.Idx → EReal)
    = arr (hid (inA m c) (feat (inH0 m c) (trp (inW1 m c))) (inB1 m c) (trp (inW2 m c))) := by
  have e0 : (E2 m ρ c main_arg0 : S4096x4096.Idx → EReal) = (m ((c.tc : Thread nD τ).loc main_arg0) : S4096x4096.Idx → EReal) := E2_arg0 m ρ c
  have e3 : (E2 m ρ c main_arg3 : S1x128.Idx → EReal) = (m ((c.tc : Thread nD τ).loc main_arg3) : S1x128.Idx → EReal) := E2_arg3 m ρ c
  have e1 : mat (E2 m ρ c main_v1 : S128x128.Idx → EReal) = trp (inW2 m c) := by
    rw [E2_v1 m ρ c, E1_v1 m ρ c]; exact mat_transpose _ _
  refine (E3_v3 m ρ c).trans ((final1 (E2 m ρ) c).trans ?_)
  rw [e0, e3, e1, y1_eq m ρ c, mat_arr]

/-- Region 2's output array at the end is the latent of the arguments. -/
theorem latent_eq (c : Dev nD) :
    (data2 (F := Ideal) (E3 m ρ) c).arrAt 3 cfg2.N
      = arr (latent (inA m c) (inH0 m c) (inW1 m c) (inB1 m c) (inW2 m c) (inB2 m c)) := by
  have e0 : (E3 m ρ c main_arg0 : S4096x4096.Idx → EReal) = (m ((c.tc : Thread nD τ).loc main_arg0) : S4096x4096.Idx → EReal) := E3_arg0 m ρ c
  have e5 : (E3 m ρ c main_arg5 : S1x128.Idx → EReal) = (m ((c.tc : Thread nD τ).loc main_arg5) : S1x128.Idx → EReal) := E3_arg5 m ρ c
  refine (final2 (E3 m ρ) c).trans ?_
  rw [e0, e5, y2_eq m ρ c, mat_arr]
  rfl

/-- Region 3's output array at the end is the reconstruction of the arguments. -/
theorem recon_eq (c : Dev nD) :
    (data3 (F := Ideal) (E4 m ρ) c).arrAt 2 cfg3.N
      = arr (recon (inA m c) (inH0 m c) (inW1 m c) (inB1 m c) (inW2 m c) (inB2 m c)) := by
  have e4 : (E4 m ρ c main_v4 : S4096x128.Idx → EReal)
      = arr (latent (inA m c) (inH0 m c) (inW1 m c) (inB1 m c) (inW2 m c) (inB2 m c)) := (E4_v4 m ρ c).trans (latent_eq m ρ c)
  refine (final3 (E4 m ρ) c).trans ?_
  rw [e4, mat_arr]
  rfl

/-- The run at the ideal instance, with both results as the specification's functions of the arguments. -/
theorem run_values :
    θ_run defs (onTc (τ := τ) (main (F := Ideal))) ⟨m, fun _ => 0, ρ⟩ (fun r => ∀ c : Dev nD,
      r.2.mem ((c.tc : Thread nD τ).loc main_v5) = arr (recon (inA m c) (inH0 m c) (inW1 m c) (inB1 m c) (inW2 m c) (inB2 m c))
      ∧ r.2.mem ((c.tc : Thread nD τ).loc main_v4) = arr (latent (inA m c) (inH0 m c) (inW1 m c) (inB1 m c) (inW2 m c) (inB2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (recon_eq m ρ c), (h c).2.1.trans (latent_eq m ρ c), (h c).2.2⟩)
    (run_named m ρ (reg3 m ρ) (fun _ => .rfl) (fun _ => .rfl))

end Cert.KernelIdeal.Hand

end
-- ==== Proof.RIReg0.lean ====
/-
  Region 0 of the reference program: the feature projection  Y1 = H0 · W1ᵀ, one block of 512 rows per grid point
  (eight points). The body loads its row block of H0 (512×256) and the whole transposed weight (256×128), multiplies
  them into a zero accumulator and stores the 512×128 product over its output block. Stated at the entry contents `V`
  of the core's buffers and at any float instance `F`.
-/
import proofs.«170631_g2000106516245658_pallasbulk_929_4_alg».proof.Proof.Gen.ReferenceIdeal.Launch
import proofs.«170631_g2000106516245658_pallasbulk_929_4_alg».proof.Proof.Gen.ReferenceIdeal.Skeleton
import proofs.«170631_g2000106516245658_pallasbulk_929_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The H0 window's staging buffer holds the point's row block, whether or not it was fetched at this point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's staging buffer holds the whole transposed weight at every point (its block never moves). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole rectangles the body loads and stores through. -/
abbrev whole0_512x256 : Rect S512x256 := Rect.unit (s := S512x256) ![0, 0] S512x256.size inb_S512x256_S512x256_0_0
abbrev whole0_256x128 : Rect S256x128 := Rect.unit (s := S256x128) ![0, 0] S256x128.size inb_S256x128_S256x128_0_0
abbrev whole0_512x128 : Rect S512x128 := Rect.unit (s := S512x128) ![0, 0] S512x128.size inb_S512x128_S512x128_0_0

/-- What the body leaves in the output block: its one store, of the product of the two loaded blocks. -/
def prod0 (x0 : Vec F S512x256 .f32) (x1 : Vec F S256x128 .f32) : Vec F S512x128 .f32 :=
  View.canon [⟨whole0_512x128, k0_pay1 (View.ld x0 whole0_512x256) (View.ld x1 whole0_256x128)⟩]

/-- The one store covers the output block. -/
theorem prod0_cover (p0 : Vec F S512x128 .f32) (y : S512x128.Idx) :
    ∃ pc ∈ ([⟨whole0_512x128, p0⟩] : List (View.Piece (Elt F) S512x128 .f32)), y ∈ pc.1.set :=
  View.cover_of_tiled [⟨whole0_512x128, p0⟩] S512x128.size (by rfl) y

set_option maxHeartbeats 1000000 in
/-- The body on whole staging memrefs: the inputs are read and kept, the output ends at `prod0` of the inputs. -/
theorem body0_triple (c : Dev nD) (E : Set ℕ) (i : grid0.Coords) (arg1 : Memref sig .tc .vmem S512x256 .f32) (harg1 : arg1.IsWhole) (arg2 : Memref sig .tc .vmem S256x128 .f32) (harg2 : arg2.IsWhole) (arg3 : Memref sig .tc .vmem S512x128 .f32) (harg3 : arg3.IsWhole)
    (x0 : Vec F S512x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__feat_kernel i arg1 harg1 arg2 harg2 arg3 harg3) K := by
  simp only [cc0__feat_kernel_eq_skeleton]; unfold cc0__feat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The proof data of the region on core `c`: the arrays as the region finds them; after the body each input's buffer still at its block and the output's at the product of the input blocks; the invariant is the rest of the scoped buffers and the generator register, untouched; nothing owed; full shares. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = prod0 (blk0 V c 0 t) (blk0 V c 1 t) := by dsimp only [data0]

theorem data0_before_0 (c : Dev nD) (t : Fin cfg0.N) (d) : (data0 V c).before 0 t d = blk0 V c 0 t :=
  held0_0_of V (data0 V c) (data0_A V c 0) (data0_after_0 V c) t d
theorem data0_before_1 (c : Dev nD) (t : Fin cfg0.N) (d) : (data0 V c).before 1 t d = blk0 V c 1 t :=
  held0_1_of V (data0 V c) (data0_A V c 1) (data0_after_1 V c) t d

/-- What the body is called with at point `t`, -/
def body0_pre (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def body0_post (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0_sound (c : Dev nD) (t : Fin cfg0.N) :
    body0_pre V c t ⊢ wp frame (wpE (defs₀ (F := F)) Variants.none c none) Set.univ (bodyAt0 t) (fun _ => body0_post V c t) := by
  unfold body0_pre body0_post bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation0 (c : Dev nD) : BodyObligation (data0 (F := F) V c) (defs₀ (F := F)) Variants.none () Set.univ := fun t => by
  rw [bigSep_W0, bigSep_W0]
  exact body0_sound V c t

end Cert.ReferenceIdeal.Hand

end
-- ==== Proof.RIReg1.lean ====
/-
  Region 1 of the program (the second pallas_call): the first aggregation with its epilogue,
  OUT = max(A · Y1 + b1, 0) · W2ᵀ, the product A · Y1 accumulated over the four column blocks of A in a scratch
  buffer. Grid (8, 4), point (i, k): the body sees the 512×1024 block (i, k) of A, the 1024×128 block k of Y1, the
  bias row b1, the 128×128 transposed weight, the 512×128 output block i (written back after k = 3), and a 512×128
  scratch that is no window's buffer and is carried from point to point. If k = 0 the scratch is zeroed; then the
  product of the two input blocks (into a zero accumulator) is added to it; if k = 3 the output block is stored:
  the scratch plus the bias row, its maximum with zero, times the weight (into a zero accumulator). Stated at a
  parameter `V`, the contents of the core's buffers when the region is entered, and at any float instance `F`:
  the three cases of the body as triples over arbitrary incoming scratch contents, the scratch's running value
  `sacc1` by recursion on the point, the invariant that carries it, the proof data, the body obligation, and the
  invariant at the region's two ends.
-/
import proofs.«170631_g2000106516245658_pallasbulk_929_4_alg».proof.Proof.Gen.ReferenceIdeal.Launch
import proofs.«170631_g2000106516245658_pallasbulk_929_4_alg».proof.Proof.Gen.ReferenceIdeal.Skeleton
import proofs.«170631_g2000106516245658_pallasbulk_929_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the body's first conditional (the reset of the scratch), from the grid coordinates. -/
abbrev cond1_0 (i : grid1.Coords) : Prop := (Scalar.cmpi .ne (Scalar.extui (Scalar.cmpi .eq (BitVec.ofNat 32 (i 1).val) 0#32)) 0#32) = 1#1
/-- The condition of its second conditional (the epilogue that stores the output), as the kernel computes it. -/
abbrev cond1_1 (i : grid1.Coords) : Prop := k1_cond2 i = 1#1
/-- The reset is taken exactly at the first point of each row of four: the inner coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The epilogue is taken exactly at the last point of each row of four: the inner coordinate is 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- the output window is idle off the epilogue's points (the body stores nothing into it there), and not written back there; -/
theorem idle1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- it is live at the epilogue's points. -/
theorem live1_4 : ∀ t : Fin cfg1.N, cond1_1 (grid1.coords t) → cfg1.idle 4 (grid1.coords t) = false := by decide +kernel

theorem hz1 : (![0, 0] : Fin 2 → Nat) = fun _ => 0 := funext fun a => by fin_cases a <;> rfl

/-! ## The values -/

/-- The zero block the reset stores into the scratch. -/
def zero1 : Vec F S512x128 .f32 := k1_pay1
/-- One accumulation step: the scratch plus the product of the two input blocks (into a zero accumulator). -/
def step1 (x0 : Vec F S512x1024 .f32) (x1 : Vec F S1024x128 .f32) (a : Vec F S512x128 .f32) : Vec F S512x128 .f32 := k1_pay2 x0 x1 a
/-- The epilogue: the bias row added to every row of the accumulated scratch, the maximum with zero, times the
    second weight (into a zero accumulator). -/
def fin1 (a : Vec F S512x128 .f32) (b : Vec F S1x128 .f32) (w : Vec F S128x128 .f32) : Vec F S512x128 .f32 := k1_pay3 a b w

/-- One whole-block store covers the block. -/
theorem cover1 (p0 : Vec F S512x128 .f32) (L : List (View.Piece (Elt F) S512x128 .f32)) (y : S512x128.Idx) :
    ∃ pc ∈ ((⟨Rect.unit (s := S512x128) ![0, 0] S512x128.size inb_S512x128_S512x128_0_0, p0⟩ : View.Piece (Elt F) S512x128 .f32) :: L), y ∈ pc.1.set :=
  ⟨_, List.mem_cons_self, View.mem_set_unit_zero hz1 inb_S512x128_S512x128_0_0 y⟩

/-! ## The body, case by case, on whole memrefs -/

set_option maxHeartbeats 1000000 in
/-- A middle point (no reset, no epilogue): the scratch ends one step from its incoming contents; the bias, the weight
    and the output block are not touched. -/
theorem body1_B (c : Dev nD) (E : Set ℕ) (i : grid1.Coords) (hc0 : ¬cond1_0 i) (hc1 : ¬cond1_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S128x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x1024 .f32) (x1 : Vec F S1024x128 .f32) (xs : Vec F S512x128 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (step1 x0 x1 xs)) -∗ K ⟨⟩))
      ⊢ wp frame (wpE (defs₀ (F := F)) Variants.none c none) E (cc1__kernel_body i arg2 harg2 arg3 harg3 arg4 harg4 arg5 harg5 arg6 harg6 arg7 harg7) K := by
  simp only [cc1__kernel_body_eq_skeleton]; unfold cc1__kernel_body_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover1 _ _), View.canon_cons_unit_zero (S := S512x128) hz1]
  simp only [View.readAt_eq_ld, View.ld_unit_zero (S := S512x1024) hz1, View.ld_unit_zero (S := S1024x128) hz1, View.ld_unit_zero (S := S512x128) hz1, View.ld_unit_zero (S := S1x128) hz1, View.ld_unit_zero (S := S128x128) hz1]
  rfl

set_option maxHeartbeats 1000000 in
/-- The first point of a row (reset, no epilogue): the scratch is zeroed, read back, and ends one step from zero,
    whatever it held. -/
theorem body1_A (c : Dev nD) (E : Set ℕ) (i : grid1.Coords) (hc0 : cond1_0 i) (hc1 : ¬cond1_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S128x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x1024 .f32) (x1 : Vec F S1024x128 .f32) (xs : Vec F S512x128 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (step1 x0 x1 zero1)) -∗ K ⟨⟩))
      ⊢ wp frame (wpE (defs₀ (F := F)) Variants.none c none) E (cc1__kernel_body i arg2 harg2 arg3 harg3 arg4 harg4 arg5 harg5 arg6 harg6 arg7 harg7) K := by
  simp only [cc1__kernel_body_eq_skeleton]; unfold cc1__kernel_body_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover1 _ _)]
  sl_unfold_words
  rw [View.canon_cons_unit_zero (S := S512x128) hz1, View.readCov_unit_zero (S := S512x128) _ hz1]
  simp only [View.readAt_eq_ld, View.ld_unit_zero (S := S512x1024) hz1, View.ld_unit_zero (S := S1024x128) hz1, View.ld_unit_zero (S := S512x128) hz1, View.ld_unit_zero (S := S1x128) hz1, View.ld_unit_zero (S := S128x128) hz1]
  rfl

set_option maxHeartbeats 1000000 in
/-- The last point of a row (no reset, the epilogue): the scratch ends one step from its incoming contents; it is read
    back, and the output block ends at the epilogue of it, whatever the output block held. -/
theorem body1_C (c : Dev nD) (E : Set ℕ) (i : grid1.Coords) (hc0 : ¬cond1_0 i) (hc1 : cond1_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S128x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x1024 .f32) (x1 : Vec F S1024x128 .f32) (x2 : Vec F S1x128 .f32) (x3 : Vec F S128x128 .f32)
    (xo : Vec F S512x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (fin1 (step1 x0 x1 xs) x2 x3)
            ∗ owns (c : Thread nD τ) arg7 fullShare (step1 x0 x1 xs)) -∗ K ⟨⟩))
      ⊢ wp frame (wpE (defs₀ (F := F)) Variants.none c none) E (cc1__kernel_body i arg2 harg2 arg3 harg3 arg4 harg4 arg5 harg5 arg6 harg6 arg7 harg7) K := by
  simp only [cc1__kernel_body_eq_skeleton]; unfold cc1__kernel_body_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0 hf1 hf2 hf3 hfo hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    rw [View.read_writes_eq_canon _ _ _ (cover1 _ _)]
    sl_unfold_words
    rw [View.canon_cons_unit_zero (S := S512x128) hz1, View.readCov_unit_zero (S := S512x128) _ hz1]
    simp only [View.readAt_eq_ld, View.ld_unit_zero (S := S512x1024) hz1, View.ld_unit_zero (S := S1024x128) hz1, View.ld_unit_zero (S := S512x128) hz1, View.ld_unit_zero (S := S1x128) hz1, View.ld_unit_zero (S := S128x128) hz1]
    rfl
  iexists _; isplitr
  swap; · iexact HS
  ipureintro
  sl_unfold_words
  rw [View.read_writes_eq_canon _ _ _ (cover1 _ _), View.canon_cons_unit_zero (S := S512x128) hz1]
  simp only [View.readAt_eq_ld, View.ld_unit_zero (S := S512x1024) hz1, View.ld_unit_zero (S := S1024x128) hz1, View.ld_unit_zero (S := S512x128) hz1, View.ld_unit_zero (S := S1x128) hz1, View.ld_unit_zero (S := S128x128) hz1]
  rfl

/-! ## What the windows hold -/

variable (V : (c : Dev nD) → (b : Ref sig .tc) → Buf (Elt F) ((c : Thread nD τ).loc b))

/-- The block of window `w`'s array that grid point `t` sees, read off the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block, whether or not it was fetched at this point. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- THE ACCUMULATION. What the scratch holds after the body at position `n`: at the first point of a row of four the
    step over the zero block; at a later point the step over what the point before left. -/
def sacc1 (c : Dev nD) : (n : ℕ) → n < cfg1.N → Vec F S512x128 .f32
  | 0, hn => step1 (blk1 V c 0 ⟨0, hn⟩) (blk1 V c 1 ⟨0, hn⟩) zero1
  | n + 1, hn =>
    if (n + 1) % 4 = 0 then step1 (blk1 V c 0 ⟨n + 1, hn⟩) (blk1 V c 1 ⟨n + 1, hn⟩) zero1
    else step1 (blk1 V c 0 ⟨n + 1, hn⟩) (blk1 V c 1 ⟨n + 1, hn⟩) (sacc1 c n (Nat.lt_of_succ_lt hn))

/-- At the first point of a row: one step from zero. -/
theorem sacc1_A (c : Dev nD) (t : Fin cfg1.N) (h0 : t.val % 4 = 0) :
    sacc1 V c t.val t.isLt = step1 (blk1 V c 0 t) (blk1 V c 1 t) zero1 := by
  obtain ⟨n, hn⟩ := t
  cases n with
  | zero => rfl
  | succ n => exact (if_pos h0).trans rfl

/-- At a later point of a row: one step from what the point before left. -/
theorem sacc1_B (c : Dev nD) (t : Fin cfg1.N) (h0 : ¬t.val % 4 = 0) :
    sacc1 V c t.val t.isLt = step1 (blk1 V c 0 t) (blk1 V c 1 t) (sacc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- What the epilogue leaves in the output block at point `t`: of the scratch after the point, the bias row and the
    second weight. (Consulted only at the last point of each row, where the body stores it and the pipeline writes it
    back; elsewhere the output window is idle.) -/
def out1 (c : Dev nD) (t : Fin cfg1.N) : Vec F S512x128 .f32 :=
  fin1 (sacc1 V c t.val t.isLt) (blk1 V c 2 t) (blk1 V c 3 t)

/-! ## The invariant: the scratch carried from point to point -/

/-- The scratch as a memref: the whole scoped buffer the kernel is passed beside the windows. -/
abbrev scM1 : Memref sig .tc .vmem S512x128 .f32 := Memref.whole cc1_scratch0

/-- The core's scoped buffers that are neither a staging buffer of this region nor the scratch, each whole at some
    contents: what the invariant carries untouched. -/
def rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the scratch split off as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA Pipeline.scopedRest rest1
  rw [bigSep_erase (i := cc1_scratch0) (by decide)]
  simp only [scM1, owns_whole]
  rfl

/-- The region invariant before position `n`: before the first point the class invariant (the scratch at anything);
    afterwards the scratch at what the point before left in it, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1 fullShare (sacc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sacc1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (sacc1 V c (n - 1) (by omega)) ∗ rest1 c) ∗ (∃ r, prngReg c r)) := by
  cases n with
  | zero => exact absurd rfl hz
  | succ n => rfl

/-! ## The proof data -/

/-- The proof data of the region on core `c`: the arrays as the region finds them; after the body each input's buffer
    still at its block and the output's at the epilogue's value `out1`; the invariant `PhiS1`, which carries the scratch
    at its running value `sacc1`; nothing owed; full shares. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1 V c t
  Φ t := PhiS1 V c t.val (Nat.le_of_lt_succ t.isLt)
  q _ := fullShare
  owed _ := 0

theorem data1_A (c : Dev nD) (w : Fin cfg1.W) : (data1 V c).A w = V c (Pipeline.arrRef spec1 w) := by
  dsimp only [data1]
theorem data1_Phi_castSucc (c : Dev nD) (t : Fin cfg1.N) :
    (data1 V c).Φ t.castSucc = PhiS1 V c t.val (Nat.le_of_lt t.isLt) := by
  dsimp only [data1]; simp only [Fin.coe_castSucc]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) : (data1 V c).after 3 t = blk1 V c 3 t := by dsimp only [data1]
theorem data1_after_4 (c : Dev nD) (t : Fin cfg1.N) : (data1 V c).after 4 t = out1 V c t := by dsimp only [data1]

theorem data1_before_0 (c : Dev nD) (t : Fin cfg1.N) (d) : (data1 V c).before 0 t d = blk1 V c 0 t :=
  held1_0_of V (data1 V c) (data1_A V c 0) (data1_after_0 V c) t d
theorem data1_before_1 (c : Dev nD) (t : Fin cfg1.N) (d) : (data1 V c).before 1 t d = blk1 V c 1 t :=
  held1_1_of V (data1 V c) (data1_A V c 1) (data1_after_1 V c) t d
theorem data1_before_2 (c : Dev nD) (t : Fin cfg1.N) (d) : (data1 V c).before 2 t d = blk1 V c 2 t :=
  held1_2_of V (data1 V c) (data1_A V c 2) (data1_after_2 V c) t d
theorem data1_before_3 (c : Dev nD) (t : Fin cfg1.N) (d) : (data1 V c).before 3 t d = blk1 V c 3 t :=
  held1_3_of V (data1 V c) (data1_A V c 3) (data1_after_3 V c) t d

/-! ## The body obligation -/

/-- What the body is called with at point `t`, -/
def body1_pre (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d)))

/-- and what it returns: each window's buffer at what the body leaves — for the output window, idle off the epilogue's
    points, what it held there. -/
def body1_post (c : Dev nD) (t : Fin cfg1.N) : sProp 𝕄 :=
  iprop((data1 V c).Φ t.succ ∗ (data1 V c).owesAt () t.succ
    ∗ (data1 V c).leavesExact 0 t
    ∗ (data1 V c).leavesExact 1 t
    ∗ (data1 V c).leavesExact 2 t
    ∗ (data1 V c).leavesExact 3 t
    ∗ (data1 V c).leavesExact 4 t)

theorem leaves1_0 (c : Dev nD) (t : Fin cfg1.N) : (data1 V c).leavesExact 0 t = owns (c : Thread nD τ) (st1_0 t) fullShare (blk1 V c 0 t) := by
  unfold Dat.leavesExact; rw [live1_0 t, data1_after_0]
theorem leaves1_1 (c : Dev nD) (t : Fin cfg1.N) : (data1 V c).leavesExact 1 t = owns (c : Thread nD τ) (st1_1 t) fullShare (blk1 V c 1 t) := by
  unfold Dat.leavesExact; rw [live1_1 t, data1_after_1]
theorem leaves1_2 (c : Dev nD) (t : Fin cfg1.N) : (data1 V c).leavesExact 2 t = owns (c : Thread nD τ) (st1_2 t) fullShare (blk1 V c 2 t) := by
  unfold Dat.leavesExact; rw [live1_2 t, data1_after_2]
theorem leaves1_3 (c : Dev nD) (t : Fin cfg1.N) : (data1 V c).leavesExact 3 t = owns (c : Thread nD τ) (st1_3 t) fullShare (blk1 V c 3 t) := by
  unfold Dat.leavesExact; rw [live1_3 t, data1_after_3]
/-- At the epilogue's points the output's buffer is left at the epilogue's value; -/
theorem leaves1_4_live (c : Dev nD) (t : Fin cfg1.N) (h1 : cond1_1 (grid1.coords t)) :
    (data1 V c).leavesExact 4 t = owns (c : Thread nD τ) (st1_4 t) fullShare (out1 V c t) := by
  unfold Dat.leavesExact; rw [live1_4 t h1, data1_after_4]
/-- elsewhere it is left as it was found. -/
theorem leaves1_4_idle (c : Dev nD) (t : Fin cfg1.N) (h1 : ¬cond1_1 (grid1.coords t)) :
    (data1 V c).leavesExact 4 t = iprop(∃ d, owns (c : Thread nD τ) (st1_4 t) fullShare ((data1 V c).before 4 t d)) :=
  Dat.leavesExact_idle (data1 V c) 4 t (idle1_4 t h1) (noFlush1_4 t h1)

set_option maxHeartbeats 4000000 in
/-- The body at any point: the inputs' buffers hold their blocks; the closed forms of the conditions say which case the
    point is in; the invariant hands the body the scratch at what the point before left (at anything at the first point)
    and takes it back at this point's value; off the epilogue's points the output's buffer passes through untouched. -/
theorem body1_sound (c : Dev nD) (t : Fin cfg1.N) :
    body1_pre V c t ⊢ wp frame (wpE (defs₀ (F := F)) Variants.none c none) Set.univ (bodyAt1 t) (fun _ => body1_post V c t) := by
  unfold body1_pre body1_post bodyAt1
  simp only [data1_before_0, data1_before_1, data1_before_2, data1_before_3]
  rw [show (data1 V c).owesAt () t.succ = (data1 V c).owesAt () t.castSucc from rfl]
  rw [show (data1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 4 = 0
  · have h1 : ¬t.val % 4 = 3 := by omega
    have hc1 : ¬cond1_1 (grid1.coords t) := fun h => h1 ((hcond1_1 t).mp h)
    rw [leaves1_4_idle V c t hc1, sacc1_A V c t h0]
    by_cases hz : t.val = 0
    · rw [data1_Phi_castSucc V c t, PhiS1_zero V c _ _ hz, PhiA1_eq]
      iintro ⟨⟨⟨⟨%ds, HS⟩, Hr⟩, Hg⟩, Ho, ⟨%d0, H0⟩, ⟨%d1, H1⟩, ⟨%d2, H2⟩, ⟨%d3, H3⟩, H4⟩
      iapply (body1_A c Set.univ (grid1.coords t) ((hcond1_0 t).mpr h0) hc1 _ _ _ _ _ _ _ _ _ _ _ _ (blk1 V c 0 t) (blk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [data1_Phi_castSucc V c t, PhiS1_pos V c _ _ hz]
      iintro ⟨⟨⟨HS, Hr⟩, Hg⟩, Ho, ⟨%d0, H0⟩, ⟨%d1, H1⟩, ⟨%d2, H2⟩, ⟨%d3, H3⟩, H4⟩
      iapply (body1_A c Set.univ (grid1.coords t) ((hcond1_0 t).mpr h0) hc1 _ _ _ _ _ _ _ _ _ _ _ _ (blk1 V c 0 t) (blk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    have hc0 : ¬cond1_0 (grid1.coords t) := fun h => h0 ((hcond1_0 t).mp h)
    rw [data1_Phi_castSucc V c t, PhiS1_pos V c _ _ hz, sacc1_B V c t h0]
    by_cases h1 : t.val % 4 = 3
    · have hc1 : cond1_1 (grid1.coords t) := (hcond1_1 t).mpr h1
      rw [leaves1_4_live V c t hc1]
      unfold out1
      rw [sacc1_B V c t h0]
      iintro ⟨⟨⟨HS, Hr⟩, Hg⟩, Ho, ⟨%d0, H0⟩, ⟨%d1, H1⟩, ⟨%d2, H2⟩, ⟨%d3, H3⟩, ⟨%d4, H4⟩⟩
      iapply (body1_C c Set.univ (grid1.coords t) hc0 hc1 _ _ _ _ _ _ _ _ _ _ _ _
        (blk1 V c 0 t) (blk1 V c 1 t) (blk1 V c 2 t) (blk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [leaves1_4_idle V c t hc1]
      iintro ⟨⟨⟨HS, Hr⟩, Hg⟩, Ho, ⟨%d0, H0⟩, ⟨%d1, H1⟩, ⟨%d2, H2⟩, ⟨%d3, H3⟩, H4⟩
      iapply (body1_B c Set.univ (grid1.coords t) hc0 hc1 _ _ _ _ _ _ _ _ _ _ _ _ (blk1 V c 0 t) (blk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4

/-- The body obligation of the pipeline library, at every point. -/
theorem obligation1 (c : Dev nD) : BodyObligation (data1 (F := F) V c) (defs₀ (F := F)) Variants.none () Set.univ := fun t => by
  rw [bigSep_W1, bigSep_W1]
  exact body1_sound V c t

/-! ## The invariant at the region's ends -/

/-- The generator register and the scoped buffers no window stages — the scratch among them, at anything — make the
    invariant before the first point. -/
theorem hin1 (c : Dev nD) :
    (iprop((∃ r, prngReg c r) ∗ Pipeline.scopedRest spec1 c) : sProp 𝕄) ⊢ (data1 V c).Φ 0 := by
  rw [show (data1 V c).Φ 0 = PhiS1 V c 0 (Nat.zero_le _) from rfl, PhiS1_zero V c 0 _ rfl]; unfold Pipeline.ΦA
  iintro ⟨Hg, Hr⟩
  isplitl [Hr]; · iexact Hr
  iexact Hg

/-- After any point the invariant gives the class invariant back: the scratch's named contents are forgotten. -/
theorem Phi1_out (c : Dev nD) (t : Fin (cfg1.N + 1)) (ht : t.val ≠ 0) : (data1 V c).Φ t ⊢ Pipeline.ΦA spec1 c := by
  rw [show (data1 V c).Φ t = PhiS1 V c t.val (Nat.le_of_lt_succ t.isLt) from rfl, PhiS1_pos V c _ _ ht, PhiA1_eq]
  iintro ⟨⟨HS, Hr⟩, Hg⟩
  isplitl [HS Hr]
  · isplitl [HS]; · iexists _; iexact HS
    iexact Hr
  iexact Hg

/-- So after the last point it gives back the generator register and those scoped buffers. -/
theorem hout1 (c : Dev nD) :
    (data1 V c).Φ (Fin.last cfg1.N) ⊢ (iprop((∃ r, prngReg c r) ∗ Pipeline.scopedRest spec1 c) : sProp 𝕄) :=
  (Phi1_out V c _ (by rw [Fin.val_last]; have : cfg1.N = 32 := N_1; omega)).trans (by
    unfold Pipeline.ΦA
    iintro ⟨Hr, Hg⟩
    isplitl [Hg]; · iexact Hg
    iexact Hr)

end Cert.ReferenceIdeal.Hand

end
-- ==== Proof.RIReg2.lean ====
/-
  Region 2 of the program (the third pallas_call): the second aggregation  OUT = A · Y2 + b2, accumulated over the four
  column blocks of A. Grid (8, 4), point (i, k): the body sees the 512×1024 block (i, k) of A, the 1024×128 block k of
  Y2, the bias row b2, and the 512×128 output block i, which is itself the accumulator — not written back until k = 3.
  If k = 0 the output block is zeroed; then the product of the two input blocks (into a zero accumulator) is added to
  it; if k = 3 the bias row is added to every row. Stated at a parameter `V`, the contents of the core's buffers
  when the region is entered, and at any float instance `F`: the three cases of the body as triples over arbitrary
  incoming accumulator contents, the running value `acc2` by recursion on the point, the proof data, the body
  obligation, and the invariant at the region's two ends.
-/
import proofs.«170631_g2000106516245658_pallasbulk_929_4_alg».proof.Proof.Gen.ReferenceIdeal.Launch
import proofs.«170631_g2000106516245658_pallasbulk_929_4_alg».proof.Proof.Gen.ReferenceIdeal.Skeleton
import proofs.«170631_g2000106516245658_pallasbulk_929_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the body's first conditional (the reset), from the grid coordinates. -/
abbrev cond2_0 (i : grid2.Coords) : Prop := (Scalar.cmpi .ne (Scalar.extui (Scalar.cmpi .eq (BitVec.ofNat 32 (i 1).val) 0#32)) 0#32) = 1#1
/-- The condition of its second conditional (the bias), from the grid coordinates. -/
abbrev cond2_1 (i : grid2.Coords) : Prop := (Scalar.cmpi .ne (Scalar.extui (Scalar.cmpi .eq (BitVec.ofNat 32 (i 1).val) 3#32)) 0#32) = 1#1
/-- The reset is taken exactly at the first point of each row of four: the inner coordinate is 0. -/
theorem hcond2_0 : ∀ t : Fin cfg2.N, cond2_0 (grid2.coords t) ↔ t.val % 4 = 0 :=
  (by decide +kernel : ∀ t : Fin grid2.N, cond2_0 (grid2.coords t) ↔ t.val % 4 = 0)
/-- The bias is added exactly at the last point of each row of four: the inner coordinate is 3. -/
theorem hcond2_1 : ∀ t : Fin cfg2.N, cond2_1 (grid2.coords t) ↔ t.val % 4 = 3 :=
  (by decide +kernel : ∀ t : Fin grid2.N, cond2_1 (grid2.coords t) ↔ t.val % 4 = 3)

theorem hz2 : (![0, 0] : Fin 2 → Nat) = fun _ => 0 := funext fun a => by fin_cases a <;> rfl

/-! ## The values -/

/-- The zero block the reset stores. -/
def zero2 : Vec F S512x128 .f32 := k2_pay1
/-- One accumulation step: the accumulator plus the product of the two input blocks (into a zero accumulator). -/
def step2 (x0 : Vec F S512x1024 .f32) (x1 : Vec F S1024x128 .f32) (a : Vec F S512x128 .f32) : Vec F S512x128 .f32 := k2_pay2 x0 x1 a
/-- The last step: the bias row added to every row of the accumulator. -/
def fin2 (a : Vec F S512x128 .f32) (b : Vec F S1x128 .f32) : Vec F S512x128 .f32 := k2_pay3 a b

/-- One whole-block store covers the block. -/
theorem cover2 (p0 : Vec F S512x128 .f32) (L : List (View.Piece (Elt F) S512x128 .f32)) (y : S512x128.Idx) :
    ∃ pc ∈ ((⟨Rect.unit (s := S512x128) ![0, 0] S512x128.size inb_S512x128_S512x128_0_0, p0⟩ : View.Piece (Elt F) S512x128 .f32) :: L), y ∈ pc.1.set :=
  ⟨_, List.mem_cons_self, View.mem_set_unit_zero hz2 inb_S512x128_S512x128_0_0 y⟩

/-! ## The body, case by case, on whole staging memrefs -/

set_option maxHeartbeats 1000000 in
/-- A middle point (no reset, no bias): the output ends one step from its incoming contents. -/
theorem body2_B (c : Dev nD) (E : Set ℕ) (i : grid2.Coords) (hc0 : ¬cond2_0 i) (hc1 : ¬cond2_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S512x128 .f32) (harg5 : arg5.IsWhole)
    (x0 : Vec F S512x1024 .f32) (x1 : Vec F S1024x128 .f32) (x2 : Vec F S1x128 .f32) (xo : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (step2 x0 x1 xo)) -∗ K ⟨⟩))
      ⊢ wp frame (wpE (defs₀ (F := F)) Variants.none c none) E (cc2__kernel_body i arg2 harg2 arg3 harg3 arg4 harg4 arg5 harg5) K := by
  simp only [cc2__kernel_body_eq_skeleton]; unfold cc2__kernel_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2 _ _), View.canon_unit_zero hz2]
  simp only [View.readAt_eq_ld, View.ld_unit_zero (S := S512x1024) hz2, View.ld_unit_zero (S := S1024x128) hz2, View.ld_unit_zero (S := S512x128) hz2, View.ld_unit_zero (S := S1x128) hz2]
  rfl

set_option maxHeartbeats 1000000 in
/-- The first point of a row (reset, no bias): the output is zeroed, read back, and ends one step from zero,
    whatever it held. -/
theorem body2_A (c : Dev nD) (E : Set ℕ) (i : grid2.Coords) (hc0 : cond2_0 i) (hc1 : ¬cond2_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S512x128 .f32) (harg5 : arg5.IsWhole)
    (x0 : Vec F S512x1024 .f32) (x1 : Vec F S1024x128 .f32) (x2 : Vec F S1x128 .f32) (xo : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (step2 x0 x1 zero2)) -∗ K ⟨⟩))
      ⊢ wp frame (wpE (defs₀ (F := F)) Variants.none c none) E (cc2__kernel_body i arg2 harg2 arg3 harg3 arg4 harg4 arg5 harg5) K := by
  simp only [cc2__kernel_body_eq_skeleton]; unfold cc2__kernel_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2 _ _)]
  sl_unfold_words
  rw [View.canon_cons_unit_zero (S := S512x128) hz2, View.readCov_unit_zero (S := S512x128) _ hz2]
  simp only [View.readAt_eq_ld, View.ld_unit_zero (S := S512x1024) hz2, View.ld_unit_zero (S := S1024x128) hz2, View.ld_unit_zero (S := S512x128) hz2, View.ld_unit_zero (S := S1x128) hz2]
  rfl

set_option maxHeartbeats 1000000 in
/-- The last point of a row (no reset, bias): one step from the incoming contents, read back, the bias added. -/
theorem body2_C (c : Dev nD) (E : Set ℕ) (i : grid2.Coords) (hc0 : ¬cond2_0 i) (hc1 : cond2_1 i)
    (arg2 : Memref sig .tc .vmem S512x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S512x128 .f32) (harg5 : arg5.IsWhole)
    (x0 : Vec F S512x1024 .f32) (x1 : Vec F S1024x128 .f32) (x2 : Vec F S1x128 .f32) (xo : Vec F S512x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (fin2 (step2 x0 x1 xo) x2)) -∗ K ⟨⟩))
      ⊢ wp frame (wpE (defs₀ (F := F)) Variants.none c none) E (cc2__kernel_body i arg2 harg2 arg3 harg3 arg4 harg4 arg5 harg5) K := by
  simp only [cc2__kernel_body_eq_skeleton]; unfold cc2__kernel_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2 _ _)]
  sl_unfold_words
  rw [View.canon_cons_unit_zero (S := S512x128) hz2, View.readCov_unit_zero (S := S512x128) _ hz2]
  simp only [View.readAt_eq_ld, View.ld_unit_zero (S := S512x1024) hz2, View.ld_unit_zero (S := S1024x128) hz2, View.ld_unit_zero (S := S512x128) hz2, View.ld_unit_zero (S := S1x128) hz2]
  rfl

/-! ## What the windows hold -/

variable (V : (c : Dev nD) → (b : Ref sig .tc) → Buf (Elt F) ((c : Thread nD τ).loc b))

/-- The block of window `w`'s array that grid point `t` sees, read off the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block, whether or not it was fetched at this point. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- THE ACCUMULATION. What the output's staging buffer holds after the body at position `n`: at the first point of a
    row of four the step over the zero block; at a later point the step over what the point before left; at the last
    point of the row the bias added on top. -/
def acc2 (c : Dev nD) : (n : ℕ) → n < cfg2.N → Vec F S512x128 .f32
  | 0, hn => step2 (blk2 V c 0 ⟨0, hn⟩) (blk2 V c 1 ⟨0, hn⟩) zero2
  | n + 1, hn =>
    if (n + 1) % 4 = 0 then step2 (blk2 V c 0 ⟨n + 1, hn⟩) (blk2 V c 1 ⟨n + 1, hn⟩) zero2
    else if (n + 1) % 4 = 3 then
      fin2 (step2 (blk2 V c 0 ⟨n + 1, hn⟩) (blk2 V c 1 ⟨n + 1, hn⟩) (acc2 c n (Nat.lt_of_succ_lt hn))) (blk2 V c 2 ⟨n + 1, hn⟩)
    else step2 (blk2 V c 0 ⟨n + 1, hn⟩) (blk2 V c 1 ⟨n + 1, hn⟩) (acc2 c n (Nat.lt_of_succ_lt hn))

/-- At the first point of a row: one step from zero. -/
theorem acc2_A (c : Dev nD) (t : Fin cfg2.N) (h0 : t.val % 4 = 0) :
    acc2 V c t.val t.isLt = step2 (blk2 V c 0 t) (blk2 V c 1 t) zero2 := by
  obtain ⟨n, hn⟩ := t
  cases n with
  | zero => rfl
  | succ n => exact (if_pos h0).trans rfl

/-- At a middle point of a row: one step from what the point before left. -/
theorem acc2_B (c : Dev nD) (t : Fin cfg2.N) (h0 : ¬t.val % 4 = 0) (h1 : ¬t.val % 4 = 3) :
    acc2 V c t.val t.isLt = step2 (blk2 V c 0 t) (blk2 V c 1 t) (acc2 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- At the last point of a row: one step from what the point before left, then the bias. -/
theorem acc2_C (c : Dev nD) (t : Fin cfg2.N) (h0 : ¬t.val % 4 = 0) (h1 : t.val % 4 = 3) :
    acc2 V c t.val t.isLt = fin2 (step2 (blk2 V c 0 t) (blk2 V c 1 t) (acc2 V c (t.val - 1) (Nat.lt_of_le_of_lt (Nat.sub_le _ _) t.isLt))) (blk2 V c 2 t) := by
  obtain ⟨n, hn⟩ := t
  cases n with
  | zero => exact absurd (Nat.zero_mod _) h0
  | succ n => exact (if_neg h0).trans ((if_pos h1).trans rfl)

/-! ## The proof data -/

/-- The proof data of the region on core `c`: the arrays as the region finds them; after the body each input's buffer
    still at its block and the output's at the running value `acc2`; the invariant is the rest of the scoped buffers
    and the generator register, untouched; nothing owed; full shares. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => acc2 V c t.val t.isLt
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) : (data2 V c).after 2 t = blk2 V c 2 t := by dsimp only [data2]
theorem data2_after_3 (c : Dev nD) (t : Fin cfg2.N) : (data2 V c).after 3 t = acc2 V c t.val t.isLt := by dsimp only [data2]

theorem data2_before_0 (c : Dev nD) (t : Fin cfg2.N) (d) : (data2 V c).before 0 t d = blk2 V c 0 t :=
  held2_0_of V (data2 V c) (data2_A V c 0) (data2_after_0 V c) t d
theorem data2_before_1 (c : Dev nD) (t : Fin cfg2.N) (d) : (data2 V c).before 1 t d = blk2 V c 1 t :=
  held2_1_of V (data2 V c) (data2_A V c 1) (data2_after_1 V c) t d
theorem data2_before_2 (c : Dev nD) (t : Fin cfg2.N) (d) : (data2 V c).before 2 t d = blk2 V c 2 t :=
  held2_2_of V (data2 V c) (data2_A V c 2) (data2_after_2 V c) t d
/-- Past the first point of a row the output's staging buffer holds what the body left at the point before: it was not
    written back between, the window is never idle and never cut. -/
theorem data2_before_3 (c : Dev nD) (t : Fin cfg2.N) (h0 : ¬t.val % 4 = 0) (d) :
    (data2 V c).before 3 t d = acc2 V c (t.val - 1) (Nat.lt_of_le_of_lt (Nat.sub_le _ _) t.isLt) := by
  have hN : t.val < 32 := lt_of_lt_of_eq t.isLt (show cfg2.N = 32 from N_2)
  rw [Dat.before_out_kept _ 3 rfl t (by omega) (Bool.eq_false_iff.mpr fun h => by have := (flush2_3 _).mp h; dsimp only at this; omega)
    (fun _ => rfl) (fun _ _ => rfl)]
  dsimp only [data2]

/-! ## The body obligation -/

/-- What the body is called with at point `t`, -/
def body2_pre (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it returns. -/
def body2_post (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

set_option maxHeartbeats 1000000 in
/-- The body at any point: the inputs' buffers hold their blocks; the closed forms of the conditions say which case the
    point is in; past the first point of a row the output's buffer holds the running value; so the case's triple applies. -/
theorem body2_sound (c : Dev nD) (t : Fin cfg2.N) :
    body2_pre V c t ⊢ wp frame (wpE (defs₀ (F := F)) Variants.none c none) Set.univ (bodyAt2 t) (fun _ => body2_post V c t) := by
  unfold body2_pre body2_post bodyAt2
  simp only [data2_before_0, data2_before_1, data2_before_2]
  rw [show (data2 V c).Φ t.succ = (data2 V c).Φ t.castSucc from rfl,
    show (data2 V c).owesAt () t.succ = (data2 V c).owesAt () t.castSucc from rfl,
    data2_after_0, data2_after_1, data2_after_2, data2_after_3]
  have hN : t.val < 32 := lt_of_lt_of_eq t.isLt (show cfg2.N = 32 from N_2)
  by_cases h0 : t.val % 4 = 0
  · have h1 : ¬t.val % 4 = 3 := by omega
    rw [acc2_A V c t h0]
    iintro ⟨HΦ, Ho, ⟨%d0, H0⟩, ⟨%d1, H1⟩, ⟨%d2, H2⟩, ⟨%d3, H3⟩⟩
    iapply (body2_A c Set.univ (grid2.coords t) ((hcond2_0 t).mpr h0) (fun h => h1 ((hcond2_1 t).mp h)) _ _ _ _ _ _ _ _
      (blk2 V c 0 t) (blk2 V c 1 t) (blk2 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [data2_before_3 V c t h0]
    by_cases h1 : t.val % 4 = 3
    · rw [acc2_C V c t h0 h1]
      iintro ⟨HΦ, Ho, ⟨%d0, H0⟩, ⟨%d1, H1⟩, ⟨%d2, H2⟩, ⟨%d3, H3⟩⟩
      iapply (body2_C c Set.univ (grid2.coords t) (fun h => h0 ((hcond2_0 t).mp h)) ((hcond2_1 t).mpr h1) _ _ _ _ _ _ _ _
        (blk2 V c 0 t) (blk2 V c 1 t) (blk2 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc2_B V c t h0 h1]
      iintro ⟨HΦ, Ho, ⟨%d0, H0⟩, ⟨%d1, H1⟩, ⟨%d2, H2⟩, ⟨%d3, H3⟩⟩
      iapply (body2_B c Set.univ (grid2.coords t) (fun h => h0 ((hcond2_0 t).mp h)) (fun h => h1 ((hcond2_1 t).mp h)) _ _ _ _ _ _ _ _
        (blk2 V c 0 t) (blk2 V c 1 t) (blk2 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The body obligation of the pipeline library, at every point. -/
theorem obligation2 (c : Dev nD) : BodyObligation (data2 (F := F) V c) (defs₀ (F := F)) Variants.none () Set.univ := fun t => by
  rw [bigSep_W2, bigSep_W2]
  exact body2_sound V c t

/-! ## The invariant at the region's ends -/

/-- The generator register and the scoped buffers no window stages make the invariant before the first point, -/
theorem hin2 (c : Dev nD) :
    (iprop((∃ r, prngReg c r) ∗ Pipeline.scopedRest spec2 c) : sProp 𝕄) ⊢ (data2 V c).Φ 0 := by
  rw [show (data2 V c).Φ 0 = Pipeline.ΦA spec2 c from rfl]; unfold Pipeline.ΦA
  iintro ⟨Hg, Hr⟩
  isplitl [Hr]; · iexact Hr
  iexact Hg

/-- and the invariant after the last point gives them back. -/
theorem hout2 (c : Dev nD) :
    (data2 V c).Φ (Fin.last cfg2.N) ⊢ (iprop((∃ r, prngReg c r) ∗ Pipeline.scopedRest spec2 c) : sProp 𝕄) := by
  rw [show (data2 V c).Φ (Fin.last cfg2.N) = Pipeline.ΦA spec2 c from rfl]; unfold Pipeline.ΦA
  iintro ⟨Hr, Hg⟩
  isplitl [Hg]; · iexact Hg
  iexact Hr

end Cert.ReferenceIdeal.Hand

end
-- ==== Proof.RIReg3.lean ====
/-
  Region 3 of the reference program: the inner-product decoder,  recon = ½ · tanh(½ · H2 · H2ᵀ) + ½,  tiled over a
  grid of 8 × 4 points: point (i, j) multiplies rows 512·i … of H2 with rows 1024·j … of H2, contracted over the 128
  features, into the 512×1024 tile (i, j) of the reconstruction. Both input windows read the SAME array (H2), so the
  core's hold on it is dealt between them: one half share each. Stated at the entry contents `V` and at any `F`.
-/
import proofs.«170631_g2000106516245658_pallasbulk_929_4_alg».proof.Proof.Gen.ReferenceIdeal.Launch
import proofs.«170631_g2000106516245658_pallasbulk_929_4_alg».proof.Proof.Gen.ReferenceIdeal.Skeleton
import proofs.«170631_g2000106516245658_pallasbulk_929_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` sees, read off the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds the point's 512 rows of H2, fetched at this point or not. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The column-block window's staging buffer holds the point's 1024 rows of H2, fetched at this point or not. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The whole rectangles the body loads and stores through. -/
abbrev whole3_512x128 : Rect S512x128 := Rect.unit (s := S512x128) ![0, 0] S512x128.size inb_S512x128_S512x128_0_0
abbrev whole3_1024x128 : Rect S1024x128 := Rect.unit (s := S1024x128) ![0, 0] S1024x128.size inb_S1024x128_S1024x128_0_0
abbrev whole3_512x1024 : Rect S512x1024 := Rect.unit (s := S512x1024) ![0, 0] S512x1024.size inb_S512x1024_S512x1024_0_0

/-- What the body leaves in the output tile: its one store, of ½ · tanh(½ · H2_rows · H2_colsᵀ) + ½ over the loaded blocks. -/
def dec3 (x0 : Vec F S512x128 .f32) (x1 : Vec F S1024x128 .f32) : Vec F S512x1024 .f32 :=
  View.canon [⟨whole3_512x1024, k3_pay1 (View.ld x0 whole3_512x128) (View.ld x1 whole3_1024x128)⟩]

/-- The one store covers the output block. -/
theorem dec3_cover (p0 : Vec F S512x1024 .f32) (y : S512x1024.Idx) :
    ∃ pc ∈ ([⟨whole3_512x1024, p0⟩] : List (View.Piece (Elt F) S512x1024 .f32)), y ∈ pc.1.set :=
  View.cover_of_tiled [⟨whole3_512x1024, p0⟩] S512x1024.size (by rfl) y

set_option maxHeartbeats 1000000 in
/-- The body on whole staging memrefs: the inputs are read and kept, the output ends at `dec3` of the inputs. -/
theorem body3_triple (c : Dev nD) (E : Set ℕ) (i : grid3.Coords) (arg1 : Memref sig .tc .vmem S512x128 .f32) (harg1 : arg1.IsWhole) (arg2 : Memref sig .tc .vmem S1024x128 .f32) (harg2 : arg2.IsWhole) (arg3 : Memref sig .tc .vmem S512x1024 .f32) (harg3 : arg3.IsWhole)
    (x0 : Vec F S512x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (dec3 x0 x1)) -∗ K ⟨⟩))
      ⊢ wp frame (wpE (defs₀ (F := F)) Variants.none c none) E (cc3__decoder_kernel i arg1 harg1 arg2 harg2 arg3 harg3) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dec3_cover _)

/-- The proof data of the region on core `c`: the arrays as the region finds them; after the body each input's buffer still at its block and the output's at `dec3` of the input blocks; the invariant is the rest of the scoped buffers and the generator register; nothing owed; the two windows on H2 hold it at the two halves of the full share, the output at the full share. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => dec3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blk3 V c 0 t := by dsimp only [data3]
theorem data3_after_1 (c : Dev nD) (t : Fin cfg3.N) : (data3 V c).after 1 t = blk3 V c 1 t := by dsimp only [data3]
theorem data3_after_2 (c : Dev nD) (t : Fin cfg3.N) : (data3 V c).after 2 t = dec3 (blk3 V c 0 t) (blk3 V c 1 t) := by dsimp only [data3]

theorem data3_before_0 (c : Dev nD) (t : Fin cfg3.N) (d) : (data3 V c).before 0 t d = blk3 V c 0 t :=
  held3_0_of V (data3 V c) (data3_A V c 0) (data3_after_0 V c) t d
theorem data3_before_1 (c : Dev nD) (t : Fin cfg3.N) (d) : (data3 V c).before 1 t d = blk3 V c 1 t :=
  held3_1_of V (data3 V c) (data3_A V c 1) (data3_after_1 V c) t d

/-- What the body is called with at point `t`, -/
def body3_pre (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it returns. -/
def body3_post (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

theorem body3_sound (c : Dev nD) (t : Fin cfg3.N) :
    body3_pre V c t ⊢ wp frame (wpE (defs₀ (F := F)) Variants.none c none) Set.univ (bodyAt3 t) (fun _ => body3_post V c t) := by
  unfold body3_pre body3_post bodyAt3
  simp only [data3_before_0, data3_before_1]
  rw [show (data3 V c).Φ t.succ = (data3 V c).Φ t.castSucc from rfl,
    show (data3 V c).owesAt () t.succ = (data3 V c).owesAt () t.castSucc from rfl,
    data3_after_0, data3_after_1, data3_after_2]
  iintro ⟨HΦ, Ho, ⟨%d0, H0⟩, ⟨%d1, H1⟩, ⟨%d2, H2⟩⟩
  iapply (body3_triple c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation3 (c : Dev nD) : BodyObligation (data3 (F := F) V c) (defs₀ (F := F)) Variants.none () Set.univ := fun t => by
  rw [bigSep_W3, bigSep_W3]
  exact body3_sound V c t

end Cert.ReferenceIdeal.Hand

end
-- ==== Proof.RIRun.lean ====
/-
  The run of the whole program: what the core's buffers hold at each boundary between @main's items (the two host
  transposes, then the four regions), each region's proof data at the contents it is entered with, and the first three
  regions as segments of the run: a region takes its windows' arrays out of the core's unscoped buffers, runs its
  pipeline, and puts the arrays back with each output at what the write-backs of all grid points leave in it.
  The contents are a fold: launch memory; after the transposes; then region K's arrays replaced by its pipeline's
  final arrays. Region 3 (whose two input windows read one array) is a segment of its own module.
-/
import proofs.«170631_g2000106516245658_pallasbulk_929_4_alg».proof.Proof.RIReg0
import proofs.«170631_g2000106516245658_pallasbulk_929_4_alg».proof.Proof.RIReg1
import proofs.«170631_g2000106516245658_pallasbulk_929_4_alg».proof.Proof.RIReg2
import proofs.«170631_g2000106516245658_pallasbulk_929_4_alg».proof.Proof.RIReg3

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two host transposes (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- The buffers as region 0 leaves them: Y1 at the products its grid points wrote back; every other buffer as the region found it. -/
def W2 (c : Dev nD) : Valuation τ sig (Elt F) :=
  Pipeline.withArrays spec0 c (W1 m ρ c) fun w => (data0 (E1 m ρ) c).arrAt w cfg0.N
theorem W2_arr (c : Dev nD) (w : Fin cfg0.W) :
    W2 m ρ c (Proc.devRef .tc (Pipeline.arrRef spec0 w)) = (data0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev E2 : (c : Dev nD) → (b : Ref sig .tc) → Buf (Elt F) ((c : Thread nD τ).loc b) := fun c b => W2 m ρ c b
theorem left0 (c : Dev nD) (w : Fin cfg0.W) : (data0 (E1 m ρ) c).arrAt w cfg0.N = E2 m ρ c (Pipeline.arrRef spec0 w) :=
  (W2_arr m ρ c w).symm
theorem kept0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- The buffers as region 1 leaves them: Y2 at what its grid points wrote back; every other buffer as the region found it. -/
def W3 (c : Dev nD) : Valuation τ sig (Elt F) :=
  Pipeline.withArrays spec1 c (W2 m ρ c) fun w => (data1 (E2 m ρ) c).arrAt w cfg1.N
theorem W3_arr (c : Dev nD) (w : Fin cfg1.W) :
    W3 m ρ c (Proc.devRef .tc (Pipeline.arrRef spec1 w)) = (data1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev E3 : (c : Dev nD) → (b : Ref sig .tc) → Buf (Elt F) ((c : Thread nD τ).loc b) := fun c b => W3 m ρ c b
theorem left1 (c : Dev nD) (w : Fin cfg1.W) : (data1 (E2 m ρ) c).arrAt w cfg1.N = E3 m ρ c (Pipeline.arrRef spec1 w) :=
  (W3_arr m ρ c w).symm
theorem kept1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- The buffers as region 2 leaves them: H2 at what its grid points wrote back; every other buffer as the region found it. -/
def W4 (c : Dev nD) : Valuation τ sig (Elt F) :=
  Pipeline.withArrays spec2 c (W3 m ρ c) fun w => (data2 (E3 m ρ) c).arrAt w cfg2.N
theorem W4_arr (c : Dev nD) (w : Fin cfg2.W) :
    W4 m ρ c (Proc.devRef .tc (Pipeline.arrRef spec2 w)) = (data2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev E4 : (c : Dev nD) → (b : Ref sig .tc) → Buf (Elt F) ((c : Thread nD τ).loc b) := fun c b => W4 m ρ c b
theorem left2 (c : Dev nD) (w : Fin cfg2.W) : (data2 (E3 m ρ) c).arrAt w cfg2.N = E4 m ρ c (Pipeline.arrRef spec2 w) :=
  (W4_arr m ρ c w).symm
theorem kept2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- The buffers as region 3 leaves them: the reconstruction at what its grid points wrote back; every other
    buffer (H2, which both of its input windows read, among them) as the region found it. -/
def W5 (c : Dev nD) : Valuation τ sig (Elt F) :=
  Function.update (W4 m ρ c) (Proc.devRef .tc main_v5) ((data3 (E4 m ρ) c).arrAt 2 cfg3.N)
abbrev E5 : (c : Dev nD) → (b : Ref sig .tc) → Buf (Elt F) ((c : Thread nD τ).loc b) := fun c b => W5 m ρ c b
theorem W5_out (c : Dev nD) : W5 m ρ c (Proc.devRef .tc main_v5) = (data3 (E4 m ρ) c).arrAt 2 cfg3.N := by
  unfold W5; exact Function.update_self ..
theorem W5_of_ne (c : Dev nD) (b : Ref sig .tc) (hb : b ≠ main_v5) :
    W5 m ρ c (Proc.devRef .tc b) = W4 m ρ c (Proc.devRef .tc b) := by
  unfold W5; exact Function.update_of_ne (StableHlo.devRef_ne_of_ne hb) ..

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E2 m ρ) c
  | ⟨2, _⟩ => fun c => data2 (E3 m ρ) c
  | ⟨3, _⟩ => fun c => data3 (E4 m ρ) c
abbrev 𝒱₀ : Variants := Variants.none
/-- No core waits for another: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0, 1, 2 as segments -/

set_option backward.isDefEq.respectTransparency.types false in
/-- Region 0 between the contents `W1` and `W2`: its three arrays taken out of the unscoped buffers and put back, the generator register lent to the pipeline's invariant and returned, nothing owed, no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `W2` and `W3`. Its invariant also carries the accumulator scratch buffer: at the first point the scratch is one of the scoped buffers no window stages (at some contents), at the last it is given back among them. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (data1 (E2 m ρ) c).Φ 0 from rfl]
    iintro ⟨Hp, -, Hr⟩
    iapply (hin1 (E2 m ρ) c)
    isplitl [Hp]; · iexact Hp
    iexact Hr
  hout c := by
    rw [Pipeline.ownSems0_none, show (pdats m ρ 1 c).Φ (Fin.last _) = (data1 (E2 m ρ) c).Φ (Fin.last cfg1.N) from rfl]
    refine (hout1 (E2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `W3` and `W4`, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.ReferenceIdeal.Hand

end
-- ==== Proof.RIKeep.lean ====
/-
  Each region leaves every buffer but its own output as it found it: an input window's array is never written back,
  and a buffer that is no window's array bypasses the region. With these the contents at the end of the run are read
  back through the fold: an argument to the launch memory, an intermediate to the region that produced it.
-/
import proofs.«170631_g2000106516245658_pallasbulk_929_4_alg».proof.Proof.RIRun
import proofs.«170631_g2000106516245658_pallasbulk_929_4_alg».proof.Proof.Gen.ReferenceIdeal.Regions

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes the contents of no buffer but its output's. -/
theorem W2_keep (c : Dev nD) (b : Ref sig .tc) (hb : b ≠ main_v2) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((data0 (E1 m ρ) c).arrAt_in 0 rfl _).trans (data0_A (E1 m ρ) c 0)
    | ⟨1, _⟩ => exact ((data0 (E1 m ρ) c).arrAt_in 1 rfl _).trans (data0_A (E1 m ρ) c 1)
    | ⟨2, _⟩ => exact (hb rfl).elim
  · exact W2_of_ne m ρ c b fun w e => h ⟨w, e⟩

/-- Region 1 changes the contents of no buffer but its output's. -/
theorem W3_keep (c : Dev nD) (b : Ref sig .tc) (hb : b ≠ main_v3) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((data1 (E2 m ρ) c).arrAt_in 0 rfl _).trans (data1_A (E2 m ρ) c 0)
    | ⟨1, _⟩ => exact ((data1 (E2 m ρ) c).arrAt_in 1 rfl _).trans (data1_A (E2 m ρ) c 1)
    | ⟨2, _⟩ => exact ((data1 (E2 m ρ) c).arrAt_in 2 rfl _).trans (data1_A (E2 m ρ) c 2)
    | ⟨3, _⟩ => exact ((data1 (E2 m ρ) c).arrAt_in 3 rfl _).trans (data1_A (E2 m ρ) c 3)
    | ⟨4, _⟩ => exact (hb rfl).elim
  · exact W3_of_ne m ρ c b fun w e => h ⟨w, e⟩

/-- Region 2 changes the contents of no buffer but its output's. -/
theorem W4_keep (c : Dev nD) (b : Ref sig .tc) (hb : b ≠ main_v4) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => exact ((data2 (E3 m ρ) c).arrAt_in 0 rfl _).trans (data2_A (E3 m ρ) c 0)
    | ⟨1, _⟩ => exact ((data2 (E3 m ρ) c).arrAt_in 1 rfl _).trans (data2_A (E3 m ρ) c 1)
    | ⟨2, _⟩ => exact ((data2 (E3 m ρ) c).arrAt_in 2 rfl _).trans (data2_A (E3 m ρ) c 2)
    | ⟨3, _⟩ => exact (hb rfl).elim
  · exact W4_of_ne m ρ c b fun w e => h ⟨w, e⟩

/-- The two host transposes write only their own results. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

end Cert.ReferenceIdeal.Hand

end
-- ==== Proof.RIMain.lean ====
/-
  The whole run. @main is its five items in order — the two host transposes, then the four regions — and the
  pipeline library's launch theorem for such a list gives: from any launch memory with zero counters every weakly
  fair execution terminates without a fault, and at the end every unscoped buffer of the core holds what the fold of
  the items' effects says (`W5`). The last region enters as a parameter (any segment record between the contents
  `W4` and `W5`), so that this module does not depend on how that region deals its shared array.
-/
import proofs.«170631_g2000106516245658_pallasbulk_929_4_alg».proof.Proof.RIKeep

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the dues: every unscoped buffer at the final contents, the generator register at some state. -/
abbrev Tₙ (c : Dev nD) : sProp 𝕄 := iprop(StableHlo.held (c : Thread nD τ) (Pipeline.ucRefs τ sig) (W5 m ρ c) ∗ ∃ r, prngReg c r)

variable (R3 : Pipeline.RegionSeg (pcfgs (F := F)) adm (pdats m ρ) () defs₀ 𝒱₀ L lv 3)

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region R3 ]

/-- @main is the run of these segments. -/
theorem main_run (c : Dev nD) : main (F := F) c = Pipeline.Seg.run (segs m ρ R3) := (main_chain c).trans (by chain_rfl)

set_option backward.isDefEq.respectTransparency.types false in
/-- The run: every weakly fair execution of @main terminates, nothing faulting, and every final state holds each
    unscoped buffer at its final contents `W5`. -/
theorem run_of
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ R3)
    (fun c Q => by rw [main_run m ρ R3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, hpre3, hpost3⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.ReferenceIdeal.Hand

end
-- ==== Proof.RIOut.lean ====
/-
  The run with its results named: at the end the reconstruction's buffer holds what region 3's pipeline leaves in its
  output array and the latent's buffer what region 2's leaves, and every argument array holds its launch contents
  (read back through the fold: no region writes an input window's array and no host operation writes an argument).
  Also what each region finds in its input arrays when it is entered: an argument's launch contents, a host
  transpose's result, or the output array of the region before.
-/
import proofs.«170631_g2000106516245658_pallasbulk_929_4_alg».proof.Proof.RIMain

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Named

variable (R3 : Pipeline.RegionSeg (pcfgs (F := F)) adm (pdats m ρ) () defs₀ 𝒱₀ L lv 3)

theorem run_named
    (hpre3 : ∀ c : Dev nD, iprop(StableHlo.held (c : Thread nD τ) (Pipeline.ucRefs τ sig) (W4 m ρ c) ∗ R c) ⊢ R3.pre c)
    (hpost3 : ∀ c : Dev nD, R3.post c ⊢ iprop(Tₙ m ρ c ∗ ∃ W, owes (c : Thread nD τ) (0 : CellTallies nD τ sig Unit) W)) :
    θ_run defs (onTc (τ := τ) (main (F := F))) ⟨m, fun _ => 0, ρ⟩ (fun r => ∀ c : Dev nD,
      r.2.mem ((c.tc : Thread nD τ).loc main_v5) = (data3 (E4 m ρ) c).arrAt 2 cfg3.N
      ∧ r.2.mem ((c.tc : Thread nD τ).loc main_v4) = (data2 (E3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_v5 (by decide))).trans (W5_out m ρ c),
      (h c _ (mem_uc main_v4 (by decide))).trans ((W5_of_ne m ρ c main_v4 (by decide)).trans (W4_arr m ρ c 3)),
      (h c _ (mem_uc main_arg0 (by decide))).trans <| (W5_of_ne m ρ c main_arg0 (by decide)).trans <| (W4_keep m ρ c main_arg0 (by decide)).trans <|
        (W3_keep m ρ c main_arg0 (by decide)).trans <| (W2_keep m ρ c main_arg0 (by decide)).trans <| (W1_keep m ρ c main_arg0 (by decide)).trans rfl,
      (h c _ (mem_uc main_arg1 (by decide))).trans <| (W5_of_ne m ρ c main_arg1 (by decide)).trans <| (W4_keep m ρ c main_arg1 (by decide)).trans <|
        (W3_keep m ρ c main_arg1 (by decide)).trans <| (W2_keep m ρ c main_arg1 (by decide)).trans <| (W1_keep m ρ c main_arg1 (by decide)).trans rfl,
      (h c _ (mem_uc main_arg2 (by decide))).trans <| (W5_of_ne m ρ c main_arg2 (by decide)).trans <| (W4_keep m ρ c main_arg2 (by decide)).trans <|
        (W3_keep m ρ c main_arg2 (by decide)).trans <| (W2_keep m ρ c main_arg2 (by decide)).trans <| (W1_keep m ρ c main_arg2 (by decide)).trans rfl,
      (h c _ (mem_uc main_arg3 (by decide))).trans <| (W5_of_ne m ρ c main_arg3 (by decide)).trans <| (W4_keep m ρ c main_arg3 (by decide)).trans <|
        (W3_keep m ρ c main_arg3 (by decide)).trans <| (W2_keep m ρ c main_arg3 (by decide)).trans <| (W1_keep m ρ c main_arg3 (by decide)).trans rfl,
      (h c _ (mem_uc main_arg4 (by decide))).trans <| (W5_of_ne m ρ c main_arg4 (by decide)).trans <| (W4_keep m ρ c main_arg4 (by decide)).trans <|
        (W3_keep m ρ c main_arg4 (by decide)).trans <| (W2_keep m ρ c main_arg4 (by decide)).trans <| (W1_keep m ρ c main_arg4 (by decide)).trans rfl,
      (h c _ (mem_uc main_arg5 (by decide))).trans <| (W5_of_ne m ρ c main_arg5 (by decide)).trans <| (W4_keep m ρ c main_arg5 (by decide)).trans <|
        (W3_keep m ρ c main_arg5 (by decide)).trans <| (W2_keep m ρ c main_arg5 (by decide)).trans <| (W1_keep m ρ c main_arg5 (by decide)).trans rfl⟩)
    (run_of m ρ R3 hpre3 hpost3)

end Named

/-! ## What each region finds in its input arrays -/

theorem E1_arg1 (c : Dev nD) : E1 m ρ c main_arg1 = m ((c.tc : Thread nD τ).loc main_arg1) := (W1_keep m ρ c main_arg1 (by decide)).trans rfl
theorem E2_arg0 (c : Dev nD) : E2 m ρ c main_arg0 = m ((c.tc : Thread nD τ).loc main_arg0) :=
  (W2_keep m ρ c main_arg0 (by decide)).trans <| (W1_keep m ρ c main_arg0 (by decide)).trans rfl
theorem E2_arg3 (c : Dev nD) : E2 m ρ c main_arg3 = m ((c.tc : Thread nD τ).loc main_arg3) :=
  (W2_keep m ρ c main_arg3 (by decide)).trans <| (W1_keep m ρ c main_arg3 (by decide)).trans rfl
theorem E2_v1 (c : Dev nD) : E2 m ρ c main_v1 = E1 m ρ c main_v1 := W2_keep m ρ c main_v1 (by decide)
theorem E2_v2 (c : Dev nD) : E2 m ρ c main_v2 = (data0 (E1 m ρ) c).arrAt 2 cfg0.N := W2_arr m ρ c 2
theorem E3_arg0 (c : Dev nD) : E3 m ρ c main_arg0 = m ((c.tc : Thread nD τ).loc main_arg0) :=
  (W3_keep m ρ c main_arg0 (by decide)).trans (E2_arg0 m ρ c)
theorem E3_arg5 (c : Dev nD) : E3 m ρ c main_arg5 = m ((c.tc : Thread nD τ).loc main_arg5) :=
  (W3_keep m ρ c main_arg5 (by decide)).trans <| (W2_keep m ρ c main_arg5 (by decide)).trans <| (W1_keep m ρ c main_arg5 (by decide)).trans rfl
theorem E3_v3 (c : Dev nD) : E3 m ρ c main_v3 = (data1 (E2 m ρ) c).arrAt 4 cfg1.N := W3_arr m ρ c 4
theorem E4_v4 (c : Dev nD) : E4 m ρ c main_v4 = (data2 (E3 m ρ) c).arrAt 3 cfg2.N := W4_arr m ρ c 3

/-- The first host operation leaves the transpose of the first weight, the second the transpose of the second. -/
theorem E1_v0 (c : Dev nD) : E1 m ρ c main_v0
    = transpose S256x128 [1, 0] (m ((c.tc : Thread nD τ).loc main_arg2)) transposes_S128x256_S256x128_1_0 := by
  show StableHlo.after hostOps0 (W0 m ρ c) (Proc.devRef .tc main_v0) = _
  after_results
theorem E1_v1 (c : Dev nD) : E1 m ρ c main_v1
    = transpose S128x128 [1, 0] (m ((c.tc : Thread nD τ).loc main_arg4)) transposes_S128x128_S128x128_1_0 := by
  show StableHlo.after hostOps0 (W0 m ρ c) (Proc.devRef .tc main_v1) = _
  after_results

end Cert.ReferenceIdeal.Hand

end
-- ==== Proof.RISeg3.lean ====
/-
  Region 3 of the reference program (the inner-product decoder, tiled over 8 × 4 grid points) as the last segment of the
  run. Its two input windows read the SAME array, H2 — one takes a block of 512 rows, the other a block of 1024 rows —
  so the windows' arrays are not distinct buffers: behind the three windows stand two buffers, H2 and the output.
  At the entry the core's whole hold on H2 is dealt to the two windows, the left half of the full share to the first and
  the right half to the second; neither window writes, so at the exit each still holds H2 at the entry contents and the
  two halves join back to the whole hold. The output is held whole throughout and comes back at what the write-backs of
  all grid points left in it. Every other unscoped buffer bypasses the region.
-/
import proofs.«170631_g2000106516245658_pallasbulk_929_4_alg».proof.Proof.RIRun

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind region 3's windows are two: H2 (read by both input windows) and the output. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v4) ↦{fullShare} V main_v4) ∗ (((c : Thread nD τ).loc main_v5) ↦{fullShare} V main_v5)) := by
  unfold Pipeline.arrBufs
  rw [show Finset.univ.image (Pipeline.arrRef spec3) = {main_v4, main_v5} from by decide, bigSep_insert (by decide), bigSep_singleton]
  rfl

/-- The region's windowed arrays, window by window: H2 at the left half of the full share, H2 again at the right
    half, the output whole at the full share. -/
theorem arrays3_eq (V : (c : Dev nD) → (b : Ref sig .tc) → Buf (Elt F) ((c : Thread nD τ).loc b)) (c : Dev nD)
    (G : (w : Fin cfg3.W) → Buf (Elt F) ((cfg3.win w).arr.view.loc (c : Thread nD τ))) :
    ((data3 V c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W3, (arr_whole3 0).set_eq_univ, (arr_whole3 2).set_eq_univ]
  rfl

/-- The core's unscoped buffers at `V`: the distinct buffers behind region 3's windows, and the rest. -/
theorem unscopedBufs3_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec3 c V ∗ Pipeline.unscopedRest spec3 c V) :=
  Pipeline.unscopedBufs_split₀ (Pipeline.pin (pcfgs (F := F)) adm) 3 winFacts₀3.arr_unscoped c V

/-- ENTRY, the arrays' part: of the two distinct buffers behind the windows, H2's whole hold is dealt to the two
    windows that read it, the left half of the full share to the window of 512-row blocks and the right half to the
    window of 1024-row blocks; the output goes whole to its window. Every array is at the contents the region finds. -/
theorem arrays3_of_arrBufs (V : (c : Dev nD) → (b : Ref sig .tc) → Buf (Elt F) ((c : Thread nD τ).loc b)) (c : Dev nD) :
    (Pipeline.arrBufs (Ix := Unit) (Name := ℕ) (U := UR sig nD τ) (Lvl := ℕ) spec3 c (V c) : sProp 𝕄)
      ⊢ (data3 V c).arrays ((data3 V c).arrAt · 0) := by
  rw [arrBufs3_eq, arrays3_eq]
  iintro ⟨H4, H5⟩
  ihave H4 := (pointsTo_share (PosShare.mem_left_op_right fullShare)).1 $$ H4
  icases H4 with ⟨Hl, Hr⟩
  isplitl [Hl]; · iexact Hl
  isplitl [Hr]; · iexact Hr
  iexact H5

/-- ENTRY: the core's unscoped buffers at `V` are the region's arrays at entry and the buffers no window reads or writes. -/
theorem arrays3_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((data3 V c).arrays ((data3 V c).arrAt · 0) ∗ Pipeline.unscopedRest spec3 c (V c)) := by
  rw [unscopedBufs3_split c (V c)]
  exact BI.sep_mono (arrays3_of_arrBufs V c) (Entails.refl _)

/-- EXIT: the two input windows never write H2, so each still holds it at the entry contents and the two halves join
    back to the whole hold; with the output at what the write-backs left and the untouched rest, that is the core's
    unscoped buffers at any contents `V'` that has the output there and agrees with `V` on every other buffer. -/
theorem unscopedBufs_of_arrays3 (V : (c : Dev nD) → (b : Ref sig .tc) → Buf (Elt F) ((c : Thread nD τ).loc b)) (c : Dev nD)
    (V' : (b : Ref sig .tc) → Buf (Elt F) ((c : Thread nD τ).loc b))
    (hout : V' main_v5 = (data3 V c).arrAt 2 cfg3.N) (hrest : ∀ b, b ≠ main_v5 → V' b = V c b) :
    iprop((data3 V c).arrays ((data3 V c).arrAt · cfg3.N) ∗ Pipeline.unscopedRest (Ix := Unit) (Name := ℕ) (U := UR sig nD τ) (Lvl := ℕ) spec3 c (V c))
      ⊢ (unscopedBufs c V' : sProp 𝕄) := by
  have hR : (Pipeline.unscopedRest (Ix := Unit) (Name := ℕ) (U := UR sig nD τ) (Lvl := ℕ) spec3 c V' : sProp 𝕄) = Pipeline.unscopedRest spec3 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscopedBufs3_split c V', hR, arrBufs3_eq, arrays3_eq,
    (data3 V c).arrAt_in 0 rfl, (data3 V c).arrAt_in 1 rfl, hout, hrest main_v4 (by decide)]
  iintro ⟨⟨Hl, Hr, H5⟩, Hrest⟩
  isplitr [Hrest]
  · isplitl [Hl Hr]
    · iapply (pointsTo_share (PosShare.mem_left_op_right fullShare)).2
      isplitl [Hl]; · iexact Hl
      iexact Hr
    iexact H5
  iexact Hrest

set_option backward.isDefEq.respectTransparency.types false in
/-- Region 3 between the contents `W4` and `W5`, the last segment of the run: its two distinct arrays taken out of the
    unscoped buffers, H2's hold dealt in halves to the two windows that read it and joined back at the exit, the
    output put back at what the write-backs of all grid points left; the generator register lent to the pipeline's
    invariant and returned, nothing owed, no semaphore of the kernel's own. The state it leaves is the run's last. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (obligation3 (E4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop((StableHlo.held (c : Thread nD τ) (Pipeline.ucRefs τ sig) (W5 m ρ c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := arrays3_of_unscopedBufs (E4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (E4 m ρ) c (E5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

end Cert.ReferenceIdeal.Hand

end
-- ==== Proof.RIVal0.lean ====
/-
  Region 0 of the reference program at the ideal instance (a float is an extended real, every operation exact): the array
  the region leaves in its output, as one function of its two input arrays. The body's payload at an output index (p, q)
  is the plain sum ∑ k, x0 (p, k) · x1 (k, q) over the 256 contracted positions (the product into the zero accumulator,
  re-indexed from the contraction's one-axis index set to Fin 256). Point t reads rows 512·t … 512·t + 511 of H0 and the
  whole transposed weight, so what it writes back is rows 512·t … 512·t + 511 of H0 · W1ᵀ; the eight row blocks tile the
  4096 rows (row r lies in block r / 512), hence the array ends holding H0 · W1ᵀ.
-/
import proofs.«170631_g2000106516245658_pallasbulk_929_4_alg».proof.Proof.RIReg0
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen
open Idealize.ShloMosaic Idealize.ShloMosaic.TcCoe
open Idealize.ShloMosaic.Pipeline (Dat)
open Idealize.ShloMosaic.ValueIdx
open Cert.Spec
open scoped BigOperators

/-! ## The payload at an index -/

/-- The product's left operand is read at the output's row, -/
theorem dot0_lhs_row (j : S512x128.Idx) (k : (dot_S512x256_S256x128_S512x128_1_0_0_1_n_n).contr.Idx) :
    (((dot_S512x256_S256x128_S512x128_1_0_0_1_n_n).lhsIdx j k 0 : Fin 512) : ℕ) = (j 0 : ℕ) := by
  simp [DotDims.lhsIdx, dot_S512x256_S256x128_S512x128_1_0_0_1_n_n]; rfl

/-- its right operand at the output's column. -/
theorem dot0_rhs_col (j : S512x128.Idx) (k : (dot_S512x256_S256x128_S512x128_1_0_0_1_n_n).contr.Idx) :
    (((dot_S512x256_S256x128_S512x128_1_0_0_1_n_n).rhsIdx j k 1 : Fin 128) : ℕ) = (j 1 : ℕ) := by
  simp [DotDims.rhsIdx, dot_S512x256_S256x128_S512x128_1_0_0_1_n_n]; rfl

/-- The payload at (p, q): the sum over the 256 contracted positions of the operands' products. -/
theorem pay0_apply (x0 : Vec Ideal S512x256 .f32) (x1 : Vec Ideal S256x128 .f32) (p : Fin 512) (q : Fin 128) :
    k0_pay1 x0 x1 (ix2 p q) = ∑ k : Fin 256, x0 (ix2 p k) * x1 (ix2 k q) := by
  unfold k0_pay1
  rw [shapeCast_self]
  refine (Ideal.matmul_constant_zero_apply _ none x0 x1 (ix2 p q)).trans ?_
  rw [← Equiv.sum_comp (contrEquiv1 (dot_S512x256_S256x128_S512x128_1_0_0_1_n_n) 256 rfl rfl).symm]
  refine Finset.sum_congr rfl fun k _ => ?_
  have hl : (dot_S512x256_S256x128_S512x128_1_0_0_1_n_n).lhsIdx (ix2 p q) ((contrEquiv1 (dot_S512x256_S256x128_S512x128_1_0_0_1_n_n) 256 rfl rfl).symm k) = ix2 p k := by
    funext a; apply Fin.ext
    match a with
    | ⟨0, _⟩ => exact dot0_lhs_row _ _
    | ⟨1, _⟩ => exact ((dot_S512x256_S256x128_S512x128_1_0_0_1_n_n).lhsIdx_val_of_single rfl _ _).trans (contrEquiv1_symm_val _ 256 rfl rfl k)
  have hr : (dot_S512x256_S256x128_S512x128_1_0_0_1_n_n).rhsIdx (ix2 p q) ((contrEquiv1 (dot_S512x256_S256x128_S512x128_1_0_0_1_n_n) 256 rfl rfl).symm k) = ix2 k q := by
    funext a; apply Fin.ext
    match a with
    | ⟨0, _⟩ => exact ((dot_S512x256_S256x128_S512x128_1_0_0_1_n_n).rhsIdx_val_of_single rfl _ _).trans (contrEquiv1_symm_val _ 256 rfl rfl k)
    | ⟨1, _⟩ => exact dot0_rhs_col _ _
  rw [hl, hr]

/-! ## From the blocks to the array -/

variable (V : (c : Dev nD) → (b : Ref sig .tc) → Buf (Elt Ideal) ((c : Thread nD τ).loc b))

theorem zeros0 : (![0, 0] : Fin 2 → Nat) = fun _ => 0 := funext fun a => by fin_cases a <;> rfl

/-- The product array H0 · W1ᵀ of the two input arrays, index by index. -/
abbrev Y1of (h0 : S4096x256.Idx → EReal) (w : S256x128.Idx → EReal) : S4096x128.Idx → EReal :=
  arr (feat (mat h0) (mat w))

/-- The index maps over the grid: the H0 window and the output move one row block per point, the weight's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The H0 window's block at point t is rows 512·t … 512·t + 511 of H0. -/
theorem blk0_0_apply (c : Dev nD) (t : Fin cfg0.N) (x : S512x256.Idx) (k : S4096x256.Idx)
    (hk0 : (k 0).val = 512 * t.val + (x 0).val) (hk1 : (k 1).val = (x 1).val) :
    (blk0 V c 0 t : Vec Ideal S512x256 .f32) x = (V c main_arg1 : S4096x256.Idx → EReal) k := by
  obtain ⟨e0, e1, -⟩ := idx0 t
  unfold blk0
  rw [View.read_apply]
  show V c main_arg1 _ = V c main_arg1 _
  refine congrArg _ ?_
  funext a
  apply Fin.ext
  match a with
  | ⟨0, _⟩ => show win0_0.index t (0 : Fin 2) * 512 + 1 * (x 0).val = (k 0).val; rw [e0, hk0]; omega
  | ⟨1, _⟩ => show win0_0.index t (1 : Fin 2) * 256 + 1 * (x 1).val = (k 1).val; rw [e1, hk1]; omega

/-- The weight window's block at every point is the whole transposed weight. -/
theorem blk0_1_apply (c : Dev nD) (t : Fin cfg0.N) (x : S256x128.Idx) :
    (blk0 V c 1 t : Vec Ideal S256x128 .f32) x = (V c main_v0 : S256x128.Idx → EReal) x := by
  obtain ⟨-, -, e0, e1, -⟩ := idx0 t
  unfold blk0
  rw [View.read_apply]
  show V c main_v0 _ = V c main_v0 _
  refine congrArg _ ?_
  funext a
  apply Fin.ext
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- One point's payload, over a row block of H0 and the whole weight, is that row block of the product. -/
theorem point0 (h0 : S4096x256.Idx → EReal) (w : S256x128.Idx → EReal) (t : ℕ) (x0 : Vec Ideal S512x256 .f32) (x1 : Vec Ideal S256x128 .f32)
    (hx0 : ∀ (x : S512x256.Idx) (k : S4096x256.Idx), (k 0).val = 512 * t + (x 0).val → (k 1).val = (x 1).val → x0 x = h0 k)
    (hx1 : ∀ x, x1 x = w x) (j : S512x128.Idx) (i : S4096x128.Idx) (hi0 : (i 0).val = 512 * t + (j 0).val) (hi1 : (i 1).val = (j 1).val) :
    k0_pay1 x0 x1 j = Y1of h0 w i := by
  obtain ⟨p, q, rfl⟩ : ∃ (p : Fin 512) (q : Fin 128), j = ix2 p q := ⟨j 0, j 1, eq_ix2 j⟩
  have hq : q = i 1 := Fin.ext hi1.symm
  rw [pay0_apply]
  show _ = ∑ k : Fin 256, h0 (ix2 (i 0) k) * w (ix2 k (i 1))
  refine Finset.sum_congr rfl fun k _ => ?_
  rw [hx0 (ix2 p k) (ix2 (i 0) k) hi0 rfl, hx1, hq]

/-- What point t writes back is block t of the product array. -/
theorem flushed0_eq (c : Dev nD) (t : Fin cfg0.N) :
    (data0 (F := Ideal) V c).flushed 2 t = ((cfg0.win 2).blk t).view.read (Elt Ideal) (Y1of (V c main_arg1) (V c main_v0)) := by
  show (cfg0.win 2).cut (grid0.coords t) ((data0 V c).after 2 t) = _
  rw [data0_after_2]
  unfold prod0
  rw [View.canon_unit_zero zeros0]
  simp only [View.ld_unit_zero (S := S512x256) zeros0, View.ld_unit_zero (S := S256x128) zeros0]
  obtain ⟨-, -, -, -, e0, e1⟩ := idx0 t
  funext j
  show k0_pay1 (blk0 V c 0 t) (blk0 V c 1 t) j = Y1of (V c main_arg1) (V c main_v0) (((cfg0.win 2).blk t).view.emb j)
  refine point0 _ _ t.val _ _ (fun x k h0 h1 => blk0_0_apply V c t x k h0 h1) (fun x => blk0_1_apply V c t x) j _ ?_ ?_
  · show win0_2.index t (0 : Fin 2) * 512 + 1 * (j 0).val = _; rw [e0]; omega
  · show win0_2.index t (1 : Fin 2) * 128 + 1 * (j 1).val = _; rw [e1]; omega

/-- An index of the output array is in point t's block iff each coordinate is in the block's range on its axis. -/
theorem mem_blk0 (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v2).slice (win0_2.rect t)).set ↔ _
  rw [View.set_slice_whole, Rect.mem_set_unit]
  exact Iff.rfl

/-- Row r of the output is in the block of point r / 512. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 8 := rfl
  let t : Fin cfg0.N := ⟨(i 0).val / 512, by omega⟩
  obtain ⟨-, -, -, -, e0, e1⟩ := idx0 t
  have ht : t.val = (i 0).val / 512 := rfl
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 128 ≤ (i 1).val ∧ (i 1).val < win0_2.index t (1 : Fin 2) * 128 + 128; rw [e1]; omega

/-- The output array when the region is over: the product of the two input arrays. -/
theorem final0 (c : Dev nD) : (data0 (F := Ideal) V c).arrAt 2 cfg0.N
    = arr (feat (mat (V c main_arg1 : S4096x256.Idx → EReal)) (mat (V c main_v0 : S256x128.Idx → EReal))) :=
  (data0 (F := Ideal) V c).arrAt_eq_of_cover 2 (Y1of (V c main_arg1) (V c main_v0)) (fun t _ => flushed0_eq V c t) (cover0)

end Cert.ReferenceIdeal.Hand

end
-- ==== Proof.RIVal2.lean ====
/-
  Region 2 of the program, read as a VALUE over the extended reals: after the region the result array holds
  H2 = A · Y2 + b2 of the arrays as the region finds them. The body's three values (the zero block, one accumulation
  step, the bias on top) are read at an index — a matrix product into the zero accumulator is the plain sum over the
  contracted index —; the blocks the windows read are entries of the arrays at row `512 (t / 4) + p` and column
  `1024 (t % 4) + l`; so at the last point of a row of four the running value is, from zero, the four partial sums
  over the four stretches of 1024 contracted indices added in order, which is the full sum over 4096; and the eight
  blocks written back at those points tile the result array.
-/
import proofs.«170631_g2000106516245658_pallasbulk_929_4_alg».proof.Proof.RIReg2
import proofs.«170631_g2000106516245658_pallasbulk_929_4_alg».proof.Proof.Spec
import Idealize.ShloMosaic.PureOps.Ideal.Laws
import Idealize.ShloMosaic.Lib.ValueLayout
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Spec Idealize.ShloMosaic.ValueIdx

/-! ## The body's values at an index, over the extended reals -/

/-- The 512×1024 by 1024×128 product into the zero accumulator, at row `p` and column `q`: the sum over the 1024
    contracted columns. -/
theorem mm_block_apply (x0 : FVec Ideal S512x1024 .f32) (x1 : FVec Ideal S1024x128 .f32) (p : Fin 512) (q : Fin 128) :
    matmul dot_S512x1024_S1024x128_S512x128_1_0_0_1_n_n none x0 x1 (constant (F := Ideal) S512x128 .f32 0x00000000#32) (ix2 p q)
      = ∑ l : Fin 1024, x0 (ix2 p l) * x1 (ix2 l q) := by
  show FloatOps.matmul _ none x0 x1 _ (ix2 p q) = _
  rw [Ideal.matmul_constant_zero_apply,
    ← Equiv.sum_comp (contrEquiv1 dot_S512x1024_S1024x128_S512x128_1_0_0_1_n_n 1024 rfl rfl).symm]
  refine Finset.sum_congr rfl fun l _ => ?_
  have c2 := contrEquiv1_symm_val dot_S512x1024_S1024x128_S512x128_1_0_0_1_n_n 1024 rfl rfl l
  have l2 : dot_S512x1024_S1024x128_S512x128_1_0_0_1_n_n.lhsIdx (ix2 p q) ((contrEquiv1 _ 1024 rfl rfl).symm l) = ix2 p l := by
    funext ax; apply Fin.ext
    match ax with
    | ⟨0, _⟩ => simp [DotDims.lhsIdx, dot_S512x1024_S1024x128_S512x128_1_0_0_1_n_n]; rfl
    | ⟨1, _⟩ => simp [DotDims.lhsIdx, dot_S512x1024_S1024x128_S512x128_1_0_0_1_n_n]; exact c2
  have r2 : dot_S512x1024_S1024x128_S512x128_1_0_0_1_n_n.rhsIdx (ix2 p q) ((contrEquiv1 _ 1024 rfl rfl).symm l) = ix2 l q := by
    funext ax; apply Fin.ext
    match ax with
    | ⟨0, _⟩ => simp [DotDims.rhsIdx, dot_S512x1024_S1024x128_S512x128_1_0_0_1_n_n]; exact c2
    | ⟨1, _⟩ => simp [DotDims.rhsIdx, dot_S512x1024_S1024x128_S512x128_1_0_0_1_n_n]; rfl
  rw [l2, r2]

/-- The zero block is zero everywhere. -/
theorem zero2_apply (j : S512x128.Idx) : zero2 (F := Ideal) j = 0 := by
  show Ideal.ofBits .f32 0x00000000#32 = 0
  exact Ideal.ofBits_zero_f32

/-- One accumulation step at an index: the accumulator there plus the sum over the block's 1024 columns. -/
theorem step2_apply (x0 : FVec Ideal S512x1024 .f32) (x1 : FVec Ideal S1024x128 .f32) (a : FVec Ideal S512x128 .f32)
    (p : Fin 512) (q : Fin 128) :
    step2 (F := Ideal) x0 x1 a (ix2 p q) = a (ix2 p q) + ∑ l : Fin 1024, x0 (ix2 p l) * x1 (ix2 l q) := by
  show addf (shapeCast S512x128 a shapeCasts_S512x128_S512x128)
      (matmul dot_S512x1024_S1024x128_S512x128_1_0_0_1_n_n none x0 (shapeCast S1024x128 x1 shapeCasts_S1024x128_S1024x128)
        (constant S512x128 .f32 0x00000000#32)) (ix2 p q) = _
  rw [shapeCast_self, shapeCast_self]
  exact congrArg (a (ix2 p q) + ·) (mm_block_apply x0 x1 p q)

/-- The last step at an index: the accumulator there plus the bias row's entry of the column. -/
theorem fin2_apply (a : FVec Ideal S512x128 .f32) (b : FVec Ideal S1x128 .f32) (p : Fin 512) (q : Fin 128) :
    fin2 (F := Ideal) a b (ix2 p q) = a (ix2 p q) + b (ix2 (0 : Fin 1) q) := by
  show addf (shapeCast S512x128 a shapeCasts_S512x128_S512x128) (broadcastTo S512x128 b broadcasts_S1x128_S512x128) (ix2 p q) = _
  rw [shapeCast_self]
  exact congrArg (a (ix2 p q) + ·) (broadcastTo_1b_ab_apply b broadcasts_S1x128_S512x128 p q)

/-! ## The blocks the windows read, as entries of the arrays -/

variable (V : (c : Dev nD) → (b : Ref sig .tc) → Buf (Elt Ideal) ((c : Thread nD τ).loc b))

/-- The printed index maps over the grid: point `t` is row block `t / 4`, column block `t % 4`. -/
theorem idx2_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- The block of A at point `t`, at `(p, l)`: A at row `512 (t / 4) + p`, column `1024 (t % 4) + l`. -/
theorem blk2_0_apply (c : Dev nD) (t : Fin cfg2.N) (p : Fin 512) (l : Fin 1024) (r s : Fin 4096)
    (hr : r.val = 512 * (t.val / 4) + p.val) (hs : s.val = 1024 * (t.val % 4) + l.val) :
    (blk2 V c 0 t : FVec Ideal S512x1024 .f32) (ix2 p l) = (V c main_arg0 : S4096x4096.Idx → EReal) (ix2 r s) := by
  obtain ⟨e0, e1, -⟩ := idx2_facts t
  unfold blk2
  rw [View.read_apply]
  show V c main_arg0 _ = V c main_arg0 _
  refine congrArg _ (funext fun a => Fin.ext ?_)
  match a with
  | ⟨0, _⟩ => show win2_0.index t (0 : Fin 2) * 512 + 1 * p.val = r.val; rw [e0, hr]; omega
  | ⟨1, _⟩ => show win2_0.index t (1 : Fin 2) * 1024 + 1 * l.val = s.val; rw [e1, hs]; omega

/-- The block of Y2 at point `t`, at `(l, q)`: Y2 at row `1024 (t % 4) + l`, column `q`. -/
theorem blk2_1_apply (c : Dev nD) (t : Fin cfg2.N) (l : Fin 1024) (q : Fin 128) (s : Fin 4096)
    (hs : s.val = 1024 * (t.val % 4) + l.val) :
    (blk2 V c 1 t : FVec Ideal S1024x128 .f32) (ix2 l q) = (V c main_v3 : S4096x128.Idx → EReal) (ix2 s q) := by
  obtain ⟨-, -, e0, e1, -⟩ := idx2_facts t
  unfold blk2
  rw [View.read_apply]
  show V c main_v3 _ = V c main_v3 _
  refine congrArg _ (funext fun a => Fin.ext ?_)
  match a with
  | ⟨0, _⟩ => show win2_1.index t (0 : Fin 2) * 1024 + 1 * l.val = s.val; rw [e0, hs]; omega
  | ⟨1, _⟩ => show win2_1.index t (1 : Fin 2) * 128 + 1 * q.val = q.val; rw [e1]; omega

/-- The bias window's block is the bias row, at every point. -/
theorem blk2_2_apply (c : Dev nD) (t : Fin cfg2.N) (q : Fin 128) :
    (blk2 V c 2 t : FVec Ideal S1x128 .f32) (ix2 (0 : Fin 1) q) = (V c main_arg5 : S1x128.Idx → EReal) (ix2 (0 : Fin 1) q) := by
  obtain ⟨-, -, -, -, e0, e1, -⟩ := idx2_facts t
  unfold blk2
  rw [View.read_apply]
  show V c main_arg5 _ = V c main_arg5 _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-! ## The output block at the end of a row of four points -/

/-- After the last point of row `i` the output's staging buffer — which the pipeline then writes back as block `i` of
    the result — holds the four steps over the row's input blocks, in order, from the zero block, and the bias on top. -/
theorem acc2_row (c : Dev nD) (i : ℕ) (h3 : 4 * i + 3 < cfg2.N) :
    acc2 V c (4 * i + 3) h3
      = fin2 (step2 (blk2 V c 0 ⟨4 * i + 3, h3⟩) (blk2 V c 1 ⟨4 * i + 3, h3⟩)
          (step2 (blk2 V c 0 ⟨4 * i + 2, by omega⟩) (blk2 V c 1 ⟨4 * i + 2, by omega⟩)
            (step2 (blk2 V c 0 ⟨4 * i + 1, by omega⟩) (blk2 V c 1 ⟨4 * i + 1, by omega⟩)
              (step2 (blk2 V c 0 ⟨4 * i, by omega⟩) (blk2 V c 1 ⟨4 * i, by omega⟩) zero2))))
          (blk2 V c 2 ⟨4 * i + 3, h3⟩) := by
  have e0 := acc2_A V c ⟨4 * i, by omega⟩ (by dsimp only; omega)
  have e1 := acc2_B V c ⟨4 * i + 1, by omega⟩ (by dsimp only; omega) (by dsimp only; omega)
  have e2 := acc2_B V c ⟨4 * i + 2, by omega⟩ (by dsimp only; omega) (by dsimp only; omega)
  have e3 := acc2_C V c ⟨4 * i + 3, h3⟩ (by dsimp only; omega) (by dsimp only; omega)
  exact e3.trans (congrArg (fun a => fin2 (step2 (blk2 V c 0 ⟨4 * i + 3, h3⟩) (blk2 V c 1 ⟨4 * i + 3, h3⟩) a) (blk2 V c 2 ⟨4 * i + 3, h3⟩))
    (e2.trans (congrArg (fun a => step2 (blk2 V c 0 ⟨4 * i + 2, by omega⟩) (blk2 V c 1 ⟨4 * i + 2, by omega⟩) a)
      (e1.trans (congrArg (fun a => step2 (blk2 V c 0 ⟨4 * i + 1, by omega⟩) (blk2 V c 1 ⟨4 * i + 1, by omega⟩) a) e0)))))

/-- The same at an index, over abstract blocks: from zero, the four blocks' sums added in order, then the bias. -/
theorem row2_value (x00 x01 x02 x03 : FVec Ideal S512x1024 .f32) (x10 x11 x12 x13 : FVec Ideal S1024x128 .f32)
    (b : FVec Ideal S1x128 .f32) (p : Fin 512) (q : Fin 128) :
    fin2 (F := Ideal) (step2 x03 x13 (step2 x02 x12 (step2 x01 x11 (step2 x00 x10 zero2)))) b (ix2 p q)
      = ((((0 + ∑ l : Fin 1024, x00 (ix2 p l) * x10 (ix2 l q)) + ∑ l : Fin 1024, x01 (ix2 p l) * x11 (ix2 l q))
          + ∑ l : Fin 1024, x02 (ix2 p l) * x12 (ix2 l q)) + ∑ l : Fin 1024, x03 (ix2 p l) * x13 (ix2 l q))
        + b (ix2 (0 : Fin 1) q) := by
  rw [fin2_apply, step2_apply, step2_apply, step2_apply, step2_apply, zero2_apply]

/-- The region's arrays as it finds them, as plain arrays of extended reals: A, Y2 and the bias row; and the two input
    blocks at a point as plain blocks. -/
abbrev arrA2 (c : Dev nD) : S4096x4096.Idx → EReal := V c main_arg0
abbrev arrY2 (c : Dev nD) : S4096x128.Idx → EReal := V c main_v3
abbrev arrB2 (c : Dev nD) : S1x128.Idx → EReal := V c main_arg5
abbrev bA2 (c : Dev nD) (t : Fin cfg2.N) : FVec Ideal S512x1024 .f32 := blk2 V c 0 t
abbrev bY2 (c : Dev nD) (t : Fin cfg2.N) : FVec Ideal S1024x128 .f32 := blk2 V c 1 t

/-- The sum over the columns of the `k`-th block pair of row block `i` is the sum of A's row times Y2's column over the
    `k`-th stretch of 1024 contracted indices. -/
theorem block2_sum (c : Dev nD) (i k : ℕ) (h : 4 * i + k < cfg2.N) (hk : k < 4) (p : Fin 512) (q : Fin 128) (r : Fin 4096)
    (hr : r.val = 512 * i + p.val) (s : Fin 1024 → Fin 4096) (hs : ∀ l, (s l).val = 1024 * k + l.val) :
    (∑ l : Fin 1024, bA2 V c ⟨4 * i + k, h⟩ (ix2 p l) * bY2 V c ⟨4 * i + k, h⟩ (ix2 l q))
      = ∑ l : Fin 1024, arrA2 V c (ix2 r (s l)) * arrY2 V c (ix2 (s l) q) := by
  refine Finset.sum_congr rfl fun l _ => ?_
  refine congrArg₂ (· * ·) ?_ ?_
  · exact blk2_0_apply V c ⟨4 * i + k, h⟩ p l r (s l) (by show r.val = 512 * ((4 * i + k) / 4) + p.val; omega)
      (by show (s l).val = 1024 * ((4 * i + k) % 4) + l.val; rw [hs l]; omega)
  · exact blk2_1_apply V c ⟨4 * i + k, h⟩ l q (s l) (by show (s l).val = 1024 * ((4 * i + k) % 4) + l.val; rw [hs l]; omega)

/-- What the region computes, as contents of the result array: H2 = A · Y2 + b2 of the arrays as the region finds them. -/
def G2 (c : Dev nD) : S4096x128.Idx → EReal :=
  arr (lat (mat (V c main_arg0 : S4096x4096.Idx → EReal)) (mat (V c main_v3 : S4096x128.Idx → EReal))
    (fun k => (V c main_arg5 : S1x128.Idx → EReal) (ix2 (0 : Fin 1) k)))

/-- After the last point of row block `i` the output's staging buffer holds block `i` of H2: the four partial sums
    join into the full contraction. -/
theorem acc2_row_apply (c : Dev nD) (i : ℕ) (h3 : 4 * i + 3 < cfg2.N) (p : Fin 512) (q : Fin 128) (r : Fin 4096)
    (hr : r.val = 512 * i + p.val) :
    acc2 V c (4 * i + 3) h3 (ix2 p q) = G2 V c (ix2 r q) := by
  have hN : cfg2.N = 32 := N_2
  rw [acc2_row V c i h3]
  refine (row2_value (blk2 V c 0 ⟨4 * i, by omega⟩) (blk2 V c 0 ⟨4 * i + 1, by omega⟩) (blk2 V c 0 ⟨4 * i + 2, by omega⟩) (blk2 V c 0 ⟨4 * i + 3, h3⟩)
    (blk2 V c 1 ⟨4 * i, by omega⟩) (blk2 V c 1 ⟨4 * i + 1, by omega⟩) (blk2 V c 1 ⟨4 * i + 2, by omega⟩) (blk2 V c 1 ⟨4 * i + 3, h3⟩)
    (blk2 V c 2 ⟨4 * i + 3, h3⟩) p q).trans ?_
  show _ = (∑ l' : Fin 4096, arrA2 V c (ix2 r l') * arrY2 V c (ix2 l' q)) + arrB2 V c (ix2 (0 : Fin 1) q)
  rw [sum_four_blocks (fun l' : Fin 4096 => arrA2 V c (ix2 r l') * arrY2 V c (ix2 l' q))]
  refine congrArg₂ (· + ·) (congrArg₂ (· + ·) (congrArg₂ (· + ·) (congrArg₂ (· + ·) (congrArg₂ (· + ·) rfl ?_) ?_) ?_) ?_) ?_
  · exact block2_sum V c i 0 (by omega) (by omega) p q r hr (fun l => ⟨l.val, by omega⟩) (fun l => by show l.val = 1024 * 0 + l.val; omega)
  · exact block2_sum V c i 1 (by omega) (by omega) p q r hr (fun l => ⟨1024 + l.val, by omega⟩) (fun l => by show 1024 + l.val = 1024 * 1 + l.val; omega)
  · exact block2_sum V c i 2 (by omega) (by omega) p q r hr (fun l => ⟨2048 + l.val, by omega⟩) (fun l => by show 2048 + l.val = 1024 * 2 + l.val; omega)
  · exact block2_sum V c i 3 h3 (by omega) p q r hr (fun l => ⟨3072 + l.val, by omega⟩) (fun l => by show 3072 + l.val = 1024 * 3 + l.val; omega)
  · exact blk2_2_apply V c ⟨4 * i + 3, h3⟩ q

/-! ## From the blocks to the array -/

/-- What the last point of a row writes back is its block of H2. -/
theorem flushed2_eq (c : Dev nD) (t : Fin cfg2.N) (hf : (cfg2.win 3).flush t = true) :
    (data2 (F := Ideal) V c).flushed 3 t = ((cfg2.win 3).blk t).view.read (Elt Ideal) (G2 V c) := by
  have h3 : t.val % 4 = 3 := (flush2_3 t).mp hf
  have hN : t.val < 32 := lt_of_lt_of_eq t.isLt (show cfg2.N = 32 from N_2)
  show (cfg2.win 3).cut (grid2.coords t) ((data2 V c).after 3 t) = _
  rw [data2_after_3]
  obtain ⟨i, hi⟩ : ∃ i, t.val = 4 * i + 3 := ⟨t.val / 4, by omega⟩
  obtain ⟨n, hn⟩ := t
  dsimp only at hi h3 hN
  subst hi
  funext j
  obtain ⟨p, q, rfl⟩ : ∃ (p : Fin 512) (q : Fin 128), j = ix2 p q := ⟨j 0, j 1, eq_ix2 j⟩
  rw [View.read_apply]
  obtain ⟨-, -, -, -, -, -, e0, e1⟩ := idx2_facts ⟨4 * i + 3, hn⟩
  have e : ((cfg2.win 3).blk ⟨4 * i + 3, hn⟩).view.emb (ix2 p q) = (ix2 (⟨512 * i + p.val, by omega⟩ : Fin 4096) q : S4096x128.Idx) := by
    funext a; apply Fin.ext
    match a with
    | ⟨0, _⟩ => show win2_3.index ⟨4 * i + 3, hn⟩ (0 : Fin 2) * 512 + 1 * p.val = 512 * i + p.val; rw [e0]; show (4 * i + 3) / 4 * 512 + 1 * p.val = _; omega
    | ⟨1, _⟩ => show win2_3.index ⟨4 * i + 3, hn⟩ (1 : Fin 2) * 128 + 1 * q.val = q.val; rw [e1]; omega
  show acc2 V c (4 * i + 3) hn (ix2 p q) = G2 V c (((cfg2.win 3).blk ⟨4 * i + 3, hn⟩).view.emb (ix2 p q))
  rw [e]
  exact acc2_row_apply V c i hn p q _ rfl

/-- An index of the result array is in point `t`'s block iff each coordinate is in the block's range on its axis. -/
theorem mem_blk2_3 (t : Fin cfg2.N) (j : S4096x128.Idx) :
    j ∈ ((cfg2.win 3).blk t).view.set ↔ ∀ a : Fin 2, win2_3.index t a * S512x128.size a ≤ (j a).val ∧ (j a).val < win2_3.index t a * S512x128.size a + S512x128.size a := by
  show j ∈ ((View.whole main_v4).slice (win2_3.rect t)).set ↔ _
  rw [View.set_slice_whole, Rect.mem_set_unit]
  exact Iff.rfl

/-- Every row of the result is in the block some row's last point writes back: row `r` in that of point `4 (r / 512) + 3`. -/
theorem covered2 (j : S4096x128.Idx) : ∃ t : Fin cfg2.N, (cfg2.win 3).flush t = true ∧ j ∈ ((cfg2.win 3).blk t).view.set := by
  have h0 : (j 0).val < 4096 := idx2_lt0 j
  have h1 : (j 1).val < 128 := idx2_lt1 j
  have hN : cfg2.N = 32 := N_2
  refine ⟨⟨4 * ((j 0).val / 512) + 3, by omega⟩, (flush2_3 _).mpr (by dsimp only; omega), ?_⟩
  rw [mem_blk2_3]
  obtain ⟨-, -, -, -, -, -, e0, e1⟩ := idx2_facts ⟨4 * ((j 0).val / 512) + 3, by omega⟩
  intro a
  match a with
  | ⟨0, _⟩ =>
    show win2_3.index _ (0 : Fin 2) * 512 ≤ (j 0).val ∧ (j 0).val < win2_3.index _ (0 : Fin 2) * 512 + 512
    rw [e0]; show (4 * ((j 0).val / 512) + 3) / 4 * 512 ≤ (j 0).val ∧ (j 0).val < (4 * ((j 0).val / 512) + 3) / 4 * 512 + 512; omega
  | ⟨1, _⟩ =>
    show win2_3.index _ (1 : Fin 2) * 128 ≤ (j 1).val ∧ (j 1).val < win2_3.index _ (1 : Fin 2) * 128 + 128
    rw [e1]; omega

/-- THE RESULT ARRAY after the region: H2 = A · Y2 + b2 of the arrays as the region finds them. -/
theorem final2 (c : Dev nD) : (data2 (F := Ideal) V c).arrAt 3 cfg2.N
    = arr (lat (mat (V c main_arg0 : S4096x4096.Idx → EReal)) (mat (V c main_v3 : S4096x128.Idx → EReal))
        (fun k => (V c main_arg5 : S1x128.Idx → EReal) (ix2 (0 : Fin 1) k))) :=
  (data2 (F := Ideal) V c).arrAt_eq_of_cover 3 (G2 V c) (fun t hf => flushed2_eq V c t hf) covered2

end Cert.ReferenceIdeal.Hand

end
-- ==== Proof.RIVal1.lean ====
/-
  Region 1 of the program, read as a VALUE over the extended reals: after the region the result array holds
  Y2 = relu(A · Y1 + b1) · W2ᵀ of the arrays as the region finds them. The body's values (the zero block, one
  accumulation step of the scratch, the epilogue) are read at an index — each matrix product into the zero accumulator
  is the plain sum over the contracted index —; the blocks the windows read are entries of the arrays at row
  `512 (t / 4) + p` and column `1024 (t % 4) + l`; so at the last point of a row of four the scratch holds, from zero,
  the four partial sums over the four stretches of 1024 contracted indices added in order, which is the full sum over
  4096, the epilogue turns it into the row block of Y2, and the eight blocks written back at those points tile the
  result array.
-/
import proofs.«170631_g2000106516245658_pallasbulk_929_4_alg».proof.Proof.RIReg1
import proofs.«170631_g2000106516245658_pallasbulk_929_4_alg».proof.Proof.RIVal2
import proofs.«170631_g2000106516245658_pallasbulk_929_4_alg».proof.Proof.Spec
import Idealize.ShloMosaic.PureOps.Ideal.Laws
import Idealize.ShloMosaic.Lib.ValueLayout
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Spec Idealize.ShloMosaic.ValueIdx

/-! ## The body's values at an index, over the extended reals -/

/-- The 512×128 by 128×128 product into the zero accumulator, at row `p` and column `q`: the sum over the 128
    contracted columns. -/
theorem mm_w_apply (x : FVec Ideal S512x128 .f32) (w : FVec Ideal S128x128 .f32) (p : Fin 512) (q : Fin 128) :
    matmul dot_S512x128_S128x128_S512x128_1_0_0_1_n_n none x w (constant (F := Ideal) S512x128 .f32 0x00000000#32) (ix2 p q)
      = ∑ k : Fin 128, x (ix2 p k) * w (ix2 k q) := by
  show FloatOps.matmul _ none x w _ (ix2 p q) = _
  rw [Ideal.matmul_constant_zero_apply,
    ← Equiv.sum_comp (contrEquiv1 dot_S512x128_S128x128_S512x128_1_0_0_1_n_n 128 rfl rfl).symm]
  refine Finset.sum_congr rfl fun k _ => ?_
  have c2 := contrEquiv1_symm_val dot_S512x128_S128x128_S512x128_1_0_0_1_n_n 128 rfl rfl k
  have l2 : dot_S512x128_S128x128_S512x128_1_0_0_1_n_n.lhsIdx (ix2 p q) ((contrEquiv1 _ 128 rfl rfl).symm k) = ix2 p k := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact c2
  have r2 : dot_S512x128_S128x128_S512x128_1_0_0_1_n_n.rhsIdx (ix2 p q) ((contrEquiv1 _ 128 rfl rfl).symm k) = ix2 k q := by
    funext ax; apply Fin.ext
    match ax with
    | ⟨0, _⟩ => simp [DotDims.rhsIdx, dot_S512x128_S128x128_S512x128_1_0_0_1_n_n]; exact c2
    | ⟨1, _⟩ => simp [DotDims.rhsIdx, dot_S512x128_S128x128_S512x128_1_0_0_1_n_n]; rfl
  rw [l2, r2]

/-- The zero block is zero everywhere. -/
theorem zero1_apply (j : S512x128.Idx) : zero1 (F := Ideal) j = 0 := by
  show shapeCast S512x128 (broadcast S512x128 (Ideal.ofBits .f32 0x00000000#32)) shapeCasts_S512x128_S512x128 j = 0
  rw [shapeCast_self]
  exact Ideal.ofBits_zero_f32

/-- One accumulation step at an index: the scratch there plus the sum over the block's 1024 columns. -/
theorem step1_apply (x0 : FVec Ideal S512x1024 .f32) (x1 : FVec Ideal S1024x128 .f32) (a : FVec Ideal S512x128 .f32)
    (p : Fin 512) (q : Fin 128) :
    step1 (F := Ideal) x0 x1 a (ix2 p q) = a (ix2 p q) + ∑ l : Fin 1024, x0 (ix2 p l) * x1 (ix2 l q) := by
  show shapeCast S512x128 (addf a
      (matmul dot_S512x1024_S1024x128_S512x128_1_0_0_1_n_n none x0 (shapeCast S1024x128 x1 shapeCasts_S1024x128_S1024x128)
        (constant S512x128 .f32 0x00000000#32))) shapeCasts_S512x128_S512x128 (ix2 p q) = _
  rw [shapeCast_self, shapeCast_self]
  exact congrArg (a (ix2 p q) + ·) (mm_block_apply x0 x1 p q)

/-- The epilogue at an index: over the 128 hidden columns, the activation of the scratch plus the bias, times the weight. -/
theorem fin1_apply (a : FVec Ideal S512x128 .f32) (b : FVec Ideal S1x128 .f32) (w : FVec Ideal S128x128 .f32)
    (p : Fin 512) (q : Fin 128) :
    fin1 (F := Ideal) a b w (ix2 p q) = ∑ k : Fin 128, relu (a (ix2 p k) + b (ix2 (0 : Fin 1) k)) * w (ix2 k q) := by
  show matmul dot_S512x128_S128x128_S512x128_1_0_0_1_n_n none
      (maximumf (addf a (broadcastTo S512x128 b broadcasts_S1x128_S512x128)) (broadcast S512x128 (Ideal.ofBits .f32 0x00000000#32)))
      (shapeCast S128x128 w shapeCasts_S128x128_S128x128) (constant S512x128 .f32 0x00000000#32) (ix2 p q) = _
  rw [shapeCast_self, mm_w_apply]
  refine Finset.sum_congr rfl fun k _ => ?_
  refine congrArg (· * w (ix2 k q)) ?_
  show max (a (ix2 p k) + broadcastTo S512x128 b broadcasts_S1x128_S512x128 (ix2 p k)) (Ideal.ofBits .f32 0x00000000#32) = relu _
  rw [broadcastTo_1b_ab_apply b broadcasts_S1x128_S512x128 p k]
  rfl

/-! ## The blocks the windows read, as entries of the arrays -/

variable (V : (c : Dev nD) → (b : Ref sig .tc) → Buf (Elt Ideal) ((c : Thread nD τ).loc b))

/-- The printed index maps over the grid: point `t` is row block `t / 4`, column block `t % 4`. -/
theorem idx1_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The block of A at point `t`, at `(p, l)`: A at row `512 (t / 4) + p`, column `1024 (t % 4) + l`. -/
theorem blk1_0_apply (c : Dev nD) (t : Fin cfg1.N) (p : Fin 512) (l : Fin 1024) (r s : Fin 4096)
    (hr : r.val = 512 * (t.val / 4) + p.val) (hs : s.val = 1024 * (t.val % 4) + l.val) :
    (blk1 V c 0 t : FVec Ideal S512x1024 .f32) (ix2 p l) = (V c main_arg0 : S4096x4096.Idx → EReal) (ix2 r s) := by
  obtain ⟨e0, e1, -⟩ := idx1_facts t
  unfold blk1
  rw [View.read_apply]
  show V c main_arg0 _ = V c main_arg0 _
  refine congrArg _ (funext fun a => Fin.ext ?_)
  match a with
  | ⟨0, _⟩ => show win1_0.index t (0 : Fin 2) * 512 + 1 * p.val = r.val; rw [e0, hr]; omega
  | ⟨1, _⟩ => show win1_0.index t (1 : Fin 2) * 1024 + 1 * l.val = s.val; rw [e1, hs]; omega

/-- The block of Y1 at point `t`, at `(l, q)`: Y1 at row `1024 (t % 4) + l`, column `q`. -/
theorem blk1_1_apply (c : Dev nD) (t : Fin cfg1.N) (l : Fin 1024) (q : Fin 128) (s : Fin 4096)
    (hs : s.val = 1024 * (t.val % 4) + l.val) :
    (blk1 V c 1 t : FVec Ideal S1024x128 .f32) (ix2 l q) = (V c main_v2 : S4096x128.Idx → EReal) (ix2 s q) := by
  obtain ⟨-, -, e0, e1, -⟩ := idx1_facts t
  unfold blk1
  rw [View.read_apply]
  show V c main_v2 _ = V c main_v2 _
  refine congrArg _ (funext fun a => Fin.ext ?_)
  match a with
  | ⟨0, _⟩ => show win1_1.index t (0 : Fin 2) * 1024 + 1 * l.val = s.val; rw [e0, hs]; omega
  | ⟨1, _⟩ => show win1_1.index t (1 : Fin 2) * 128 + 1 * q.val = q.val; rw [e1]; omega

/-- The bias window's block is the bias row, at every point. -/
theorem blk1_2_apply (c : Dev nD) (t : Fin cfg1.N) (q : Fin 128) :
    (blk1 V c 2 t : FVec Ideal S1x128 .f32) (ix2 (0 : Fin 1) q) = (V c main_arg3 : S1x128.Idx → EReal) (ix2 (0 : Fin 1) q) := by
  obtain ⟨-, -, -, -, e0, e1, -⟩ := idx1_facts t
  unfold blk1
  rw [View.read_apply]
  show V c main_arg3 _ = V c main_arg3 _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- The weight window's block is the whole transposed weight, at every point. -/
theorem blk1_3_apply (c : Dev nD) (t : Fin cfg1.N) (k q : Fin 128) :
    (blk1 V c 3 t : FVec Ideal S128x128 .f32) (ix2 k q) = (V c main_v1 : S128x128.Idx → EReal) (ix2 k q) := by
  obtain ⟨-, -, -, -, -, -, e0, e1, -⟩ := idx1_facts t
  unfold blk1
  rw [View.read_apply]
  show V c main_v1 _ = V c main_v1 _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-! ## The scratch at the end of a row of four points -/

/-- After the last point of row `i` the scratch holds the four steps over the row's input blocks, in order, from the
    zero block. -/
theorem sacc1_row (c : Dev nD) (i : ℕ) (h3 : 4 * i + 3 < cfg1.N) :
    sacc1 V c (4 * i + 3) h3
      = step1 (blk1 V c 0 ⟨4 * i + 3, h3⟩) (blk1 V c 1 ⟨4 * i + 3, h3⟩)
          (step1 (blk1 V c 0 ⟨4 * i + 2, by omega⟩) (blk1 V c 1 ⟨4 * i + 2, by omega⟩)
            (step1 (blk1 V c 0 ⟨4 * i + 1, by omega⟩) (blk1 V c 1 ⟨4 * i + 1, by omega⟩)
              (step1 (blk1 V c 0 ⟨4 * i, by omega⟩) (blk1 V c 1 ⟨4 * i, by omega⟩) zero1))) := by
  have e0 := sacc1_A V c ⟨4 * i, by omega⟩ (by dsimp only; omega)
  have e1 := sacc1_B V c ⟨4 * i + 1, by omega⟩ (by dsimp only; omega)
  have e2 := sacc1_B V c ⟨4 * i + 2, by omega⟩ (by dsimp only; omega)
  have e3 := sacc1_B V c ⟨4 * i + 3, h3⟩ (by dsimp only; omega)
  exact e3.trans (congrArg (fun a => step1 (blk1 V c 0 ⟨4 * i + 3, h3⟩) (blk1 V c 1 ⟨4 * i + 3, h3⟩) a)
    (e2.trans (congrArg (fun a => step1 (blk1 V c 0 ⟨4 * i + 2, by omega⟩) (blk1 V c 1 ⟨4 * i + 2, by omega⟩) a)
      (e1.trans (congrArg (fun a => step1 (blk1 V c 0 ⟨4 * i + 1, by omega⟩) (blk1 V c 1 ⟨4 * i + 1, by omega⟩) a) e0)))))

/-- The same at an index, over abstract blocks: from zero, the four blocks' sums added in order. -/
theorem row1_value (x00 x01 x02 x03 : FVec Ideal S512x1024 .f32) (x10 x11 x12 x13 : FVec Ideal S1024x128 .f32)
    (p : Fin 512) (q : Fin 128) :
    step1 (F := Ideal) x03 x13 (step1 x02 x12 (step1 x01 x11 (step1 x00 x10 zero1))) (ix2 p q)
      = (((0 + ∑ l : Fin 1024, x00 (ix2 p l) * x10 (ix2 l q)) + ∑ l : Fin 1024, x01 (ix2 p l) * x11 (ix2 l q))
          + ∑ l : Fin 1024, x02 (ix2 p l) * x12 (ix2 l q)) + ∑ l : Fin 1024, x03 (ix2 p l) * x13 (ix2 l q) := by
  rw [step1_apply, step1_apply, step1_apply, step1_apply, zero1_apply]

/-- The region's arrays as it finds them, as plain arrays of extended reals: A, Y1, the bias row and the transposed
    second weight; and the two input blocks at a point as plain blocks. -/
abbrev arrA1 (c : Dev nD) : S4096x4096.Idx → EReal := V c main_arg0
abbrev arrY1 (c : Dev nD) : S4096x128.Idx → EReal := V c main_v2
abbrev arrB1 (c : Dev nD) : S1x128.Idx → EReal := V c main_arg3
abbrev arrW1 (c : Dev nD) : S128x128.Idx → EReal := V c main_v1
abbrev bA1 (c : Dev nD) (t : Fin cfg1.N) : FVec Ideal S512x1024 .f32 := blk1 V c 0 t
abbrev bY1 (c : Dev nD) (t : Fin cfg1.N) : FVec Ideal S1024x128 .f32 := blk1 V c 1 t

/-- The sum over the columns of the `k`-th block pair of row block `i` is the sum of A's row times Y1's column over the
    `k`-th stretch of 1024 contracted indices. -/
theorem block1_sum (c : Dev nD) (i k : ℕ) (h : 4 * i + k < cfg1.N) (hk : k < 4) (p : Fin 512) (q : Fin 128) (r : Fin 4096)
    (hr : r.val = 512 * i + p.val) (s : Fin 1024 → Fin 4096) (hs : ∀ l, (s l).val = 1024 * k + l.val) :
    (∑ l : Fin 1024, bA1 V c ⟨4 * i + k, h⟩ (ix2 p l) * bY1 V c ⟨4 * i + k, h⟩ (ix2 l q))
      = ∑ l : Fin 1024, arrA1 V c (ix2 r (s l)) * arrY1 V c (ix2 (s l) q) := by
  refine Finset.sum_congr rfl fun l _ => ?_
  refine congrArg₂ (· * ·) ?_ ?_
  · exact blk1_0_apply V c ⟨4 * i + k, h⟩ p l r (s l) (by show r.val = 512 * ((4 * i + k) / 4) + p.val; omega)
      (by show (s l).val = 1024 * ((4 * i + k) % 4) + l.val; rw [hs l]; omega)
  · exact blk1_1_apply V c ⟨4 * i + k, h⟩ l q (s l) (by show (s l).val = 1024 * ((4 * i + k) % 4) + l.val; rw [hs l]; omega)

/-- After the last point of row block `i` the scratch holds block `i` of A · Y1: the four partial sums join into the
    full contraction. -/
theorem sacc1_row_apply (c : Dev nD) (i : ℕ) (h3 : 4 * i + 3 < cfg1.N) (p : Fin 512) (q : Fin 128) (r : Fin 4096)
    (hr : r.val = 512 * i + p.val) :
    sacc1 V c (4 * i + 3) h3 (ix2 p q) = ∑ l' : Fin 4096, arrA1 V c (ix2 r l') * arrY1 V c (ix2 l' q) := by
  have hN : cfg1.N = 32 := N_1
  rw [sacc1_row V c i h3]
  refine (row1_value (blk1 V c 0 ⟨4 * i, by omega⟩) (blk1 V c 0 ⟨4 * i + 1, by omega⟩) (blk1 V c 0 ⟨4 * i + 2, by omega⟩) (blk1 V c 0 ⟨4 * i + 3, h3⟩)
    (blk1 V c 1 ⟨4 * i, by omega⟩) (blk1 V c 1 ⟨4 * i + 1, by omega⟩) (blk1 V c 1 ⟨4 * i + 2, by omega⟩) (blk1 V c 1 ⟨4 * i + 3, h3⟩) p q).trans ?_
  rw [sum_four_blocks (fun l' : Fin 4096 => arrA1 V c (ix2 r l') * arrY1 V c (ix2 l' q))]
  refine congrArg₂ (· + ·) (congrArg₂ (· + ·) (congrArg₂ (· + ·) (congrArg₂ (· + ·) rfl ?_) ?_) ?_) ?_
  · exact block1_sum V c i 0 (by omega) (by omega) p q r hr (fun l => ⟨l.val, by omega⟩) (fun l => by show l.val = 1024 * 0 + l.val; omega)
  · exact block1_sum V c i 1 (by omega) (by omega) p q r hr (fun l => ⟨1024 + l.val, by omega⟩) (fun l => by show 1024 + l.val = 1024 * 1 + l.val; omega)
  · exact block1_sum V c i 2 (by omega) (by omega) p q r hr (fun l => ⟨2048 + l.val, by omega⟩) (fun l => by show 2048 + l.val = 1024 * 2 + l.val; omega)
  · exact block1_sum V c i 3 h3 (by omega) p q r hr (fun l => ⟨3072 + l.val, by omega⟩) (fun l => by show 3072 + l.val = 1024 * 3 + l.val; omega)

/-- What the region computes, as contents of the result array: Y2 = relu(A · Y1 + b1) · W2ᵀ of the arrays as the region
    finds them. -/
def G1 (c : Dev nD) : S4096x128.Idx → EReal :=
  arr (hid (mat (V c main_arg0 : S4096x4096.Idx → EReal)) (mat (V c main_v2 : S4096x128.Idx → EReal))
    (fun k => (V c main_arg3 : S1x128.Idx → EReal) (ix2 (0 : Fin 1) k)) (mat (V c main_v1 : S128x128.Idx → EReal)))

/-- At the last point of row block `i` the epilogue leaves block `i` of Y2 in the output's staging buffer. -/
theorem out1_row_apply (c : Dev nD) (i : ℕ) (h3 : 4 * i + 3 < cfg1.N) (p : Fin 512) (q : Fin 128) (r : Fin 4096)
    (hr : r.val = 512 * i + p.val) :
    out1 V c ⟨4 * i + 3, h3⟩ (ix2 p q) = G1 V c (ix2 r q) := by
  unfold out1
  refine (fin1_apply (sacc1 V c (4 * i + 3) h3) (blk1 V c 2 ⟨4 * i + 3, h3⟩) (blk1 V c 3 ⟨4 * i + 3, h3⟩) p q).trans ?_
  show _ = ∑ k : Fin 128, relu ((∑ l' : Fin 4096, arrA1 V c (ix2 r l') * arrY1 V c (ix2 l' k)) + arrB1 V c (ix2 (0 : Fin 1) k)) * arrW1 V c (ix2 k q)
  refine Finset.sum_congr rfl fun k _ => ?_
  refine congrArg₂ (fun x y => relu x * y) (congrArg₂ (· + ·) ?_ ?_) ?_
  · exact sacc1_row_apply V c i h3 p k r hr
  · exact blk1_2_apply V c ⟨4 * i + 3, h3⟩ k
  · exact blk1_3_apply V c ⟨4 * i + 3, h3⟩ k q

/-! ## From the blocks to the array -/

/-- What the last point of a row writes back is its block of Y2. -/
theorem flushed1_eq (c : Dev nD) (t : Fin cfg1.N) (hf : (cfg1.win 4).flush t = true) :
    (data1 (F := Ideal) V c).flushed 4 t = ((cfg1.win 4).blk t).view.read (Elt Ideal) (G1 V c) := by
  have h3 : t.val % 4 = 3 := (flush1_4 t).mp hf
  have hN : t.val < 32 := lt_of_lt_of_eq t.isLt (show cfg1.N = 32 from N_1)
  show (cfg1.win 4).cut (grid1.coords t) ((data1 V c).after 4 t) = _
  rw [data1_after_4]
  obtain ⟨i, hi⟩ : ∃ i, t.val = 4 * i + 3 := ⟨t.val / 4, by omega⟩
  obtain ⟨n, hn⟩ := t
  dsimp only at hi h3 hN
  subst hi
  funext j
  obtain ⟨p, q, rfl⟩ : ∃ (p : Fin 512) (q : Fin 128), j = ix2 p q := ⟨j 0, j 1, eq_ix2 j⟩
  rw [View.read_apply]
  obtain ⟨-, -, -, -, -, -, -, -, e0, e1⟩ := idx1_facts ⟨4 * i + 3, hn⟩
  have e : ((cfg1.win 4).blk ⟨4 * i + 3, hn⟩).view.emb (ix2 p q) = (ix2 (⟨512 * i + p.val, by omega⟩ : Fin 4096) q : S4096x128.Idx) := by
    funext a; apply Fin.ext
    match a with
    | ⟨0, _⟩ => show win1_4.index ⟨4 * i + 3, hn⟩ (0 : Fin 2) * 512 + 1 * p.val = 512 * i + p.val; rw [e0]; show (4 * i + 3) / 4 * 512 + 1 * p.val = _; omega
    | ⟨1, _⟩ => show win1_4.index ⟨4 * i + 3, hn⟩ (1 : Fin 2) * 128 + 1 * q.val = q.val; rw [e1]; omega
  show out1 V c ⟨4 * i + 3, hn⟩ (ix2 p q) = G1 V c (((cfg1.win 4).blk ⟨4 * i + 3, hn⟩).view.emb (ix2 p q))
  rw [e]
  exact out1_row_apply V c i hn p q _ rfl

/-- An index of the result array is in point `t`'s block iff each coordinate is in the block's range on its axis. -/
theorem mem_blk1_4 (t : Fin cfg1.N) (j : S4096x128.Idx) :
    j ∈ ((cfg1.win 4).blk t).view.set ↔ ∀ a : Fin 2, win1_4.index t a * S512x128.size a ≤ (j a).val ∧ (j a).val < win1_4.index t a * S512x128.size a + S512x128.size a := by
  show j ∈ ((View.whole main_v3).slice (win1_4.rect t)).set ↔ _
  rw [View.set_slice_whole, Rect.mem_set_unit]
  exact Iff.rfl

/-- Every row of the result is in the block some row's last point writes back: row `r` in that of point `4 (r / 512) + 3`. -/
theorem covered1 (j : S4096x128.Idx) : ∃ t : Fin cfg1.N, (cfg1.win 4).flush t = true ∧ j ∈ ((cfg1.win 4).blk t).view.set := by
  have h0 : (j 0).val < 4096 := idx2_lt0 j
  have h1 : (j 1).val < 128 := idx2_lt1 j
  have hN : cfg1.N = 32 := N_1
  refine ⟨⟨4 * ((j 0).val / 512) + 3, by omega⟩, (flush1_4 _).mpr (by dsimp only; omega), ?_⟩
  rw [mem_blk1_4]
  obtain ⟨-, -, -, -, -, -, -, -, e0, e1⟩ := idx1_facts ⟨4 * ((j 0).val / 512) + 3, by omega⟩
  intro a
  match a with
  | ⟨0, _⟩ =>
    show win1_4.index _ (0 : Fin 2) * 512 ≤ (j 0).val ∧ (j 0).val < win1_4.index _ (0 : Fin 2) * 512 + 512
    rw [e0]; show (4 * ((j 0).val / 512) + 3) / 4 * 512 ≤ (j 0).val ∧ (j 0).val < (4 * ((j 0).val / 512) + 3) / 4 * 512 + 512; omega
  | ⟨1, _⟩ =>
    show win1_4.index _ (1 : Fin 2) * 128 ≤ (j 1).val ∧ (j 1).val < win1_4.index _ (1 : Fin 2) * 128 + 128
    rw [e1]; omega

/-- THE RESULT ARRAY after the region: Y2 = relu(A · Y1 + b1) · W2ᵀ of the arrays as the region finds them. -/
theorem final1 (c : Dev nD) : (data1 (F := Ideal) V c).arrAt 4 cfg1.N
    = arr (hid (mat (V c main_arg0 : S4096x4096.Idx → EReal)) (mat (V c main_v2 : S4096x128.Idx → EReal))
        (fun k => (V c main_arg3 : S1x128.Idx → EReal) (ix2 (0 : Fin 1) k)) (mat (V c main_v1 : S128x128.Idx → EReal))) :=
  (data1 (F := Ideal) V c).arrAt_eq_of_cover 4 (G1 V c) (fun t hf => flushed1_eq V c t hf) covered1

end Cert.ReferenceIdeal.Hand

end
-- ==== Proof.RIVal3.lean ====
/-
  Region 3 of the reference program at the exact (extended-real) instance: the reconstruction after the region is
  ½ · tanh(½ · H2 · H2ᵀ) + ½, entry by entry — point (i, j) of the 8 × 4 grid writes tile (i, j), rows 512·i … against
  rows 1024·j … of H2, of that one matrix, and the thirty-two tiles fill the array.
-/
import proofs.«170631_g2000106516245658_pallasbulk_929_4_alg».proof.Proof.RIReg3
import proofs.«170631_g2000106516245658_pallasbulk_929_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)
open Cert.Spec

/-- The offsets of a whole-block rectangle are all zero. -/
theorem hz3 : (![0, 0] : Fin 2 → Nat) = fun _ => 0 := funext fun a => by fin_cases a <;> rfl

/-- The contraction of the tile product H2_rows · H2_colsᵀ runs over the 128 columns of both factors. -/
abbrev D3 : DotDims S512x128 S1024x128 S512x1024 := dot_S512x128_S1024x128_S512x1024_1_1_0_0_n_n

/-- The left factor of the product at output entry (p, s) and contraction position k is entry (p, k). -/
theorem D3_lhs (p : Fin 512) (s : Fin 1024) (k : Fin 128) :
    D3.lhsIdx (ix2 p s) ((contrEquiv1 D3 128 rfl rfl).symm k) = ix2 p k := by
  funext a; apply Fin.ext
  match a with
  | ⟨0, _⟩ => rfl
  | ⟨1, _⟩ => exact (D3.lhsIdx_val_of_single (cl := 1) rfl (ix2 p s) _).trans (contrEquiv1_symm_val D3 128 rfl rfl k)

/-- The right factor is entry (s, k): the second operand enters transposed. -/
theorem D3_rhs (p : Fin 512) (s : Fin 1024) (k : Fin 128) :
    D3.rhsIdx (ix2 p s) ((contrEquiv1 D3 128 rfl rfl).symm k) = ix2 s k := by
  funext a; apply Fin.ext
  match a with
  | ⟨0, _⟩ => rfl
  | ⟨1, _⟩ => exact (D3.rhsIdx_val_of_single (cr := 1) rfl (ix2 p s) _).trans (contrEquiv1_symm_val D3 128 rfl rfl k)

/-- The body's result at entry (p, s) of the tile: the logistic function of the contraction of row p of the first block
    with row s of the second. -/
theorem pay3_apply (x0 : FVec Ideal S512x128 .f32) (x1 : FVec Ideal S1024x128 .f32) (p : Fin 512) (s : Fin 1024) :
    k3_pay1 (F := Ideal) x0 x1 (ix2 p s) = Spec.logistic (∑ k : Fin 128, x0 (ix2 p k) * x1 (ix2 s k)) := by
  unfold k3_pay1 Spec.logistic
  show half * Ideal.tanh (half * FloatOps.matmul D3 none (shapeCast S512x128 x0 shapeCasts_S512x128_S512x128)
    (shapeCast S1024x128 x1 shapeCasts_S1024x128_S1024x128) (constant S512x1024 .f32 0x00000000#32) (ix2 p s)) + half = _
  rw [shapeCast_self, shapeCast_self]
  refine congrArg (fun z => half * Ideal.tanh (half * z) + half) ?_
  refine (Ideal.matmul_constant_zero_apply D3 none x0 x1 (ix2 p s)).trans ?_
  refine (Equiv.sum_comp (contrEquiv1 D3 128 rfl rfl).symm _).symm.trans ?_
  refine Finset.sum_congr rfl fun k _ => ?_
  rw [D3_lhs, D3_rhs]

variable (V : (c : Dev nD) → (b : Ref sig .tc) → Buf (Elt Ideal) ((c : Thread nD τ).loc b))

/-- The index maps over the grid of 8 × 4 points: point t is (t / 4, t % 4); the first window's block is row block t / 4
    of H2, the second's row block t % 4, the output's tile (t / 4, t % 4). -/
theorem idx_facts3 : ∀ t : Fin cfg3.N, win3_0.index t (0 : Fin 2) = t.val / 4 ∧ win3_0.index t (1 : Fin 2) = 0
    ∧ win3_1.index t (0 : Fin 2) = t.val % 4 ∧ win3_1.index t (1 : Fin 2) = 0
    ∧ win3_2.index t (0 : Fin 2) = t.val / 4 ∧ win3_2.index t (1 : Fin 2) = t.val % 4 :=
  (by decide +kernel : ∀ t : Fin grid3.N, _)

/-- Row p of the first block at point t is row 512·(t / 4) + p of H2. -/
theorem blk3_0_apply (c : Dev nD) (t : Fin cfg3.N) (p : Fin 512) (k : Fin 128) (r : Fin 4096) (hr : r.val = 512 * (t.val / 4) + p.val) :
    (blk3 V c 0 t : Vec Ideal S512x128 .f32) (ix2 p k) = (V c main_v4 : S4096x128.Idx → EReal) (ix2 r k) := by
  obtain ⟨e0, e1, -⟩ := idx_facts3 t
  unfold blk3
  rw [View.read_apply]
  show V c main_v4 _ = _
  refine congrArg (V c main_v4) ?_
  funext a; apply Fin.ext
  match a with
  | ⟨0, _⟩ => show win3_0.index t (0 : Fin 2) * 512 + 1 * p.val = r.val; omega
  | ⟨1, _⟩ => show win3_0.index t (1 : Fin 2) * 128 + 1 * k.val = k.val; omega

/-- Row s of the second block at point t is row 1024·(t % 4) + s of H2. -/
theorem blk3_1_apply (c : Dev nD) (t : Fin cfg3.N) (s : Fin 1024) (k : Fin 128) (s' : Fin 4096) (hs : s'.val = 1024 * (t.val % 4) + s.val) :
    (blk3 V c 1 t : Vec Ideal S1024x128 .f32) (ix2 s k) = (V c main_v4 : S4096x128.Idx → EReal) (ix2 s' k) := by
  obtain ⟨-, -, e0, e1, -⟩ := idx_facts3 t
  unfold blk3
  rw [View.read_apply]
  show V c main_v4 _ = _
  refine congrArg (V c main_v4) ?_
  funext a; apply Fin.ext
  match a with
  | ⟨0, _⟩ => show win3_1.index t (0 : Fin 2) * 1024 + 1 * s.val = s'.val; omega
  | ⟨1, _⟩ => show win3_1.index t (1 : Fin 2) * 128 + 1 * k.val = k.val; omega

/-- The payload over blocks that are rows of H2 is the entry of the reconstruction those rows give. -/
theorem dec_at (H : S4096x128.Idx → EReal) (x0 : FVec Ideal S512x128 .f32) (x1 : FVec Ideal S1024x128 .f32)
    (p : Fin 512) (s : Fin 1024) (r s' : Fin 4096)
    (h0 : ∀ k, x0 (ix2 p k) = H (ix2 r k)) (h1 : ∀ k, x1 (ix2 s k) = H (ix2 s' k)) :
    k3_pay1 (F := Ideal) x0 x1 (ix2 p s) = dec (mat H) r s' := by
  rw [pay3_apply]
  show Spec.logistic _ = Spec.logistic (∑ k : Fin 128, H (ix2 r k) * H (ix2 s' k))
  exact congrArg Spec.logistic (Finset.sum_congr rfl fun k _ => by rw [h0 k, h1 k])

/-- The reconstruction as one function of H2 as the region finds it. -/
abbrev G3 (c : Dev nD) : S4096x4096.Idx → EReal := arr (dec (mat (V c main_v4 : S4096x128.Idx → EReal)))

/-- What point t writes back is tile (t / 4, t % 4) of the reconstruction. -/
theorem flushed3_eq (c : Dev nD) (t : Fin cfg3.N) :
    (data3 V c).flushed 2 t = ((cfg3.win 2).blk t).view.read (Elt Ideal) (G3 V c) := by
  show (cfg3.win 2).cut (grid3.coords t) ((data3 V c).after 2 t) = _
  rw [data3_after_2]
  unfold dec3
  rw [View.canon_unit_zero hz3]
  simp only [View.ld_unit_zero (S := S512x128) hz3, View.ld_unit_zero (S := S1024x128) hz3]
  obtain ⟨-, -, -, -, e0, e1⟩ := idx_facts3 t
  funext j
  obtain ⟨p, s, rfl⟩ : ∃ (p : Fin 512) (s : Fin 1024), j = ix2 p s := ⟨j 0, j 1, eq_ix2 j⟩
  have hr : (((cfg3.win 2).blk t).view.emb (ix2 p s) 0 : Fin 4096).val = 512 * (t.val / 4) + p.val := by
    show win3_2.index t (0 : Fin 2) * 512 + 1 * p.val = _; omega
  have hs : (((cfg3.win 2).blk t).view.emb (ix2 p s) 1 : Fin 4096).val = 1024 * (t.val % 4) + s.val := by
    show win3_2.index t (1 : Fin 2) * 1024 + 1 * s.val = _; omega
  exact dec_at _ _ _ p s _ _ (fun k => blk3_0_apply V c t p k _ hr) (fun k => blk3_1_apply V c t s k _ hs)

/-- An index of the reconstruction is in point t's tile iff each coordinate is in the tile's range on its axis. -/
theorem mem_blk3 (t : Fin cfg3.N) (i : S4096x4096.Idx) :
    i ∈ ((cfg3.win 2).blk t).view.set ↔ ∀ a : Fin 2, win3_2.index t a * S512x1024.size a ≤ (i a).val ∧ (i a).val < win3_2.index t a * S512x1024.size a + S512x1024.size a := by
  show i ∈ ((View.whole main_v5).slice (win3_2.rect t)).set ↔ _
  rw [View.set_slice_whole, Rect.mem_set_unit]
  exact Iff.rfl

/-- Entry (r, s) of the reconstruction is in the tile of point 4 · (r / 512) + s / 1024. -/
theorem cover3 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ : ∃ t : Fin cfg3.N, t.val = (i 0).val / 512 * 4 + (i 1).val / 1024 :=
    ⟨⟨(i 0).val / 512 * 4 + (i 1).val / 1024, by rw [show cfg3.N = 32 from N_3]; omega⟩, rfl⟩
  obtain ⟨-, -, -, -, e0, e1⟩ := idx_facts3 t
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 1024 ≤ (i 1).val ∧ (i 1).val < win3_2.index t (1 : Fin 2) * 1024 + 1024; omega

/-- The reconstruction after the region: ½ · tanh(½ · H2 · H2ᵀ) + ½ of H2 as the region finds it. -/
theorem final3 (c : Dev nD) : (data3 (F := Ideal) V c).arrAt 2 cfg3.N = arr (dec (mat (V c main_v4 : S4096x128.Idx → EReal))) :=
  (data3 V c).arrAt_eq_of_cover 2 (G3 V c) (fun t _ => flushed3_eq V c t) cover3

end Cert.ReferenceIdeal.Hand

end
-- ==== Proof.RIFin.lean ====
/-
  The values of the whole run at the ideal instance: the latent's buffer ends at the specification's latent of the
  six argument arrays and the reconstruction's at the specification's reconstruction. Each region's output array is the
  layer's function of its input arrays (the regions' value theorems); each input array is an argument's launch
  contents, a host transpose of one, or the output array of the region before; composing the four layers gives the
  two results as functions of the arguments alone.
-/
import proofs.«170631_g2000106516245658_pallasbulk_929_4_alg».proof.Proof.RIOut
import proofs.«170631_g2000106516245658_pallasbulk_929_4_alg».proof.Proof.RISeg3
import proofs.«170631_g2000106516245658_pallasbulk_929_4_alg».proof.Proof.RIVal0
import proofs.«170631_g2000106516245658_pallasbulk_929_4_alg».proof.Proof.RIVal1
import proofs.«170631_g2000106516245658_pallasbulk_929_4_alg».proof.Proof.RIVal2
import proofs.«170631_g2000106516245658_pallasbulk_929_4_alg».proof.Proof.RIVal3
import proofs.«170631_g2000106516245658_pallasbulk_929_4_alg».proof.Proof.Whole

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-- The six arguments' launch contents on core `c`, as the specification's matrices and rows. -/
abbrev inA (c : Dev nD) : Fin 4096 → Fin 4096 → EReal := mat (m ((c.tc : Thread nD τ).loc main_arg0) : S4096x4096.Idx → EReal)
abbrev inH0 (c : Dev nD) : Fin 4096 → Fin 256 → EReal := mat (m ((c.tc : Thread nD τ).loc main_arg1) : S4096x256.Idx → EReal)
abbrev inW1 (c : Dev nD) : Fin 128 → Fin 256 → EReal := mat (m ((c.tc : Thread nD τ).loc main_arg2) : S128x256.Idx → EReal)
abbrev inB1 (c : Dev nD) : Fin 128 → EReal := fun k => (m ((c.tc : Thread nD τ).loc main_arg3) : S1x128.Idx → EReal) (ix2 0 k)
abbrev inW2 (c : Dev nD) : Fin 128 → Fin 128 → EReal := mat (m ((c.tc : Thread nD τ).loc main_arg4) : S128x128.Idx → EReal)
abbrev inB2 (c : Dev nD) : Fin 128 → EReal := fun k => (m ((c.tc : Thread nD τ).loc main_arg5) : S1x128.Idx → EReal) (ix2 0 k)

/-- Region 0's output array, as region 1 finds it: Y1 of the arguments. -/
theorem y1_eq (c : Dev nD) : (E2 m ρ c main_v2 : S4096x128.Idx → EReal) = arr (feat (inH0 m c) (trp (inW1 m c))) := by
  have e1 : (E1 m ρ c main_arg1 : S4096x256.Idx → EReal) = (m ((c.tc : Thread nD τ).loc main_arg1) : S4096x256.Idx → EReal) := E1_arg1 m ρ c
  have e0 : mat (E1 m ρ c main_v0 : S256x128.Idx → EReal) = trp (inW1 m c) := by
    rw [E1_v0 m ρ c]; exact mat_transpose _ _
  refine (E2_v2 m ρ c).trans ((final0 (E1 m ρ) c).trans ?_)
  rw [e1, e0]

/-- Region 1's output array, as region 2 finds it: Y2 of the arguments. -/
theorem y2_eq (c : Dev nD) : (E3 m ρ c main_v3 : S4096x128.Idx → EReal)
    = arr (hid (inA m c) (feat (inH0 m c) (trp (inW1 m c))) (inB1 m c) (trp (inW2 m c))) := by
  have e0 : (E2 m ρ c main_arg0 : S4096x4096.Idx → EReal) = (m ((c.tc : Thread nD τ).loc main_arg0) : S4096x4096.Idx → EReal) := E2_arg0 m ρ c
  have e3 : (E2 m ρ c main_arg3 : S1x128.Idx → EReal) = (m ((c.tc : Thread nD τ).loc main_arg3) : S1x128.Idx → EReal) := E2_arg3 m ρ c
  have e1 : mat (E2 m ρ c main_v1 : S128x128.Idx → EReal) = trp (inW2 m c) := by
    rw [E2_v1 m ρ c, E1_v1 m ρ c]; exact mat_transpose _ _
  refine (E3_v3 m ρ c).trans ((final1 (E2 m ρ) c).trans ?_)
  rw [e0, e3, e1, y1_eq m ρ c, mat_arr]

/-- Region 2's output array at the end is the latent of the arguments. -/
theorem latent_eq (c : Dev nD) :
    (data2 (F := Ideal) (E3 m ρ) c).arrAt 3 cfg2.N
      = arr (latent (inA m c) (inH0 m c) (inW1 m c) (inB1 m c) (inW2 m c) (inB2 m c)) := by
  have e0 : (E3 m ρ c main_arg0 : S4096x4096.Idx → EReal) = (m ((c.tc : Thread nD τ).loc main_arg0) : S4096x4096.Idx → EReal) := E3_arg0 m ρ c
  have e5 : (E3 m ρ c main_arg5 : S1x128.Idx → EReal) = (m ((c.tc : Thread nD τ).loc main_arg5) : S1x128.Idx → EReal) := E3_arg5 m ρ c
  refine (final2 (E3 m ρ) c).trans ?_
  rw [e0, e5, y2_eq m ρ c, mat_arr]
  rfl

/-- Region 3's output array at the end is the reconstruction of the arguments. -/
theorem recon_eq (c : Dev nD) :
    (data3 (F := Ideal) (E4 m ρ) c).arrAt 2 cfg3.N
      = arr (recon (inA m c) (inH0 m c) (inW1 m c) (inB1 m c) (inW2 m c) (inB2 m c)) := by
  have e4 : (E4 m ρ c main_v4 : S4096x128.Idx → EReal)
      = arr (latent (inA m c) (inH0 m c) (inW1 m c) (inB1 m c) (inW2 m c) (inB2 m c)) := (E4_v4 m ρ c).trans (latent_eq m ρ c)
  refine (final3 (E4 m ρ) c).trans ?_
  rw [e4, mat_arr]
  rfl

/-- The run at the ideal instance, with both results as the specification's functions of the arguments. -/
theorem run_values :
    θ_run defs (onTc (τ := τ) (main (F := Ideal))) ⟨m, fun _ => 0, ρ⟩ (fun r => ∀ c : Dev nD,
      r.2.mem ((c.tc : Thread nD τ).loc main_v5) = arr (recon (inA m c) (inH0 m c) (inW1 m c) (inB1 m c) (inW2 m c) (inB2 m c))
      ∧ r.2.mem ((c.tc : Thread nD τ).loc main_v4) = arr (latent (inA m c) (inH0 m c) (inW1 m c) (inB1 m c) (inW2 m c) (inB2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (recon_eq m ρ c), (h c).2.1.trans (latent_eq m ρ c), (h c).2.2⟩)
    (run_named m ρ (reg3 m ρ) (fun _ => .rfl) (fun _ => .rfl))

end Cert.ReferenceIdeal.Hand

end
-- ==== Proof.lean ====
/-
  A four-layer graph auto-encoder forward pass: both programs compute, from the adjacency A, the features H0 and the two
  layers' weights and biases, the latent  H2 = A · (relu(A · (H0 · W1ᵀ) + b1) · W2ᵀ) + b2  and the reconstruction
  ½ · tanh(½ · H2 · H2ᵀ) + ½, each as four pipelined kernel launches after two host transposes. The kernel contracts all
  4096 columns of A in one step per block of 256 rows; the reference accumulates the same contraction over four blocks
  of 1024 columns, starting from zero, in a scratch buffer (layer 1) or in the output block (layer 2), and tiles the
  reconstruction 512 × 1024. Over the extended reals a finite sum may be taken in any grouping, so the two agree entry
  by entry: both runs end with the latent and the reconstruction at ONE function of the six arguments (the
  specification's `latent` and `recon`), and no argument is written by either.

  Each program's run (termination, no fault, the final contents of every buffer) is the pipeline library's launch
  theorem for a list of host stretches and kernel regions, from one segment record per region; each region's record is
  its body's triple at every grid point over named block contents. The frames are those runs with the results dropped.
  The word-level kernel's frame is the same text read at the bit-exact instance. The idealization rewrote nothing.
-/
import proofs.«170631_g2000106516245658_pallasbulk_929_4_alg».proof.Defs
import proofs.«170631_g2000106516245658_pallasbulk_929_4_alg».proof.Proof.Gen.Kernel
import proofs.«170631_g2000106516245658_pallasbulk_929_4_alg».proof.Proof.Gen.KernelIdeal
import proofs.«170631_g2000106516245658_pallasbulk_929_4_alg».proof.Proof.Gen.ReferenceIdeal
import proofs.«170631_g2000106516245658_pallasbulk_929_4_alg».proof.Proof.Gen.Pre_finite_inputs
import proofs.«170631_g2000106516245658_pallasbulk_929_4_alg».proof.Proof.KBOut
import proofs.«170631_g2000106516245658_pallasbulk_929_4_alg».proof.Proof.KBSeg3
import proofs.«170631_g2000106516245658_pallasbulk_929_4_alg».proof.Proof.KIFin
import proofs.«170631_g2000106516245658_pallasbulk_929_4_alg».proof.Proof.RIFin
import Idealize.ShloMosaic.Adequacy
import Idealize.ShloMosaic.Init

noncomputable section

namespace Cert.Proof

open Idealize.ShloMosaic Idealize.SL.Sem Cert.Spec

/-- The word-level kernel runs to the end, faults nowhere, and leaves its arguments as launched. -/
theorem frame_kernel : Cert.frame_Kernel := fun m ρ _ =>
  (θ_run Cert.Kernel.defs _ _).mono (fun _ h c => (h c).2.2)
    (Cert.Kernel.Hand.run_named (F := Bits) m ρ (Cert.Kernel.Hand.reg3 m ρ) (fun _ => .rfl) (fun _ => .rfl))

/-- So does the idealized kernel, -/
theorem frame_kernel_ideal : Cert.frame_KernelIdeal := fun m ρ _ =>
  (θ_run Cert.KernelIdeal.defs _ _).mono (fun _ h c => (h c).2.2) (Cert.KernelIdeal.Hand.run_values m ρ)

/-- and the idealized reference. -/
theorem frame_reference_ideal : Cert.frame_ReferenceIdeal := fun m ρ _ =>
  (θ_run Cert.ReferenceIdeal.defs _ _).mono (fun _ h c => (h c).2.2) (Cert.ReferenceIdeal.Hand.run_values m ρ)

/-- From memories that agree on the six arguments the two idealized programs end with the same reconstruction and the
    same latent: the specification's functions of the (common) arguments. -/
theorem algebraic :
    Cert.algebraic_KernelIdeal_ReferenceIdeal := by
  intro m ρ m' ρ' _ hagree
  refine ⟨_, _, Cert.KernelIdeal.Hand.run_values m ρ, ?_⟩
  refine (θ_run Cert.ReferenceIdeal.defs _ _).mono (fun r h c => ?_) (Cert.ReferenceIdeal.Hand.run_values m' ρ')
  obtain ⟨h5, h4, hargs⟩ := h c
  obtain ⟨e0, e1, e2, e3, e4, e5⟩ := hagree c
  have hA : Cert.ReferenceIdeal.Hand.inA m' c = Cert.KernelIdeal.Hand.inA m c := by
    unfold Cert.ReferenceIdeal.Hand.inA Cert.KernelIdeal.Hand.inA; rw [e0]
  have hH0 : Cert.ReferenceIdeal.Hand.inH0 m' c = Cert.KernelIdeal.Hand.inH0 m c := by
    unfold Cert.ReferenceIdeal.Hand.inH0 Cert.KernelIdeal.Hand.inH0; rw [e1]
  have hW1 : Cert.ReferenceIdeal.Hand.inW1 m' c = Cert.KernelIdeal.Hand.inW1 m c := by
    unfold Cert.ReferenceIdeal.Hand.inW1 Cert.KernelIdeal.Hand.inW1; rw [e2]
  have hB1 : Cert.ReferenceIdeal.Hand.inB1 m' c = Cert.KernelIdeal.Hand.inB1 m c := by
    unfold Cert.ReferenceIdeal.Hand.inB1 Cert.KernelIdeal.Hand.inB1; rw [e3]
  have hW2 : Cert.ReferenceIdeal.Hand.inW2 m' c = Cert.KernelIdeal.Hand.inW2 m c := by
    unfold Cert.ReferenceIdeal.Hand.inW2 Cert.KernelIdeal.Hand.inW2; rw [e4]
  have hB2 : Cert.ReferenceIdeal.Hand.inB2 m' c = Cert.KernelIdeal.Hand.inB2 m c := by
    unfold Cert.ReferenceIdeal.Hand.inB2 Cert.KernelIdeal.Hand.inB2; rw [e5]
  refine ⟨h5.trans ?_, h4.trans ?_, hargs⟩
  · rw [hA, hH0, hW1, hB1, hW2, hB2]
  · rw [hA, hH0, hW1, hB1, hW2, hB2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
